-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S16x1024x1024 : Shape := ⟨3, ![16, 1024, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024 .f32) (main_arg12 : FVec F S512 .f32) (main_arg13 : FVec F S512 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024 .f32) (main_arg10 : FVec F S1024 .f32) (main_arg11 : FVec F S1024 .f32) (main_arg12 : FVec F S512 .f32) (main_arg13 : FVec F S512 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_arg12 : FVec F S512 .f32) (main_arg13 : FVec F S512 .f32) (main_arg14 : FVec F S1024x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x1024x512 .f32) (main_arg1 : FVec F S16x1024x1024 .f32) (main_arg2 : FVec F S512x512 .f32) (main_arg3 : FVec F S512 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_arg12 : FVec F S512 .f32) (main_arg13 : FVec F S512 .f32) (main_arg14 : FVec F S1024x1024 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x1024x512 : Shape := ⟨3, ![16, 1024, 512]⟩
abbrev S16x1024x1024 : Shape := ⟨3, ![16, 1024, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S16x512x1024 : Shape := ⟨3, ![16, 512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S512x1 : Shape := ⟨2, ![512, 1]⟩
abbrev S1x1024 : Shape := ⟨2, ![1, 1024]⟩
abbrev S1x1024x1024 : Shape := ⟨3, ![1, 1024, 1024]⟩
abbrev S1024x1 : Shape := ⟨2, ![1024, 1]⟩
abbrev S1x512 : Shape := ⟨2, ![1, 512]⟩

abbrev nBuf : Space → Nat
  | .hbm => 29
  | .vmem => 23
  | .smem => 0
  | _ => 0

abbrev bufTy : (tb : Table) → Fin (tcTables nBuf tb) → BufTy
  | .hbm, ⟨0, _⟩ => ⟨S16x1024x512, .f32⟩
  | .hbm, ⟨1, _⟩ => ⟨S16x1024x1024, .f32⟩
  | .hbm, ⟨2, _⟩ => ⟨S512x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S512, .f32⟩
  | .hbm, ⟨13, _⟩ => ⟨S512, .f32⟩
  | .hbm, ⟨14, _⟩ => ⟨S1024x1024, .f32⟩
  | .hbm, ⟨15, _⟩ => ⟨S512x512, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S16x512x1024, .bf16⟩
  | .hbm, ⟨28, _⟩ => ⟨S16x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .bf16⟩
  | .local _ .vmem, ⟨3, _⟩ => ⟨S512, .f32⟩
  | .local _ .vmem, ⟨4, _⟩ => ⟨S1024, .f32⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S512, .f32⟩
  | .local _ .vmem, ⟨20, _⟩ => ⟨S512, .f32⟩
  | .local _ .vmem, ⟨21, _⟩ => ⟨S1x1024x512, .f32⟩
  | .local _ .vmem, ⟨22, _⟩ => ⟨S1x1024x512, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  bcast_S_S1024x1024 : S_.BroadcastsInDim S1024x1024 (![] : Fin 0 → Fin S1024x1024.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  reduces_S512x1024_S512 : S512x1024.Reduces [1] S512
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x512_S512 : S512x512.Reduces [1] S512
  broadcasts_S512x1_S512x512 : S512x1.Broadcasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  reduces_S1024x512_S1024 : S1024x512.Reduces [1] S1024
  broadcasts_S1024x1_S1024x512 : S1024x1.Broadcasts S1024x512
  shapeCasts_S512_S1x512 : S512.ShapeCasts S1x512
  broadcasts_S1x512_S1024x512 : S1x512.Broadcasts S1024x512
  shapeCasts_S1024x512_S1x1024x512 : S1024x512.ShapeCasts S1x1024x512
  dot_S512x512_S1024x512_S512x1024_1_1_0_0_n_n_wf : DotDims.WF S512x512 S1024x512 S512x1024 [1] [1] [0] [0] [] []
  dot_S512x1024_S1024x1024_S512x1024_1_1_0_0_n_n_wf : DotDims.WF S512x1024 S1024x1024 S512x1024 [1] [1] [0] [0] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S16x512x1024.size a
  hwx0_11 : ∀ i : grid0.Coords, EltTy.bits .bf16 = 32 ∨ (Rect.block (s := S16x512x1024) S1x512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S16x1024x1024.size a
  hwx1_0 : ∀ i : grid1.Coords, EltTy.bits .f32 = 32 ∨ (Rect.block (s := S16x1024x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S16x512x1024.size a
  hwx1_2 : ∀ i : grid1.Coords, EltTy.bits .bf16 = 32 ∨ (Rect.block (s := S16x512x1024) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x512.size a ≤ S16x1024x512.size a
  hwx1_5 : ∀ i : grid1.Coords, EltTy.bits .f32 = 32 ∨ (Rect.block (s := S16x1024x512) S1x1024x512.size (cc1_transform_5 i) (hinb1_5 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x1024x512 : Shape := ⟨3, ![16, 1024, 512]⟩
abbrev S16x1024x1024 : Shape := ⟨3, ![16, 1024, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S1x1024x1024 : Shape := ⟨3, ![1, 1024, 1024]⟩
abbrev S16x1024 : Shape := ⟨2, ![16, 1024]⟩
abbrev S16x1024x1 : Shape := ⟨3, ![16, 1024, 1]⟩
abbrev S16x1x1024 : Shape := ⟨3, ![16, 1, 1024]⟩
abbrev S1x1x512 : Shape := ⟨3, ![1, 1, 512]⟩
abbrev S16x512x1024 : Shape := ⟨3, ![16, 512, 1024]⟩
abbrev S16x512 : Shape := ⟨2, ![16, 512]⟩
abbrev S16x512x1 : Shape := ⟨3, ![16, 512, 1]⟩
abbrev S1x1x1024 : Shape := ⟨3, ![1, 1, 1024]⟩
abbrev S16x512x512 : Shape := ⟨3, ![16, 512, 512]⟩

abbrev nBuf : Space → Nat
  | .hbm => 188
  | .vmem => 0
  | .smem => 0
  | _ => 0

abbrev hbmTy0_0 (i : Nat) : BufTy := match i % 128 with
  | 0 => ⟨S16x1024x512, .f32⟩
  | 1 => ⟨S16x1024x1024, .f32⟩
  | 2 => ⟨S512x512, .f32⟩
  | 3 => ⟨S512, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S1024, .f32⟩
  | 11 => ⟨S1024, .f32⟩
  | 12 => ⟨S512, .f32⟩
  | 13 => ⟨S512, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S_, .f32⟩
  | 21 => ⟨S1024x1024, .f32⟩
  | 22 => ⟨S1024x1024, .f32⟩
  | 23 => ⟨S1x1024x1024, .f32⟩
  | 24 => ⟨S16x1024x1024, .f32⟩
  | 25 => ⟨S16x1024x1024, .f32⟩
  | 26 => ⟨S_, .f32⟩
  | 27 => ⟨S16x1024, .f32⟩
  | 28 => ⟨S_, .f32⟩
  | 29 => ⟨S16x1024, .f32⟩
  | 30 => ⟨S16x1024, .f32⟩
  | 31 => ⟨S16x1024, .f32⟩
  | 32 => ⟨S_, .f32⟩
  | 33 => ⟨S16x1024, .f32⟩
  | 34 => ⟨S16x1024, .i1⟩
  | 35 => ⟨S_, .f32⟩
  | 36 => ⟨S_, .f32⟩
  | 37 => ⟨S16x1024, .f32⟩
  | 38 => ⟨S16x1024, .f32⟩
  | 39 => ⟨S16x1024x1, .f32⟩
  | 40 => ⟨S16x1024x1024, .f32⟩
  | 41 => ⟨S16x1024x1024, .f32⟩
  | 42 => ⟨S16x1x1024, .f32⟩
  | 43 => ⟨S16x1024x1024, .f32⟩
  | 44 => ⟨S16x1024x1024, .f32⟩
  | 45 => ⟨S16x1024x512, .f32⟩
  | 46 => ⟨S1x1x512, .f32⟩
  | 47 => ⟨S16x1024x512, .f32⟩
  | 48 => ⟨S16x1024x512, .f32⟩
  | 49 => ⟨S_, .f32⟩
  | 50 => ⟨S_, .f32⟩
  | 51 => ⟨S16x1024x512, .f32⟩
  | 52 => ⟨S16x1024x512, .i1⟩
  | 53 => ⟨S_, .f32⟩
  | 54 => ⟨S16x1024x512, .f32⟩
  | 55 => ⟨S16x1024x512, .f32⟩
  | 56 => ⟨S16x1024x512, .f32⟩
  | 57 => ⟨S16x512x1024, .f32⟩
  | 58 => ⟨S_, .f32⟩
  | 59 => ⟨S16x512, .f32⟩
  | 60 => ⟨S16x512x1, .f32⟩
  | 61 => ⟨S_, .f32⟩
  | 62 => ⟨S16x512x1, .f32⟩
  | 63 => ⟨S16x512x1, .f32⟩
  | 64 => ⟨S_, .i32⟩
  | 65 => ⟨S_, .f32⟩
  | 66 => ⟨S16x512, .f32⟩
  | 67 => ⟨S16x512x1, .f32⟩
  | 68 => ⟨S_, .f32⟩
  | 69 => ⟨S16x512x1, .f32⟩
  | 70 => ⟨S16x512x1, .f32⟩
  | 71 => ⟨S16x512x1024, .f32⟩
  | 72 => ⟨S16x512x1024, .f32⟩
  | 73 => ⟨S16x512x1024, .f32⟩
  | 74 => ⟨S_, .f32⟩
  | 75 => ⟨S_, .f32⟩
  | 76 => ⟨S_, .f32⟩
  | 77 => ⟨S_, .f32⟩
  | 78 => ⟨S16x512, .f32⟩
  | 79 => ⟨S16x512x1, .f32⟩
  | 80 => ⟨S16x512x1, .f32⟩
  | 81 => ⟨S16x512x1, .f32⟩
  | 82 => ⟨S_, .f32⟩
  | 83 => ⟨S_, .i1⟩
  | 84 => ⟨S_, .f32⟩
  | 85 => ⟨S_, .f32⟩
  | 86 => ⟨S16x512x1, .f32⟩
  | 87 => ⟨S16x512x1, .f32⟩
  | 88 => ⟨S16x512x1024, .f32⟩
  | 89 => ⟨S16x512x1024, .f32⟩
  | 90 => ⟨S_, .f32⟩
  | 91 => ⟨S16x512x1, .f32⟩
  | 92 => ⟨S16x512x1, .f32⟩
  | 93 => ⟨S16x512x1, .f32⟩
  | 94 => ⟨S16x512x1024, .f32⟩
  | 95 => ⟨S16x512x1024, .f32⟩
  | 96 => ⟨S1x1x1024, .f32⟩
  | 97 => ⟨S16x512x1024, .f32⟩
  | 98 => ⟨S16x512x1024, .f32⟩
  | 99 => ⟨S1x1x1024, .f32⟩
  | 100 => ⟨S16x512x1024, .f32⟩
  | 101 => ⟨S16x512x1024, .f32⟩
  | 102 => ⟨S16x512x1024, .f32⟩
  | 103 => ⟨S1x1x1024, .f32⟩
  | 104 => ⟨S16x512x1024, .f32⟩
  | 105 => ⟨S16x512x1024, .f32⟩
  | 106 => ⟨S16x512x1024, .f32⟩
  | 107 => ⟨S1x1x1024, .f32⟩
  | 108 => ⟨S16x512x1024, .f32⟩
  | 109 => ⟨S16x512x1024, .f32⟩
  | 110 => ⟨S16x512x1024, .f32⟩
  | 111 => ⟨S1x1x1024, .f32⟩
  | 112 => ⟨S16x512x1024, .f32⟩
  | 113 => ⟨S16x512x1024, .f32⟩
  | 114 => ⟨S_, .f32⟩
  | 115 => ⟨S_, .f32⟩
  | 116 => ⟨S16x512x1024, .f32⟩
  | 117 => ⟨S16x512x1024, .i1⟩
  | 118 => ⟨S_, .f32⟩
  | 119 => ⟨S16x512x1024, .f32⟩
  | 120 => ⟨S16x512x1024, .f32⟩
  | 121 => ⟨S16x512x1024, .f32⟩
  | 122 => ⟨S16x512x512, .f32⟩
  | 123 => ⟨S_, .f32⟩
  | 124 => ⟨S16x512x512, .f32⟩
  | 125 => ⟨S16x512x512, .f32⟩
  | 126 => ⟨S_, .f32⟩
  | 127 => ⟨S16x512, .f32⟩
  | _ => ⟨S16x1024x512, .f32⟩

abbrev hbmTy0_1 (i : Nat) : BufTy := match i % 128 with
  | 0 => ⟨S_, .f32⟩
  | 1 => ⟨S16x512, .f32⟩
  | 2 => ⟨S16x512, .f32⟩
  | 3 => ⟨S16x512x1, .f32⟩
  | 4 => ⟨S16x512x512, .f32⟩
  | 5 => ⟨S16x512x512, .f32⟩
  | 6 => ⟨S16x512x512, .f32⟩
  | 7 => ⟨S_, .f32⟩
  | 8 => ⟨S16x512, .f32⟩
  | 9 => ⟨S16x512x1, .f32⟩
  | 10 => ⟨S16x512x512, .f32⟩
  | 11 => ⟨S16x512x512, .f32⟩
  | 12 => ⟨S16x512x1024, .f32⟩
  | 13 => ⟨S16x512x1024, .f32⟩
  | 14 => ⟨S16x1024x512, .f32⟩
  | 15 => ⟨S16x1024x512, .f32⟩
  | 16 => ⟨S_, .f32⟩
  | 17 => ⟨S16x1024, .f32⟩
  | 18 => ⟨S16x1024x1, .f32⟩
  | 19 => ⟨S_, .f32⟩
  | 20 => ⟨S16x1024x1, .f32⟩
  | 21 => ⟨S16x1024x1, .f32⟩
  | 22 => ⟨S_, .i32⟩
  | 23 => ⟨S_, .f32⟩
  | 24 => ⟨S16x1024, .f32⟩
  | 25 => ⟨S16x1024x1, .f32⟩
  | 26 => ⟨S_, .f32⟩
  | 27 => ⟨S16x1024x1, .f32⟩
  | 28 => ⟨S16x1024x1, .f32⟩
  | 29 => ⟨S16x1024x512, .f32⟩
  | 30 => ⟨S16x1024x512, .f32⟩
  | 31 => ⟨S16x1024x512, .f32⟩
  | 32 => ⟨S_, .f32⟩
  | 33 => ⟨S_, .f32⟩
  | 34 => ⟨S_, .f32⟩
  | 35 => ⟨S_, .f32⟩
  | 36 => ⟨S16x1024, .f32⟩
  | 37 => ⟨S16x1024x1, .f32⟩
  | 38 => ⟨S16x1024x1, .f32⟩
  | 39 => ⟨S16x1024x1, .f32⟩
  | 40 => ⟨S_, .f32⟩
  | 41 => ⟨S_, .i1⟩
  | 42 => ⟨S_, .f32⟩
  | 43 => ⟨S_, .f32⟩
  | 44 => ⟨S16x1024x1, .f32⟩
  | 45 => ⟨S16x1024x1, .f32⟩
  | 46 => ⟨S16x1024x512, .f32⟩
  | 47 => ⟨S16x1024x512, .f32⟩
  | 48 => ⟨S_, .f32⟩
  | 49 => ⟨S16x1024x1, .f32⟩
  | 50 => ⟨S16x1024x1, .f32⟩
  | 51 => ⟨S16x1024x1, .f32⟩
  | 52 => ⟨S16x1024x512, .f32⟩
  | 53 => ⟨S16x1024x512, .f32⟩
  | 54 => ⟨S1x1x512, .f32⟩
  | 55 => ⟨S16x1024x512, .f32⟩
  | 56 => ⟨S16x1024x512, .f32⟩
  | 57 => ⟨S1x1x512, .f32⟩
  | 58 => ⟨S16x1024x512, .f32⟩
  | 59 => ⟨S16x1024x512, .f32⟩
  | _ => ⟨S16x1024x512, .f32⟩

abbrev hbmTy (i : Nat) : BufTy := match i / 128 with
  | 0 => hbmTy0_0 i
  | 1 => hbmTy0_1 i
  | _ => ⟨S16x1024x512, .f32⟩

abbrev bufTy : (tb : Table) → Fin (tcTables nBuf tb) → BufTy
  | .hbm, ⟨i, _⟩ => hbmTy i
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v12 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_c : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_cst_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_cst_1 : Ref sig .tc := ⟨.hbm, 75, rfl⟩
abbrev main_call3_v8 : Ref sig .tc := ⟨.hbm, 76, rfl⟩
abbrev main_call3_cst_2 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_cst_3 : Ref sig .tc := ⟨.hbm, 82, rfl⟩
abbrev main_call3_v13 : Ref sig .tc := ⟨.hbm, 83, rfl⟩
abbrev main_call3_cst_4 : Ref sig .tc := ⟨.hbm, 84, rfl⟩
abbrev main_call3_call0_v0 : Ref sig .tc := ⟨.hbm, 85, rfl⟩
abbrev main_call3_call0_v1 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_7 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_cst_8 : Ref sig .tc := ⟨.hbm, 114, rfl⟩
abbrev main_call4_cst : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_v56 : Ref sig .tc := ⟨.hbm, 121, rfl⟩
abbrev main_v57 : Ref sig .tc := ⟨.hbm, 122, rfl⟩
abbrev main_cst_9 : Ref sig .tc := ⟨.hbm, 123, rfl⟩
abbrev main_v58 : Ref sig .tc := ⟨.hbm, 124, rfl⟩
abbrev main_v59 : Ref sig .tc := ⟨.hbm, 125, rfl⟩
abbrev main_cst_10 : Ref sig .tc := ⟨.hbm, 126, rfl⟩
abbrev main_v60 : Ref sig .tc := ⟨.hbm, 127, rfl⟩
abbrev main_cst_11 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_12 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_cst_13 : Ref sig .tc := ⟨.hbm, 144, rfl⟩
abbrev main_v75 : Ref sig .tc := ⟨.hbm, 145, rfl⟩
abbrev main_v76 : Ref sig .tc := ⟨.hbm, 146, rfl⟩
abbrev main_cst_14 : Ref sig .tc := ⟨.hbm, 147, rfl⟩
abbrev main_v77 : Ref sig .tc := ⟨.hbm, 148, rfl⟩
abbrev main_v78 : Ref sig .tc := ⟨.hbm, 149, rfl⟩
abbrev main_c_15 : Ref sig .tc := ⟨.hbm, 150, rfl⟩
abbrev main_call5_cst : Ref sig .tc := ⟨.hbm, 151, rfl⟩
abbrev main_call5_v0 : Ref sig .tc := ⟨.hbm, 152, rfl⟩
abbrev main_call5_v1 : Ref sig .tc := ⟨.hbm, 153, rfl⟩
abbrev main_call5_cst_0 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_v6 : Ref sig .tc := ⟨.hbm, 159, rfl⟩
abbrev main_call5_v7 : Ref sig .tc := ⟨.hbm, 160, rfl⟩
abbrev main_call5_cst_1 : Ref sig .tc := ⟨.hbm, 161, rfl⟩
abbrev main_call5_v8 : Ref sig .tc := ⟨.hbm, 162, rfl⟩
abbrev main_call5_cst_2 : Ref sig .tc := ⟨.hbm, 163, rfl⟩
abbrev main_call5_v9 : Ref sig .tc := ⟨.hbm, 164, rfl⟩
abbrev main_call5_v10 : Ref sig .tc := ⟨.hbm, 165, rfl⟩
abbrev main_call5_v11 : Ref sig .tc := ⟨.hbm, 166, rfl⟩
abbrev main_call5_v12 : Ref sig .tc := ⟨.hbm, 167, rfl⟩
abbrev main_call5_cst_3 : Ref sig .tc := ⟨.hbm, 168, rfl⟩
abbrev main_call5_v13 : Ref sig .tc := ⟨.hbm, 169, rfl⟩
abbrev main_call5_cst_4 : Ref sig .tc := ⟨.hbm, 170, rfl⟩
abbrev main_call5_call0_v0 : Ref sig .tc := ⟨.hbm, 171, rfl⟩
abbrev main_call5_call0_v1 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_cst_16 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  bcast_S_S16x1024x512 : S_.BroadcastsInDim S16x1024x512 (![] : Fin 0 → Fin S16x1024x512.rank)
  transposes_S16x1024x512_S16x512x1024_0_2_1 : S16x1024x512.Transposes [0, 2, 1] S16x512x1024
  reducesTo_S16x512x1024_S16x512_d2 : S16x512x1024.ReducesTo [2] S16x512
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x1024_0_1_2 : S16x512x1.BroadcastsInDim S16x512x1024 (![0, 1, 2] : Fin 3 → Fin S16x512x1024.rank)
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  bcast_S_S16x512x1024 : S_.BroadcastsInDim S16x512x1024 (![] : Fin 0 → Fin S16x512x1024.rank)
  bcast_S_S16x512x512 : S_.BroadcastsInDim S16x512x512 (![] : Fin 0 → Fin S16x512x512.rank)
  reducesTo_S16x512x512_S16x512_d2 : S16x512x512.ReducesTo [2] S16x512
  bcast_S_S16x512 : S_.BroadcastsInDim S16x512 (![] : Fin 0 → Fin S16x512.rank)
  bcast_S16x512x1_S16x512x512_0_1_2 : S16x512x1.BroadcastsInDim S16x512x512 (![0, 1, 2] : Fin 3 → Fin S16x512x512.rank)
  transposes_S16x512x1024_S16x1024x512_0_2_1 : S16x512x1024.Transposes [0, 2, 1] S16x1024x512
  reducesTo_S16x1024x512_S16x1024_d2 : S16x1024x512.ReducesTo [2] S16x1024
  bcast_S_S16x1024x1 : S_.BroadcastsInDim S16x1024x1 (![] : Fin 0 → Fin S16x1024x1.rank)
  bcast_S16x1024x1_S16x1024x512_0_1_2 : S16x1024x1.BroadcastsInDim S16x1024x512 (![0, 1, 2] : Fin 3 → Fin S16x1024x512.rank)
  dot_S16x1024x512_S512x512_S16x1024x512_2_1_01_0_n_n_wf : DotDims.WF S16x1024x512 S512x512 S16x1024x512 [2] [1] [0, 1] [0] [] []
  dot_S16x512x1024_S1024x1024_S16x512x1024_2_1_01_0_n_n_wf : DotDims.WF S16x512x1024 S1024x1024 S16x512x1024 [2] [1] [0, 1] [0] [] []
  dot_S16x512x1024_S16x512x1024_S16x512x512_2_2_1_1_0_0_wf : DotDims.WF S16x512x1024 S16x512x1024 S16x512x512 [2] [2] [1] [1] [0] [0]
  dot_S16x512x512_S16x512x1024_S16x512x1024_2_1_1_2_0_0_wf : DotDims.WF S16x512x512 S16x512x1024 S16x512x1024 [2] [1] [1] [2] [0] [0]
  dot_S16x1024x1024_S16x1024x512_S16x1024x512_2_1_1_2_0_0_wf : DotDims.WF S16x1024x1024 S16x1024x512 S16x1024x512 [2] [1] [1] [2] [0] [0]

variable [Facts₀]

def dot_S16x1024x512_S512x512_S16x1024x512_2_1_01_0_n_n : DotDims S16x1024x512 S512x512 S16x1024x512 where
  lhsContracting := [2]
  rhsContracting := [1]
  lhsNonContracting := [0, 1]
  rhsNonContracting := [0]
  lhsBatch := []
  rhsBatch := []
  wf := dot_S16x1024x512_S512x512_S16x1024x512_2_1_01_0_n_n_wf
def dot_S16x512x1024_S1024x1024_S16x512x1024_2_1_01_0_n_n : DotDims S16x512x1024 S1024x1024 S16x512x1024 where
  lhsContracting := [2]
  rhsContracting := [1]
  lhsNonContracting := [0, 1]
  rhsNonContracting := [0]
  lhsBatch := []
  rhsBatch := []
  wf := dot_S16x512x1024_S1024x1024_S16x512x1024_2_1_01_0_n_n_wf
def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf
def dot_S16x512x512_S16x512x1024_S16x512x1024_2_1_1_2_0_0 : DotDims S16x512x512 S16x512x1024 S16x512x1024 where
  lhsContracting := [2]
  rhsContracting := [1]
  lhsNonContracting := [1]
  rhsNonContracting := [2]
  lhsBatch := [0]
  rhsBatch := [0]
  wf := dot_S16x512x512_S16x512x1024_S16x512x1024_2_1_1_2_0_0_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf

class Facts : Prop extends Facts₀ where

variable [Facts]
-- ==== Proof.RefDefs.lean ====
/- The reference program's result as a pure function of its fifteen argument arrays, stage by stage.
   Each `st_vN` is the composition of the program's own operations that produce the value `%N` from the values the
   stage reads (its variables); each `r_vN` is `%N` as a closed function of the argument arrays; `result` is `%92`. -/
import proofs.«132337_j89043261980865_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge gate: `1 / (1 + exp (-ew))`, elementwise on the (1024,1024) edge weights. -/
def st_v5 (a14 : (⟨S1024x1024, .f32⟩ : BufTy).Contents (Elt F)) :
    (⟨S1024x1024, .f32⟩ : BufTy).Contents (Elt F) :=
  ((Host.divf : (⟨S1024x1024, .f32⟩ : BufTy).Contents (Elt F) → (⟨S1024x1024, .f32⟩ : BufTy).Contents (Elt F) → (⟨S1024x1024, .f32⟩ : BufTy).Contents (Elt F)) ((broadcastInDim S1024x1024 ![] bcast_S_S1024x1024 : (⟨S_, .f32⟩ : BufTy).Contents (Elt F) → (⟨S1024x1024, .f32⟩ : BufTy).Contents (Elt F)) (constant S_ .f32 0x3F800000#32)) ((addf : (⟨S1024x1024, .f32⟩ : BufTy).Contents (Elt F) → (⟨S1024x1024, .f32⟩ : BufTy).Contents (Elt F) → (⟨S1024x1024, .f32⟩ : BufTy).Contents (Elt F)) ((broadcastInDim S1024x1024 ![] bcast_S_S1024x1024 : (⟨S_, .f32⟩ : BufTy).Contents (Elt F) → (⟨S1024x1024, .f32⟩ : BufTy).Contents (Elt F)) (constant S_ .f32 0x3F800000#32)) ((Host.exp : (⟨S1024x1024, .f32⟩ : BufTy).Contents (Elt F) → (⟨S1024x1024, .f32⟩ : BufTy).Contents (Elt F)) ((Host.negf : (⟨S1024x1024, .f32⟩ : BufTy).Contents (Elt F) → (⟨S1024x1024, .f32⟩ : BufTy).Contents (Elt F)) a14))))

/-- The weighted adjacency: `adj * gate`, the gate broadcast over the batch. -/
def st_v8 (v5 : (⟨S1024x1024, .f32⟩ : BufTy).Contents (Elt F)) (a1 : (⟨S16x1024x1024, .f32⟩ : BufTy).Contents (Elt F)) :
    (⟨S16x1024x1024, .f32⟩ : BufTy).Contents (Elt F) :=
  ((mulf : (⟨S16x1024x1024, .f32⟩ : BufTy).Contents (Elt F) → (⟨S16x1024x1024, .f32⟩ : BufTy).Contents (Elt F) → (⟨S16x1024x1024, .f32⟩ : BufTy).Contents (Elt F)) a1 ((broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)) ((broadcastInDim S1x1024x1024 ![1, 2] bcast_S1024x1024_S1x1024x1024_1_2 : (⟨S1024x1024, .f32⟩ : BufTy).Contents (Elt F) → (⟨S1x1024x1024, .f32⟩ : BufTy).Contents (Elt F)) v5)))

/-- The degree: the weighted adjacency summed over its last axis (from 0). -/
def st_v9 (v8 : (⟨S16x1024x1024, .f32⟩ : BufTy).Contents (Elt F)) :
    (⟨S16x1024, .f32⟩ : BufTy).Contents (Elt F) :=
  (((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)) v8 (constant S_ .f32 0x00000000#32))

/-- The guarded degree factor: `deg ^ (-1/2)`, and 0 where that power is infinite. -/
def st_v13 (v9 : (⟨S16x1024, .f32⟩ : BufTy).Contents (Elt F)) :
    (⟨S16x1024, .f32⟩ : BufTy).Contents (Elt F) :=
  ((select : (⟨S16x1024, .i1⟩ : BufTy).Contents (Elt F) → (⟨S16x1024, .f32⟩ : BufTy).Contents (Elt F) → (⟨S16x1024, .f32⟩ : BufTy).Contents (Elt F) → (⟨S16x1024, .f32⟩ : BufTy).Contents (Elt F)) (((cmpf .oeq) : (⟨S16x1024, .f32⟩ : BufTy).Contents (Elt F) → (⟨S16x1024, .f32⟩ : BufTy).Contents (Elt F) → (⟨S16x1024, .i1⟩ : BufTy).Contents (Elt F)) ((Host.absf : (⟨S16x1024, .f32⟩ : BufTy).Contents (Elt F) → (⟨S16x1024, .f32⟩ : BufTy).Contents (Elt F)) ((Host.powf : (⟨S16x1024, .f32⟩ : BufTy).Contents (Elt F) → (⟨S16x1024, .f32⟩ : BufTy).Contents (Elt F) → (⟨S16x1024, .f32⟩ : BufTy).Contents (Elt F)) v9 ((broadcastInDim S16x1024 ![] bcast_S_S16x1024 : (⟨S_, .f32⟩ : BufTy).Contents (Elt F) → (⟨S16x1024, .f32⟩ : BufTy).Contents (Elt F)) (constant S_ .f32 0xBF000000#32)))) (((broadcastInDim S16x1024 ![] bcast_S_S16x1024) : (⟨S_, .f32⟩ : BufTy).Contents (Elt F) → (⟨S16x1024, .f32⟩ : BufTy).Contents (Elt F)) ((constant S_ .f32 0x7F800000#32) : (⟨S_, .f32⟩ : BufTy).Contents (Elt F)))) (((broadcastInDim S16x1024 ![] bcast_S_S16x1024) : (⟨S_, .f32⟩ : BufTy).Contents (Elt F) → (⟨S16x1024, .f32⟩ : BufTy).Contents (Elt F)) ((id : (⟨S_, .f32⟩ : BufTy).Contents (Elt F) → (⟨S_, .f32⟩ : BufTy).Contents (Elt F)) (constant S_ .f32 0x00000000#32))) ((Host.powf : (⟨S16x1024, .f32⟩ : BufTy).Contents (Elt F) → (⟨S16x1024, .f32⟩ : BufTy).Contents (Elt F) → (⟨S16x1024, .f32⟩ : BufTy).Contents (Elt F)) v9 ((broadcastInDim S16x1024 ![] bcast_S_S16x1024 : (⟨S_, .f32⟩ : BufTy).Contents (Elt F) → (⟨S16x1024, .f32⟩ : BufTy).Contents (Elt F)) (constant S_ .f32 0xBF000000#32))))

/-- The normalized adjacency: `dis[:, :, None] * wadj * dis[:, None, :]`. -/
def st_v19 (v8 : (⟨S16x1024x1024, .f32⟩ : BufTy).Contents (Elt F)) (v13 : (⟨S16x1024, .f32⟩ : BufTy).Contents (Elt F)) :
    (⟨S16x1024x1024, .f32⟩ : BufTy).Contents (Elt F) :=
  ((mulf : (⟨S16x1024x1024, .f32⟩ : BufTy).Contents (Elt F) → (⟨S16x1024x1024, .f32⟩ : BufTy).Contents (Elt F) → (⟨S16x1024x1024, .f32⟩ : BufTy).Contents (Elt F)) ((mulf : (⟨S16x1024x1024, .f32⟩ : BufTy).Contents (Elt F) → (⟨S16x1024x1024, .f32⟩ : BufTy).Contents (Elt F) → (⟨S16x1024x1024, .f32⟩ : BufTy).Contents (Elt F)) ((broadcastInDim S16x1024x1024 ![0, 1, 2] bcast_S16x1024x1_S16x1024x1024_0_1_2 : (⟨S16x1024x1, .f32⟩ : BufTy).Contents (Elt F) → (⟨S16x1024x1024, .f32⟩ : BufTy).Contents (Elt F)) ((broadcastInDim S16x1024x1 ![0, 1] bcast_S16x1024_S16x1024x1_0_1 : (⟨S16x1024, .f32⟩ : BufTy).Contents (Elt F) → (⟨S16x1024x1, .f32⟩ : BufTy).Contents (Elt F)) v13)) v8) ((broadcastInDim S16x1024x1024 ![0, 1, 2] bcast_S16x1x1024_S16x1024x1024_0_1_2 : (⟨S16x1x1024, .f32⟩ : BufTy).Contents (Elt F) → (⟨S16x1024x1024, .f32⟩ : BufTy).Contents (Elt F)) ((broadcastInDim S16x1x1024 ![0, 2] bcast_S16x1024_S16x1x1024_0_2 : (⟨S16x1024, .f32⟩ : BufTy).Contents (Elt F) → (⟨S16x1x1024, .f32⟩ : BufTy).Contents (Elt F)) v13)))

/-- The linear projection of the node features: `nf · lwᵀ + lb` (contraction of axis 2 with axis 1 of the weight). -/
def st_v23 (a0 : (⟨S16x1024x512, .f32⟩ : BufTy).Contents (Elt F)) (a2 : (⟨S512x512, .f32⟩ : BufTy).Contents (Elt F)) (a3 : (⟨S512, .f32⟩ : BufTy).Contents (Elt F)) :
    (⟨S16x1024x512, .f32⟩ : BufTy).Contents (Elt F) :=
  ((addf : (⟨S16x1024x512, .f32⟩ : BufTy).Contents (Elt F) → (⟨S16x1024x512, .f32⟩ : BufTy).Contents (Elt F) → (⟨S16x1024x512, .f32⟩ : BufTy).Contents (Elt F)) (((fun l r => Host.dotGeneral dot_S16x1024x512_S512x512_S16x1024x512_2_1_01_0_n_n none l r) : (⟨S16x1024x512, .f32⟩ : BufTy).Contents (Elt F) → (⟨S512x512, .f32⟩ : BufTy).Contents (Elt F) → (⟨S16x1024x512, .f32⟩ : BufTy).Contents (Elt F)) a0 a2) ((broadcastInDim S16x1024x512 ![0, 1, 2] bcast_S1x1x512_S16x1024x512_0_1_2 : (⟨S1x1x512, .f32⟩ : BufTy).Contents (Elt F) → (⟨S16x1024x512, .f32⟩ : BufTy).Contents (Elt F)) ((broadcastInDim S1x1x512 ![2] bcast_S512_S1x1x512_2 : (⟨S512, .f32⟩ : BufTy).Contents (Elt F) → (⟨S1x1x512, .f32⟩ : BufTy).Contents (Elt F)) a3)))

/-- Leaky ReLU (slope 0.01) of the projection: `x` where `x ≥ 0`, else `0.01 * x`. -/
def st_v24 (v23 : (⟨S16x1024x512, .f32⟩ : BufTy).Contents (Elt F)) :
    (⟨S16x1024x512, .f32⟩ : BufTy).Contents (Elt F) :=
  ((select : (⟨S16x1024x512, .i1⟩ : BufTy).Contents (Elt F) → (⟨S16x1024x512, .f32⟩ : BufTy).Contents (Elt F) → (⟨S16x1024x512, .f32⟩ : BufTy).Contents (Elt F) → (⟨S16x1024x512, .f32⟩ : BufTy).Contents (Elt F)) (((cmpf .oge) : (⟨S16x1024x512, .f32⟩ : BufTy).Contents (Elt F) → (⟨S16x1024x512, .f32⟩ : BufTy).Contents (Elt F) → (⟨S16x1024x512, .i1⟩ : BufTy).Contents (Elt F)) v23 (((broadcastInDim S16x1024x512 ![] bcast_S_S16x1024x512) : (⟨S_, .f32⟩ : BufTy).Contents (Elt F) → (⟨S16x1024x512, .f32⟩ : BufTy).Contents (Elt F)) ((constant S_ .f32 0x00000000#32) : (⟨S_, .f32⟩ : BufTy).Contents (Elt F)))) v23 ((mulf : (⟨S16x1024x512, .f32⟩ : BufTy).Contents (Elt F) → (⟨S16x1024x512, .f32⟩ : BufTy).Contents (Elt F) → (⟨S16x1024x512, .f32⟩ : BufTy).Contents (Elt F)) (((broadcastInDim S16x1024x512 ![] bcast_S_S16x1024x512) : (⟨S_, .f32⟩ : BufTy).Contents (Elt F) → (⟨S16x1024x512, .f32⟩ : BufTy).Contents (Elt F)) ((id : (⟨S_, .f32⟩ : BufTy).Contents (Elt F) → (⟨S_, .f32⟩ : BufTy).Contents (Elt F)) (constant S_ .f32 0x3C23D70A#32))) v23))

/-- The projected features transposed to (16, 512, 1024). -/
def st_v25 (v24 : (⟨S16x1024x512, .f32⟩ : BufTy).Contents (Elt F)) :
    (⟨S16x512x1024, .f32⟩ : BufTy).Contents (Elt F) :=
  (((transpose S16x512x1024 [0, 2, 1] · transposes_S16x1024x512_S16x512x1024_0_2_1) : (⟨S16x1024x512, .f32⟩ : BufTy).Contents (Elt F) → (⟨S16x512x1024, .f32⟩ : BufTy).Contents (Elt F)) v24)

/-- The mean over the 1024 axis (sum from 0, divided by 1024), kept as a trailing axis of length 1. -/
def st_v29 (v25 : (⟨S16x512x1024, .f32⟩ : BufTy).Contents (Elt F)) :
    (⟨S16x512x1, .f32⟩ : BufTy).Contents (Elt F) :=
  ((Host.divf : (⟨S16x512x1, .f32⟩ : BufTy).Contents (Elt F) → (⟨S16x512x1, .f32⟩ : BufTy).Contents (Elt F) → (⟨S16x512x1, .f32⟩ : BufTy).Contents (Elt F)) ((broadcastInDim S16x512x1 ![0, 1] bcast_S16x512_S16x512x1_0_1 : (⟨S16x512, .f32⟩ : BufTy).Contents (Elt F) → (⟨S16x512x1, .f32⟩ : BufTy).Contents (Elt F)) (((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)) v25 (constant S_ .f32 0x00000000#32))) ((broadcastInDim S16x512x1 ![] bcast_S_S16x512x1 : (⟨S_, .f32⟩ : BufTy).Contents (Elt F) → (⟨S16x512x1, .f32⟩ : BufTy).Contents (Elt F)) (constant S_ .f32 0x44800000#32)))

/-- The variance over the 1024 axis with zero degrees of freedom removed: the mean of the squared deviations, divided by `1024 - 0`, guarded by `1024 - 0 > 0` (else NaN). -/
def st_v30 (v25 : (⟨S16x512x1024, .f32⟩ : BufTy).Contents (Elt F)) :
    (⟨S16x512x1, .f32⟩ : BufTy).Contents (Elt F) :=
  (((fun p a b => select (broadcastInDim S16x512x1 ![] bcast_S_S16x512x1 p) a b) : (⟨S_, .i1⟩ : BufTy).Contents (Elt F) → (⟨S16x512x1, .f32⟩ : BufTy).Contents (Elt F) → (⟨S16x512x1, .f32⟩ : BufTy).Contents (Elt F) → (⟨S16x512x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x44800000#32) : (⟨S_, .f32⟩ : BufTy).Contents (Elt F)) (((sitofp .f32) : (⟨S_, .i32⟩ : BufTy).Contents (Elt F) → (⟨S_, .f32⟩ : BufTy).Contents (Elt F)) (constantI S_ 32 0#32))) ((constant S_ .f32 0x00000000#32) : (⟨S_, .f32⟩ : BufTy).Contents (Elt F))) ((Host.divf : (⟨S16x512x1, .f32⟩ : BufTy).Contents (Elt F) → (⟨S16x512x1, .f32⟩ : BufTy).Contents (Elt F) → (⟨S16x512x1, .f32⟩ : BufTy).Contents (Elt F)) (((broadcastInDim S16x512x1 ![0, 1] bcast_S16x512_S16x512x1_0_1) : (⟨S16x512, .f32⟩ : BufTy).Contents (Elt F) → (⟨S16x512x1, .f32⟩ : BufTy).Contents (Elt F)) (((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)) ((mulf : (⟨S16x512x1024, .f32⟩ : BufTy).Contents (Elt F) → (⟨S16x512x1024, .f32⟩ : BufTy).Contents (Elt F) → (⟨S16x512x1024, .f32⟩ : BufTy).Contents (Elt F)) ((subf : (⟨S16x512x1024, .f32⟩ : BufTy).Contents (Elt F) → (⟨S16x512x1024, .f32⟩ : BufTy).Contents (Elt F) → (⟨S16x512x1024, .f32⟩ : BufTy).Contents (Elt F)) v25 (((broadcastInDim S16x512x1024 ![0, 1, 2] bcast_S16x512x1_S16x512x1024_0_1_2) : (⟨S16x512x1, .f32⟩ : BufTy).Contents (Elt F) → (⟨S16x512x1024, .f32⟩ : BufTy).Contents (Elt F)) ((Host.divf : (⟨S16x512x1, .f32⟩ : BufTy).Contents (Elt F) → (⟨S16x512x1, .f32⟩ : BufTy).Contents (Elt F) → (⟨S16x512x1, .f32⟩ : BufTy).Contents (Elt F)) (((broadcastInDim S16x512x1 ![0, 1] bcast_S16x512_S16x512x1_0_1) : (⟨S16x512, .f32⟩ : BufTy).Contents (Elt F) → (⟨S16x512x1, .f32⟩ : BufTy).Contents (Elt F)) (((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)) v25 ((constant S_ .f32 0x00000000#32) : (⟨S_, .f32⟩ : BufTy).Contents (Elt F)))) (((broadcastInDim S16x512x1 ![] bcast_S_S16x512x1) : (⟨S_, .f32⟩ : BufTy).Contents (Elt F) → (⟨S16x512x1, .f32⟩ : BufTy).Contents (Elt F)) ((constant S_ .f32 0x44800000#32) : (⟨S_, .f32⟩ : BufTy).Contents (Elt F)))))) ((subf : (⟨S16x512x1024, .f32⟩ : BufTy).Contents (Elt F) → (⟨S16x512x1024, .f32⟩ : BufTy).Contents (Elt F) → (⟨S16x512x1024, .f32⟩ : BufTy).Contents (Elt F)) v25 (((broadcastInDim S16x512x1024 ![0, 1, 2] bcast_S16x512x1_S16x512x1024_0_1_2) : (⟨S16x512x1, .f32⟩ : BufTy).Contents (Elt F) → (⟨S16x512x1024, .f32⟩ : BufTy).Contents (Elt F)) ((Host.divf : (⟨S16x512x1, .f32⟩ : BufTy).Contents (Elt F) → (⟨S16x512x1, .f32⟩ : BufTy).Contents (Elt F) → (⟨S16x512x1, .f32⟩ : BufTy).Contents (Elt F)) (((broadcastInDim S16x512x1 ![0, 1] bcast_S16x512_S16x512x1_0_1) : (⟨S16x512, .f32⟩ : BufTy).Contents (Elt F) → (⟨S16x512x1, .f32⟩ : BufTy).Contents (Elt F)) (((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)) v25 ((constant S_ .f32 0x00000000#32) : (⟨S_, .f32⟩ : BufTy).Contents (Elt F)))) (((broadcastInDim S16x512x1 ![] bcast_S_S16x512x1) : (⟨S_, .f32⟩ : BufTy).Contents (Elt F) → (⟨S16x512x1, .f32⟩ : BufTy).Contents (Elt F)) ((constant S_ .f32 0x44800000#32) : (⟨S_, .f32⟩ : BufTy).Contents (Elt F))))))) ((constant S_ .f32 0x00000000#32) : (⟨S_, .f32⟩ : BufTy).Contents (Elt F)))) (((broadcastInDim S16x512x1 ![] bcast_S_S16x512x1) : (⟨S_, .f32⟩ : BufTy).Contents (Elt F) → (⟨S16x512x1, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x44800000#32) : (⟨S_, .f32⟩ : BufTy).Contents (Elt F)) (((sitofp .f32) : (⟨S_, .i32⟩ : BufTy).Contents (Elt F) → (⟨S_, .f32⟩ : BufTy).Contents (Elt F)) (constantI S_ 32 0#32))))) (((broadcastInDim S16x512x1 ![] bcast_S_S16x512x1) : (⟨S_, .f32⟩ : BufTy).Contents (Elt F) → (⟨S16x512x1, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- The first layer norm: `(x - mean) * rsqrt (var + 1e-5) * gamma + beta` over the 1024 axis. -/
def st_v43 (v25 : (⟨S16x512x1024, .f32⟩ : BufTy).Contents (Elt F)) (v29 : (⟨S16x512x1, .f32⟩ : BufTy).Contents (Elt F)) (v30 : (⟨S16x512x1, .f32⟩ : BufTy).Contents (Elt F)) (a10 : (⟨S1024, .f32⟩ : BufTy).Contents (Elt F)) (a11 : (⟨S1024, .f32⟩ : BufTy).Contents (Elt F)) :
    (⟨S16x512x1024, .f32⟩ : BufTy).Contents (Elt F) :=
  ((addf : (⟨S16x512x1024, .f32⟩ : BufTy).Contents (Elt F) → (⟨S16x512x1024, .f32⟩ : BufTy).Contents (Elt F) → (⟨S16x512x1024, .f32⟩ : BufTy).Contents (Elt F)) ((mulf : (⟨S16x512x1024, .f32⟩ : BufTy).Contents (Elt F) → (⟨S16x512x1024, .f32⟩ : BufTy).Contents (Elt F) → (⟨S16x512x1024, .f32⟩ : BufTy).Contents (Elt F)) ((mulf : (⟨S16x512x1024, .f32⟩ : BufTy).Contents (Elt F) → (⟨S16x512x1024, .f32⟩ : BufTy).Contents (Elt F) → (⟨S16x512x1024, .f32⟩ : BufTy).Contents (Elt F)) ((subf : (⟨S16x512x1024, .f32⟩ : BufTy).Contents (Elt F) → (⟨S16x512x1024, .f32⟩ : BufTy).Contents (Elt F) → (⟨S16x512x1024, .f32⟩ : BufTy).Contents (Elt F)) v25 ((broadcastInDim S16x512x1024 ![0, 1, 2] bcast_S16x512x1_S16x512x1024_0_1_2 : (⟨S16x512x1, .f32⟩ : BufTy).Contents (Elt F) → (⟨S16x512x1024, .f32⟩ : BufTy).Contents (Elt F)) v29)) ((broadcastInDim S16x512x1024 ![0, 1, 2] bcast_S16x512x1_S16x512x1024_0_1_2 : (⟨S16x512x1, .f32⟩ : BufTy).Contents (Elt F) → (⟨S16x512x1024, .f32⟩ : BufTy).Contents (Elt F)) ((Host.rsqrt : (⟨S16x512x1, .f32⟩ : BufTy).Contents (Elt F) → (⟨S16x512x1, .f32⟩ : BufTy).Contents (Elt F)) ((addf : (⟨S16x512x1, .f32⟩ : BufTy).Contents (Elt F) → (⟨S16x512x1, .f32⟩ : BufTy).Contents (Elt F) → (⟨S16x512x1, .f32⟩ : BufTy).Contents (Elt F)) v30 ((broadcastInDim S16x512x1 ![] bcast_S_S16x512x1 : (⟨S_, .f32⟩ : BufTy).Contents (Elt F) → (⟨S16x512x1, .f32⟩ : BufTy).Contents (Elt F)) (constant S_ .f32 0x3727C5AC#32)))))) ((broadcastInDim S16x512x1024 ![0, 1, 2] bcast_S1x1x1024_S16x512x1024_0_1_2 : (⟨S1x1x1024, .f32⟩ : BufTy).Contents (Elt F) → (⟨S16x512x1024, .f32⟩ : BufTy).Contents (Elt F)) ((broadcastInDim S1x1x1024 ![2] bcast_S1024_S1x1x1024_2 : (⟨S1024, .f32⟩ : BufTy).Contents (Elt F) → (⟨S1x1x1024, .f32⟩ : BufTy).Contents (Elt F)) a10))) ((broadcastInDim S16x512x1024 ![0, 1, 2] bcast_S1x1x1024_S16x512x1024_0_1_2 : (⟨S1x1x1024, .f32⟩ : BufTy).Contents (Elt F) → (⟨S16x512x1024, .f32⟩ : BufTy).Contents (Elt F)) ((broadcastInDim S1x1x1024 ![2] bcast_S1024_S1x1x1024_2 : (⟨S1024, .f32⟩ : BufTy).Contents (Elt F) → (⟨S1x1x1024, .f32⟩ : BufTy).Contents (Elt F)) a11)))

/-- The query projection `Tx · Wqᵀ + bq`. -/
def st_v47 (v43 : (⟨S16x512x1024, .f32⟩ : BufTy).Contents (Elt F)) (a4 : (⟨S1024x1024, .f32⟩ : BufTy).Contents (Elt F)) (a5 : (⟨S1024, .f32⟩ : BufTy).Contents (Elt F)) :
    (⟨S16x512x1024, .f32⟩ : BufTy).Contents (Elt F) :=
  ((addf : (⟨S16x512x1024, .f32⟩ : BufTy).Contents (Elt F) → (⟨S16x512x1024, .f32⟩ : BufTy).Contents (Elt F) → (⟨S16x512x1024, .f32⟩ : BufTy).Contents (Elt F)) (((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)) v43 a4) ((broadcastInDim S16x512x1024 ![0, 1, 2] bcast_S1x1x1024_S16x512x1024_0_1_2 : (⟨S1x1x1024, .f32⟩ : BufTy).Contents (Elt F) → (⟨S16x512x1024, .f32⟩ : BufTy).Contents (Elt F)) ((broadcastInDim S1x1x1024 ![2] bcast_S1024_S1x1x1024_2 : (⟨S1024, .f32⟩ : BufTy).Contents (Elt F) → (⟨S1x1x1024, .f32⟩ : BufTy).Contents (Elt F)) a5)))

/-- The key projection's product `Tx · Wkᵀ`. -/
def st_v48 (v43 : (⟨S16x512x1024, .f32⟩ : BufTy).Contents (Elt F)) (a6 : (⟨S1024x1024, .f32⟩ : BufTy).Contents (Elt F)) :
    (⟨S16x512x1024, .f32⟩ : BufTy).Contents (Elt F) :=
  (((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)) v43 a6)

/-- The key bias as a (1,1,1024) array. -/
def st_v49 (a7 : (⟨S1024, .f32⟩ : BufTy).Contents (Elt F)) :
    (⟨S1x1x1024, .f32⟩ : BufTy).Contents (Elt F) :=
  ((broadcastInDim S1x1x1024 ![2] bcast_S1024_S1x1x1024_2 : (⟨S1024, .f32⟩ : BufTy).Contents (Elt F) → (⟨S1x1x1024, .f32⟩ : BufTy).Contents (Elt F)) a7)

/-- The key projection `Tx · Wkᵀ + bk`. -/
def st_v51 (v48 : (⟨S16x512x1024, .f32⟩ : BufTy).Contents (Elt F)) (v49 : (⟨S1x1x1024, .f32⟩ : BufTy).Contents (Elt F)) :
    (⟨S16x512x1024, .f32⟩ : BufTy).Contents (Elt F) :=
  ((addf : (⟨S16x512x1024, .f32⟩ : BufTy).Contents (Elt F) → (⟨S16x512x1024, .f32⟩ : BufTy).Contents (Elt F) → (⟨S16x512x1024, .f32⟩ : BufTy).Contents (Elt F)) v48 ((broadcastInDim S16x512x1024 ![0, 1, 2] bcast_S1x1x1024_S16x512x1024_0_1_2 : (⟨S1x1x1024, .f32⟩ : BufTy).Contents (Elt F) → (⟨S16x512x1024, .f32⟩ : BufTy).Contents (Elt F)) v49))

/-- The value projection `leaky_relu (Tx · Wvᵀ + bv)` (slope 0.01). -/
def st_v56 (v43 : (⟨S16x512x1024, .f32⟩ : BufTy).Contents (Elt F)) (a8 : (⟨S1024x1024, .f32⟩ : BufTy).Contents (Elt F)) (a9 : (⟨S1024, .f32⟩ : BufTy).Contents (Elt F)) :
    (⟨S16x512x1024, .f32⟩ : BufTy).Contents (Elt F) :=
  ((select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)) (((cmpf .oge) : (⟨S16x512x1024, .f32⟩ : BufTy).Contents (Elt F) → (⟨S16x512x1024, .f32⟩ : BufTy).Contents (Elt F) → (⟨S16x512x1024, .i1⟩ : BufTy).Contents (Elt F)) ((addf : (⟨S16x512x1024, .f32⟩ : BufTy).Contents (Elt F) → (⟨S16x512x1024, .f32⟩ : BufTy).Contents (Elt F) → (⟨S16x512x1024, .f32⟩ : BufTy).Contents (Elt F)) (((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)) v43 a8) ((broadcastInDim S16x512x1024 ![0, 1, 2] bcast_S1x1x1024_S16x512x1024_0_1_2 : (⟨S1x1x1024, .f32⟩ : BufTy).Contents (Elt F) → (⟨S16x512x1024, .f32⟩ : BufTy).Contents (Elt F)) ((broadcastInDim S1x1x1024 ![2] bcast_S1024_S1x1x1024_2 : (⟨S1024, .f32⟩ : BufTy).Contents (Elt F) → (⟨S1x1x1024, .f32⟩ : BufTy).Contents (Elt F)) a9))) (((broadcastInDim S16x512x1024 ![] bcast_S_S16x512x1024) : (⟨S_, .f32⟩ : BufTy).Contents (Elt F) → (⟨S16x512x1024, .f32⟩ : BufTy).Contents (Elt F)) ((constant S_ .f32 0x00000000#32) : (⟨S_, .f32⟩ : BufTy).Contents (Elt F)))) ((addf : (⟨S16x512x1024, .f32⟩ : BufTy).Contents (Elt F) → (⟨S16x512x1024, .f32⟩ : BufTy).Contents (Elt F) → (⟨S16x512x1024, .f32⟩ : BufTy).Contents (Elt F)) (((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)) v43 a8) ((broadcastInDim S16x512x1024 ![0, 1, 2] bcast_S1x1x1024_S16x512x1024_0_1_2 : (⟨S1x1x1024, .f32⟩ : BufTy).Contents (Elt F) → (⟨S16x512x1024, .f32⟩ : BufTy).Contents (Elt F)) ((broadcastInDim S1x1x1024 ![2] bcast_S1024_S1x1x1024_2 : (⟨S1024, .f32⟩ : BufTy).Contents (Elt F) → (⟨S1x1x1024, .f32⟩ : BufTy).Contents (Elt F)) a9))) ((mulf : (⟨S16x512x1024, .f32⟩ : BufTy).Contents (Elt F) → (⟨S16x512x1024, .f32⟩ : BufTy).Contents (Elt F) → (⟨S16x512x1024, .f32⟩ : BufTy).Contents (Elt F)) (((broadcastInDim S16x512x1024 ![] bcast_S_S16x512x1024) : (⟨S_, .f32⟩ : BufTy).Contents (Elt F) → (⟨S16x512x1024, .f32⟩ : BufTy).Contents (Elt F)) ((id : (⟨S_, .f32⟩ : BufTy).Contents (Elt F) → (⟨S_, .f32⟩ : BufTy).Contents (Elt F)) (constant S_ .f32 0x3C23D70A#32))) ((addf : (⟨S16x512x1024, .f32⟩ : BufTy).Contents (Elt F) → (⟨S16x512x1024, .f32⟩ : BufTy).Contents (Elt F) → (⟨S16x512x1024, .f32⟩ : BufTy).Contents (Elt F)) (((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)) v43 a8) ((broadcastInDim S16x512x1024 ![0, 1, 2] bcast_S1x1x1024_S16x512x1024_0_1_2 : (⟨S1x1x1024, .f32⟩ : BufTy).Contents (Elt F) → (⟨S16x512x1024, .f32⟩ : BufTy).Contents (Elt F)) ((broadcastInDim S1x1x1024 ![2] bcast_S1024_S1x1x1024_2 : (⟨S1024, .f32⟩ : BufTy).Contents (Elt F) → (⟨S1x1x1024, .f32⟩ : BufTy).Contents (Elt F)) a9)))))

/-- The attention scores `q · kᵀ / 32` (the factor `0.03125`), per batch. -/
def st_v59 (v47 : (⟨S16x512x1024, .f32⟩ : BufTy).Contents (Elt F)) (v51 : (⟨S16x512x1024, .f32⟩ : BufTy).Contents (Elt F)) :
    (⟨S16x512x512, .f32⟩ : BufTy).Contents (Elt F) :=
  ((mulf : (⟨S16x512x512, .f32⟩ : BufTy).Contents (Elt F) → (⟨S16x512x512, .f32⟩ : BufTy).Contents (Elt F) → (⟨S16x512x512, .f32⟩ : BufTy).Contents (Elt F)) (((fun l r => Host.dotGeneral dot_S16x512x1024_S16x512x1024_S16x512x512_2_2_1_1_0_0 none l r) : (⟨S16x512x1024, .f32⟩ : BufTy).Contents (Elt F) → (⟨S16x512x1024, .f32⟩ : BufTy).Contents (Elt F) → (⟨S16x512x512, .f32⟩ : BufTy).Contents (Elt F)) v47 v51) ((broadcastInDim S16x512x512 ![] bcast_S_S16x512x512 : (⟨S_, .f32⟩ : BufTy).Contents (Elt F) → (⟨S16x512x512, .f32⟩ : BufTy).Contents (Elt F)) (constant S_ .f32 0x3D000000#32)))

/-- The softmax of the scores over the last axis: `exp (s - max s) / Σ exp (s - max s)`, the maximum taken from `-∞`. -/
def st_v70 (v59 : (⟨S16x512x512, .f32⟩ : BufTy).Contents (Elt F)) :
    (⟨S16x512x512, .f32⟩ : BufTy).Contents (Elt F) :=
  ((Host.divf : (⟨S16x512x512, .f32⟩ : BufTy).Contents (Elt F) → (⟨S16x512x512, .f32⟩ : BufTy).Contents (Elt F) → (⟨S16x512x512, .f32⟩ : BufTy).Contents (Elt F)) ((Host.exp : (⟨S16x512x512, .f32⟩ : BufTy).Contents (Elt F) → (⟨S16x512x512, .f32⟩ : BufTy).Contents (Elt F)) ((subf : (⟨S16x512x512, .f32⟩ : BufTy).Contents (Elt F) → (⟨S16x512x512, .f32⟩ : BufTy).Contents (Elt F) → (⟨S16x512x512, .f32⟩ : BufTy).Contents (Elt F)) v59 ((broadcastInDim S16x512x512 ![0, 1, 2] bcast_S16x512x1_S16x512x512_0_1_2 : (⟨S16x512x1, .f32⟩ : BufTy).Contents (Elt F) → (⟨S16x512x512, .f32⟩ : BufTy).Contents (Elt F)) ((broadcastInDim S16x512x1 ![0, 1] bcast_S16x512_S16x512x1_0_1 : (⟨S16x512, .f32⟩ : BufTy).Contents (Elt F) → (⟨S16x512x1, .f32⟩ : BufTy).Contents (Elt F)) ((maximumf : (⟨S16x512, .f32⟩ : BufTy).Contents (Elt F) → (⟨S16x512, .f32⟩ : BufTy).Contents (Elt F) → (⟨S16x512, .f32⟩ : BufTy).Contents (Elt F)) ((broadcastInDim S16x512 ![] bcast_S_S16x512 : (⟨S_, .f32⟩ : BufTy).Contents (Elt F) → (⟨S16x512, .f32⟩ : BufTy).Contents (Elt F)) (constant S_ .f32 0xFF800000#32)) (((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)) v59 (constant S_ .f32 0xFF800000#32))))))) ((broadcastInDim S16x512x512 ![0, 1, 2] bcast_S16x512x1_S16x512x512_0_1_2 : (⟨S16x512x1, .f32⟩ : BufTy).Contents (Elt F) → (⟨S16x512x512, .f32⟩ : BufTy).Contents (Elt F)) ((broadcastInDim S16x512x1 ![0, 1] bcast_S16x512_S16x512x1_0_1 : (⟨S16x512, .f32⟩ : BufTy).Contents (Elt F) → (⟨S16x512x1, .f32⟩ : BufTy).Contents (Elt F)) (((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)) ((Host.exp : (⟨S16x512x512, .f32⟩ : BufTy).Contents (Elt F) → (⟨S16x512x512, .f32⟩ : BufTy).Contents (Elt F)) ((subf : (⟨S16x512x512, .f32⟩ : BufTy).Contents (Elt F) → (⟨S16x512x512, .f32⟩ : BufTy).Contents (Elt F) → (⟨S16x512x512, .f32⟩ : BufTy).Contents (Elt F)) v59 ((broadcastInDim S16x512x512 ![0, 1, 2] bcast_S16x512x1_S16x512x512_0_1_2 : (⟨S16x512x1, .f32⟩ : BufTy).Contents (Elt F) → (⟨S16x512x512, .f32⟩ : BufTy).Contents (Elt F)) ((broadcastInDim S16x512x1 ![0, 1] bcast_S16x512_S16x512x1_0_1 : (⟨S16x512, .f32⟩ : BufTy).Contents (Elt F) → (⟨S16x512x1, .f32⟩ : BufTy).Contents (Elt F)) ((maximumf : (⟨S16x512, .f32⟩ : BufTy).Contents (Elt F) → (⟨S16x512, .f32⟩ : BufTy).Contents (Elt F) → (⟨S16x512, .f32⟩ : BufTy).Contents (Elt F)) ((broadcastInDim S16x512 ![] bcast_S_S16x512 : (⟨S_, .f32⟩ : BufTy).Contents (Elt F) → (⟨S16x512, .f32⟩ : BufTy).Contents (Elt F)) (constant S_ .f32 0xFF800000#32)) (((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)) v59 (constant S_ .f32 0xFF800000#32))))))) (constant S_ .f32 0x00000000#32)))))

/-- The residual `Tx + att · v`. -/
def st_v72 (v43 : (⟨S16x512x1024, .f32⟩ : BufTy).Contents (Elt F)) (v56 : (⟨S16x512x1024, .f32⟩ : BufTy).Contents (Elt F)) (v70 : (⟨S16x512x512, .f32⟩ : BufTy).Contents (Elt F)) :
    (⟨S16x512x1024, .f32⟩ : BufTy).Contents (Elt F) :=
  ((addf : (⟨S16x512x1024, .f32⟩ : BufTy).Contents (Elt F) → (⟨S16x512x1024, .f32⟩ : BufTy).Contents (Elt F) → (⟨S16x512x1024, .f32⟩ : BufTy).Contents (Elt F)) v43 (((fun l r => Host.dotGeneral dot_S16x512x512_S16x512x1024_S16x512x1024_2_1_1_2_0_0 none l r) : (⟨S16x512x512, .f32⟩ : BufTy).Contents (Elt F) → (⟨S16x512x1024, .f32⟩ : BufTy).Contents (Elt F) → (⟨S16x512x1024, .f32⟩ : BufTy).Contents (Elt F)) v70 v56))

/-- The residual transposed back to (16, 1024, 512). -/
def st_v73 (v72 : (⟨S16x512x1024, .f32⟩ : BufTy).Contents (Elt F)) :
    (⟨S16x1024x512, .f32⟩ : BufTy).Contents (Elt F) :=
  (((transpose S16x1024x512 [0, 2, 1] · transposes_S16x512x1024_S16x1024x512_0_2_1) : (⟨S16x512x1024, .f32⟩ : BufTy).Contents (Elt F) → (⟨S16x1024x512, .f32⟩ : BufTy).Contents (Elt F)) v72)

/-- The propagation `nadj · Tx2ᵀ`, per batch. -/
def st_v74 (v19 : (⟨S16x1024x1024, .f32⟩ : BufTy).Contents (Elt F)) (v73 : (⟨S16x1024x512, .f32⟩ : BufTy).Contents (Elt F)) :
    (⟨S16x1024x512, .f32⟩ : BufTy).Contents (Elt F) :=
  (((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)) v19 v73)

/-- The mean over the 512 axis (sum from 0, divided by 512), kept as a trailing axis of length 1. -/
def st_v78 (v74 : (⟨S16x1024x512, .f32⟩ : BufTy).Contents (Elt F)) :
    (⟨S16x1024x1, .f32⟩ : BufTy).Contents (Elt F) :=
  ((Host.divf : (⟨S16x1024x1, .f32⟩ : BufTy).Contents (Elt F) → (⟨S16x1024x1, .f32⟩ : BufTy).Contents (Elt F) → (⟨S16x1024x1, .f32⟩ : BufTy).Contents (Elt F)) ((broadcastInDim S16x1024x1 ![0, 1] bcast_S16x1024_S16x1024x1_0_1 : (⟨S16x1024, .f32⟩ : BufTy).Contents (Elt F) → (⟨S16x1024x1, .f32⟩ : BufTy).Contents (Elt F)) (((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)) v74 (constant S_ .f32 0x00000000#32))) ((broadcastInDim S16x1024x1 ![] bcast_S_S16x1024x1 : (⟨S_, .f32⟩ : BufTy).Contents (Elt F) → (⟨S16x1024x1, .f32⟩ : BufTy).Contents (Elt F)) (constant S_ .f32 0x44000000#32)))

/-- The variance over the 512 axis: the mean of the squared deviations, divided by `512 - 0`, guarded by `512 - 0 > 0` (else NaN). -/
def st_v79 (v74 : (⟨S16x1024x512, .f32⟩ : BufTy).Contents (Elt F)) :
    (⟨S16x1024x1, .f32⟩ : BufTy).Contents (Elt F) :=
  (((fun p a b => select (broadcastInDim S16x1024x1 ![] bcast_S_S16x1024x1 p) a b) : (⟨S_, .i1⟩ : BufTy).Contents (Elt F) → (⟨S16x1024x1, .f32⟩ : BufTy).Contents (Elt F) → (⟨S16x1024x1, .f32⟩ : BufTy).Contents (Elt F) → (⟨S16x1024x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x44000000#32) : (⟨S_, .f32⟩ : BufTy).Contents (Elt F)) (((sitofp .f32) : (⟨S_, .i32⟩ : BufTy).Contents (Elt F) → (⟨S_, .f32⟩ : BufTy).Contents (Elt F)) (constantI S_ 32 0#32))) ((constant S_ .f32 0x00000000#32) : (⟨S_, .f32⟩ : BufTy).Contents (Elt F))) ((Host.divf : (⟨S16x1024x1, .f32⟩ : BufTy).Contents (Elt F) → (⟨S16x1024x1, .f32⟩ : BufTy).Contents (Elt F) → (⟨S16x1024x1, .f32⟩ : BufTy).Contents (Elt F)) (((broadcastInDim S16x1024x1 ![0, 1] bcast_S16x1024_S16x1024x1_0_1) : (⟨S16x1024, .f32⟩ : BufTy).Contents (Elt F) → (⟨S16x1024x1, .f32⟩ : BufTy).Contents (Elt F)) (((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)) ((mulf : (⟨S16x1024x512, .f32⟩ : BufTy).Contents (Elt F) → (⟨S16x1024x512, .f32⟩ : BufTy).Contents (Elt F) → (⟨S16x1024x512, .f32⟩ : BufTy).Contents (Elt F)) ((subf : (⟨S16x1024x512, .f32⟩ : BufTy).Contents (Elt F) → (⟨S16x1024x512, .f32⟩ : BufTy).Contents (Elt F) → (⟨S16x1024x512, .f32⟩ : BufTy).Contents (Elt F)) v74 (((broadcastInDim S16x1024x512 ![0, 1, 2] bcast_S16x1024x1_S16x1024x512_0_1_2) : (⟨S16x1024x1, .f32⟩ : BufTy).Contents (Elt F) → (⟨S16x1024x512, .f32⟩ : BufTy).Contents (Elt F)) ((Host.divf : (⟨S16x1024x1, .f32⟩ : BufTy).Contents (Elt F) → (⟨S16x1024x1, .f32⟩ : BufTy).Contents (Elt F) → (⟨S16x1024x1, .f32⟩ : BufTy).Contents (Elt F)) (((broadcastInDim S16x1024x1 ![0, 1] bcast_S16x1024_S16x1024x1_0_1) : (⟨S16x1024, .f32⟩ : BufTy).Contents (Elt F) → (⟨S16x1024x1, .f32⟩ : BufTy).Contents (Elt F)) (((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)) v74 ((constant S_ .f32 0x00000000#32) : (⟨S_, .f32⟩ : BufTy).Contents (Elt F)))) (((broadcastInDim S16x1024x1 ![] bcast_S_S16x1024x1) : (⟨S_, .f32⟩ : BufTy).Contents (Elt F) → (⟨S16x1024x1, .f32⟩ : BufTy).Contents (Elt F)) ((constant S_ .f32 0x44000000#32) : (⟨S_, .f32⟩ : BufTy).Contents (Elt F)))))) ((subf : (⟨S16x1024x512, .f32⟩ : BufTy).Contents (Elt F) → (⟨S16x1024x512, .f32⟩ : BufTy).Contents (Elt F) → (⟨S16x1024x512, .f32⟩ : BufTy).Contents (Elt F)) v74 (((broadcastInDim S16x1024x512 ![0, 1, 2] bcast_S16x1024x1_S16x1024x512_0_1_2) : (⟨S16x1024x1, .f32⟩ : BufTy).Contents (Elt F) → (⟨S16x1024x512, .f32⟩ : BufTy).Contents (Elt F)) ((Host.divf : (⟨S16x1024x1, .f32⟩ : BufTy).Contents (Elt F) → (⟨S16x1024x1, .f32⟩ : BufTy).Contents (Elt F) → (⟨S16x1024x1, .f32⟩ : BufTy).Contents (Elt F)) (((broadcastInDim S16x1024x1 ![0, 1] bcast_S16x1024_S16x1024x1_0_1) : (⟨S16x1024, .f32⟩ : BufTy).Contents (Elt F) → (⟨S16x1024x1, .f32⟩ : BufTy).Contents (Elt F)) (((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)) v74 ((constant S_ .f32 0x00000000#32) : (⟨S_, .f32⟩ : BufTy).Contents (Elt F)))) (((broadcastInDim S16x1024x1 ![] bcast_S_S16x1024x1) : (⟨S_, .f32⟩ : BufTy).Contents (Elt F) → (⟨S16x1024x1, .f32⟩ : BufTy).Contents (Elt F)) ((constant S_ .f32 0x44000000#32) : (⟨S_, .f32⟩ : BufTy).Contents (Elt F))))))) ((constant S_ .f32 0x00000000#32) : (⟨S_, .f32⟩ : BufTy).Contents (Elt F)))) (((broadcastInDim S16x1024x1 ![] bcast_S_S16x1024x1) : (⟨S_, .f32⟩ : BufTy).Contents (Elt F) → (⟨S16x1024x1, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x44000000#32) : (⟨S_, .f32⟩ : BufTy).Contents (Elt F)) (((sitofp .f32) : (⟨S_, .i32⟩ : BufTy).Contents (Elt F) → (⟨S_, .f32⟩ : BufTy).Contents (Elt F)) (constantI S_ 32 0#32))))) (((broadcastInDim S16x1024x1 ![] bcast_S_S16x1024x1) : (⟨S_, .f32⟩ : BufTy).Contents (Elt F) → (⟨S16x1024x1, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- The second layer norm: `(x - mean) * rsqrt (var + 1e-5) * gamma + beta` over the 512 axis — the program's result. -/
def st_v92 (v74 : (⟨S16x1024x512, .f32⟩ : BufTy).Contents (Elt F)) (v78 : (⟨S16x1024x1, .f32⟩ : BufTy).Contents (Elt F)) (v79 : (⟨S16x1024x1, .f32⟩ : BufTy).Contents (Elt F)) (a12 : (⟨S512, .f32⟩ : BufTy).Contents (Elt F)) (a13 : (⟨S512, .f32⟩ : BufTy).Contents (Elt F)) :
    (⟨S16x1024x512, .f32⟩ : BufTy).Contents (Elt F) :=
  ((addf : (⟨S16x1024x512, .f32⟩ : BufTy).Contents (Elt F) → (⟨S16x1024x512, .f32⟩ : BufTy).Contents (Elt F) → (⟨S16x1024x512, .f32⟩ : BufTy).Contents (Elt F)) ((mulf : (⟨S16x1024x512, .f32⟩ : BufTy).Contents (Elt F) → (⟨S16x1024x512, .f32⟩ : BufTy).Contents (Elt F) → (⟨S16x1024x512, .f32⟩ : BufTy).Contents (Elt F)) ((mulf : (⟨S16x1024x512, .f32⟩ : BufTy).Contents (Elt F) → (⟨S16x1024x512, .f32⟩ : BufTy).Contents (Elt F) → (⟨S16x1024x512, .f32⟩ : BufTy).Contents (Elt F)) ((subf : (⟨S16x1024x512, .f32⟩ : BufTy).Contents (Elt F) → (⟨S16x1024x512, .f32⟩ : BufTy).Contents (Elt F) → (⟨S16x1024x512, .f32⟩ : BufTy).Contents (Elt F)) v74 ((broadcastInDim S16x1024x512 ![0, 1, 2] bcast_S16x1024x1_S16x1024x512_0_1_2 : (⟨S16x1024x1, .f32⟩ : BufTy).Contents (Elt F) → (⟨S16x1024x512, .f32⟩ : BufTy).Contents (Elt F)) v78)) ((broadcastInDim S16x1024x512 ![0, 1, 2] bcast_S16x1024x1_S16x1024x512_0_1_2 : (⟨S16x1024x1, .f32⟩ : BufTy).Contents (Elt F) → (⟨S16x1024x512, .f32⟩ : BufTy).Contents (Elt F)) ((Host.rsqrt : (⟨S16x1024x1, .f32⟩ : BufTy).Contents (Elt F) → (⟨S16x1024x1, .f32⟩ : BufTy).Contents (Elt F)) ((addf : (⟨S16x1024x1, .f32⟩ : BufTy).Contents (Elt F) → (⟨S16x1024x1, .f32⟩ : BufTy).Contents (Elt F) → (⟨S16x1024x1, .f32⟩ : BufTy).Contents (Elt F)) v79 ((broadcastInDim S16x1024x1 ![] bcast_S_S16x1024x1 : (⟨S_, .f32⟩ : BufTy).Contents (Elt F) → (⟨S16x1024x1, .f32⟩ : BufTy).Contents (Elt F)) (constant S_ .f32 0x3727C5AC#32)))))) ((broadcastInDim S16x1024x512 ![0, 1, 2] bcast_S1x1x512_S16x1024x512_0_1_2 : (⟨S1x1x512, .f32⟩ : BufTy).Contents (Elt F) → (⟨S16x1024x512, .f32⟩ : BufTy).Contents (Elt F)) ((broadcastInDim S1x1x512 ![2] bcast_S512_S1x1x512_2 : (⟨S512, .f32⟩ : BufTy).Contents (Elt F) → (⟨S1x1x512, .f32⟩ : BufTy).Contents (Elt F)) a12))) ((broadcastInDim S16x1024x512 ![0, 1, 2] bcast_S1x1x512_S16x1024x512_0_1_2 : (⟨S1x1x512, .f32⟩ : BufTy).Contents (Elt F) → (⟨S16x1024x512, .f32⟩ : BufTy).Contents (Elt F)) ((broadcastInDim S1x1x512 ![2] bcast_S512_S1x1x512_2 : (⟨S512, .f32⟩ : BufTy).Contents (Elt F) → (⟨S1x1x512, .f32⟩ : BufTy).Contents (Elt F)) a13)))

/-! ## The values as closed functions of the argument arrays -/

/-- `%5` of the argument arrays. -/
def r_v5 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S1024x1024, .f32⟩ : BufTy).Contents (Elt F) :=
  st_v5 a14

/-- `%8` of the argument arrays. -/
def r_v8 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x1024, .f32⟩ : BufTy).Contents (Elt F) :=
  st_v8 (r_v5 a0 a1 a2 a3 a4 a5 a6 a7 a8 a9 a10 a11 a12 a13 a14) a1

/-- `%9` of the argument arrays. -/
def r_v9 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024, .f32⟩ : BufTy).Contents (Elt F) :=
  st_v9 (r_v8 a0 a1 a2 a3 a4 a5 a6 a7 a8 a9 a10 a11 a12 a13 a14)

/-- `%13` of the argument arrays. -/
def r_v13 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024, .f32⟩ : BufTy).Contents (Elt F) :=
  st_v13 (r_v9 a0 a1 a2 a3 a4 a5 a6 a7 a8 a9 a10 a11 a12 a13 a14)

/-- `%19` of the argument arrays. -/
def r_v19 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x1024, .f32⟩ : BufTy).Contents (Elt F) :=
  st_v19 (r_v8 a0 a1 a2 a3 a4 a5 a6 a7 a8 a9 a10 a11 a12 a13 a14) (r_v13 a0 a1 a2 a3 a4 a5 a6 a7 a8 a9 a10 a11 a12 a13 a14)

/-- `%23` of the argument arrays. -/
def r_v23 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x512, .f32⟩ : BufTy).Contents (Elt F) :=
  st_v23 a0 a2 a3

/-- `%24` of the argument arrays. -/
def r_v24 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x512, .f32⟩ : BufTy).Contents (Elt F) :=
  st_v24 (r_v23 a0 a1 a2 a3 a4 a5 a6 a7 a8 a9 a10 a11 a12 a13 a14)

/-- `%25` of the argument arrays. -/
def r_v25 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1024, .f32⟩ : BufTy).Contents (Elt F) :=
  st_v25 (r_v24 a0 a1 a2 a3 a4 a5 a6 a7 a8 a9 a10 a11 a12 a13 a14)

/-- `%29` of the argument arrays. -/
def r_v29 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1, .f32⟩ : BufTy).Contents (Elt F) :=
  st_v29 (r_v25 a0 a1 a2 a3 a4 a5 a6 a7 a8 a9 a10 a11 a12 a13 a14)

/-- `%30` of the argument arrays. -/
def r_v30 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1, .f32⟩ : BufTy).Contents (Elt F) :=
  st_v30 (r_v25 a0 a1 a2 a3 a4 a5 a6 a7 a8 a9 a10 a11 a12 a13 a14)

/-- `%43` of the argument arrays. -/
def r_v43 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1024, .f32⟩ : BufTy).Contents (Elt F) :=
  st_v43 (r_v25 a0 a1 a2 a3 a4 a5 a6 a7 a8 a9 a10 a11 a12 a13 a14) (r_v29 a0 a1 a2 a3 a4 a5 a6 a7 a8 a9 a10 a11 a12 a13 a14) (r_v30 a0 a1 a2 a3 a4 a5 a6 a7 a8 a9 a10 a11 a12 a13 a14) a10 a11

/-- `%47` of the argument arrays. -/
def r_v47 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1024, .f32⟩ : BufTy).Contents (Elt F) :=
  st_v47 (r_v43 a0 a1 a2 a3 a4 a5 a6 a7 a8 a9 a10 a11 a12 a13 a14) a4 a5

/-- `%48` of the argument arrays. -/
def r_v48 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1024, .f32⟩ : BufTy).Contents (Elt F) :=
  st_v48 (r_v43 a0 a1 a2 a3 a4 a5 a6 a7 a8 a9 a10 a11 a12 a13 a14) a6

/-- `%49` of the argument arrays. -/
def r_v49 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S1x1x1024, .f32⟩ : BufTy).Contents (Elt F) :=
  st_v49 a7

/-- `%51` of the argument arrays. -/
def r_v51 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1024, .f32⟩ : BufTy).Contents (Elt F) :=
  st_v51 (r_v48 a0 a1 a2 a3 a4 a5 a6 a7 a8 a9 a10 a11 a12 a13 a14) (r_v49 a0 a1 a2 a3 a4 a5 a6 a7 a8 a9 a10 a11 a12 a13 a14)

/-- `%56` of the argument arrays. -/
def r_v56 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1024, .f32⟩ : BufTy).Contents (Elt F) :=
  st_v56 (r_v43 a0 a1 a2 a3 a4 a5 a6 a7 a8 a9 a10 a11 a12 a13 a14) a8 a9

/-- `%59` of the argument arrays. -/
def r_v59 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x512, .f32⟩ : BufTy).Contents (Elt F) :=
  st_v59 (r_v47 a0 a1 a2 a3 a4 a5 a6 a7 a8 a9 a10 a11 a12 a13 a14) (r_v51 a0 a1 a2 a3 a4 a5 a6 a7 a8 a9 a10 a11 a12 a13 a14)

/-- `%70` of the argument arrays. -/
def r_v70 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x512, .f32⟩ : BufTy).Contents (Elt F) :=
  st_v70 (r_v59 a0 a1 a2 a3 a4 a5 a6 a7 a8 a9 a10 a11 a12 a13 a14)

/-- `%72` of the argument arrays. -/
def r_v72 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x512x1024, .f32⟩ : BufTy).Contents (Elt F) :=
  st_v72 (r_v43 a0 a1 a2 a3 a4 a5 a6 a7 a8 a9 a10 a11 a12 a13 a14) (r_v56 a0 a1 a2 a3 a4 a5 a6 a7 a8 a9 a10 a11 a12 a13 a14) (r_v70 a0 a1 a2 a3 a4 a5 a6 a7 a8 a9 a10 a11 a12 a13 a14)

/-- `%73` of the argument arrays. -/
def r_v73 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x512, .f32⟩ : BufTy).Contents (Elt F) :=
  st_v73 (r_v72 a0 a1 a2 a3 a4 a5 a6 a7 a8 a9 a10 a11 a12 a13 a14)

/-- `%74` of the argument arrays. -/
def r_v74 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x512, .f32⟩ : BufTy).Contents (Elt F) :=
  st_v74 (r_v19 a0 a1 a2 a3 a4 a5 a6 a7 a8 a9 a10 a11 a12 a13 a14) (r_v73 a0 a1 a2 a3 a4 a5 a6 a7 a8 a9 a10 a11 a12 a13 a14)

/-- `%78` of the argument arrays. -/
def r_v78 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x1, .f32⟩ : BufTy).Contents (Elt F) :=
  st_v78 (r_v74 a0 a1 a2 a3 a4 a5 a6 a7 a8 a9 a10 a11 a12 a13 a14)

/-- `%79` of the argument arrays. -/
def r_v79 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x1, .f32⟩ : BufTy).Contents (Elt F) :=
  st_v79 (r_v74 a0 a1 a2 a3 a4 a5 a6 a7 a8 a9 a10 a11 a12 a13 a14)

/-- `%92` of the argument arrays. -/
def r_v92 (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x512, .f32⟩ : BufTy).Contents (Elt F) :=
  st_v92 (r_v74 a0 a1 a2 a3 a4 a5 a6 a7 a8 a9 a10 a11 a12 a13 a14) (r_v78 a0 a1 a2 a3 a4 a5 a6 a7 a8 a9 a10 a11 a12 a13 a14) (r_v79 a0 a1 a2 a3 a4 a5 a6 a7 a8 a9 a10 a11 a12 a13 a14) a12 a13

/-- The reference's result array `%92` as a closed function of the fifteen argument arrays. -/
def result (a0 : (⟨S16x1024x512, .f32⟩ : BufTy).Contents (Elt F)) (a1 : (⟨S16x1024x1024, .f32⟩ : BufTy).Contents (Elt F)) (a2 : (⟨S512x512, .f32⟩ : BufTy).Contents (Elt F)) (a3 : (⟨S512, .f32⟩ : BufTy).Contents (Elt F)) (a4 : (⟨S1024x1024, .f32⟩ : BufTy).Contents (Elt F)) (a5 : (⟨S1024, .f32⟩ : BufTy).Contents (Elt F)) (a6 : (⟨S1024x1024, .f32⟩ : BufTy).Contents (Elt F)) (a7 : (⟨S1024, .f32⟩ : BufTy).Contents (Elt F)) (a8 : (⟨S1024x1024, .f32⟩ : BufTy).Contents (Elt F)) (a9 : (⟨S1024, .f32⟩ : BufTy).Contents (Elt F)) (a10 : (⟨S1024, .f32⟩ : BufTy).Contents (Elt F)) (a11 : (⟨S1024, .f32⟩ : BufTy).Contents (Elt F)) (a12 : (⟨S512, .f32⟩ : BufTy).Contents (Elt F)) (a13 : (⟨S512, .f32⟩ : BufTy).Contents (Elt F)) (a14 : (⟨S1024x1024, .f32⟩ : BufTy).Contents (Elt F)) :
    (⟨S16x1024x512, .f32⟩ : BufTy).Contents (Elt F) :=
  r_v92 a0 a1 a2 a3 a4 a5 a6 a7 a8 a9 a10 a11 a12 a13 a14

end Cert.ReferenceIdeal.RefRun

end
-- ==== Proof.RefOps.lean ====
/- The reference program's @main as a list of its 173 operations (a called function's operations standing at its call,
   over that call's buffers), cut into 23 consecutive stages; `main = seq ops`; the side conditions of the run. -/
import proofs.«132337_j89043261980865_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations producing `%5` (stage `v5`). -/
def ops_v5 : List (HloOp τ sig (Elt F)) :=
  [ unary main_arg14 main_v0 (Host.negf : (⟨S1024x1024, .f32⟩ : BufTy).Contents (Elt F) → (⟨S1024x1024, .f32⟩ : BufTy).Contents (Elt F)),
    unary main_v0 main_v1 (Host.exp : (⟨S1024x1024, .f32⟩ : BufTy).Contents (Elt F) → (⟨S1024x1024, .f32⟩ : BufTy).Contents (Elt F)),
    nullary main_cst (constant S_ .f32 0x3F800000#32),
    unary main_cst main_v2 (broadcastInDim S1024x1024 ![] bcast_S_S1024x1024 : (⟨S_, .f32⟩ : BufTy).Contents (Elt F) → (⟨S1024x1024, .f32⟩ : BufTy).Contents (Elt F)),
    binary main_v2 main_v1 main_v3 (addf : (⟨S1024x1024, .f32⟩ : BufTy).Contents (Elt F) → (⟨S1024x1024, .f32⟩ : BufTy).Contents (Elt F) → (⟨S1024x1024, .f32⟩ : BufTy).Contents (Elt F)),
    nullary main_cst_0 (constant S_ .f32 0x3F800000#32),
    unary main_cst_0 main_v4 (broadcastInDim S1024x1024 ![] bcast_S_S1024x1024 : (⟨S_, .f32⟩ : BufTy).Contents (Elt F) → (⟨S1024x1024, .f32⟩ : BufTy).Contents (Elt F)),
    binary main_v4 main_v3 main_v5 (Host.divf : (⟨S1024x1024, .f32⟩ : BufTy).Contents (Elt F) → (⟨S1024x1024, .f32⟩ : BufTy).Contents (Elt F) → (⟨S1024x1024, .f32⟩ : BufTy).Contents (Elt F)) ]

/-- The operations producing `%8` (stage `v8`). -/
def ops_v8 : List (HloOp τ sig (Elt F)) :=
  [ unary main_v5 main_v6 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v6 main_v7 (broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)),
    binary main_arg1 main_v7 main_v8 (mulf : (⟨S16x1024x1024, .f32⟩ : BufTy).Contents (Elt F) → (⟨S16x1024x1024, .f32⟩ : BufTy).Contents (Elt F) → (⟨S16x1024x1024, .f32⟩ : BufTy).Contents (Elt F)) ]

/-- The operations producing `%9` (stage `v9`). -/
def ops_v9 : List (HloOp τ sig (Elt F)) :=
  [ nullary main_cst_1 (constant S_ .f32 0x00000000#32),
    binary main_v8 main_cst_1 main_v9 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)) ]

/-- The operations producing `%13` (stage `v13`). -/
def ops_v13 : List (HloOp τ sig (Elt F)) :=
  [ nullary main_cst_2 (constant S_ .f32 0xBF000000#32),
    unary main_cst_2 main_v10 (broadcastInDim S16x1024 ![] bcast_S_S16x1024 : (⟨S_, .f32⟩ : BufTy).Contents (Elt F) → (⟨S16x1024, .f32⟩ : BufTy).Contents (Elt F)),
    binary main_v9 main_v10 main_v11 (Host.powf : (⟨S16x1024, .f32⟩ : BufTy).Contents (Elt F) → (⟨S16x1024, .f32⟩ : BufTy).Contents (Elt F) → (⟨S16x1024, .f32⟩ : BufTy).Contents (Elt F)),
    TRef.unary (TRef.of (T := ⟨S16x1024, .f32⟩) main_v11) (TRef.of (T := ⟨S16x1024, .f32⟩) main_call0_v0) Host.absf,
    TRef.nullary (TRef.of (T := ⟨S_, .f32⟩) main_call0_cst) (constant S_ .f32 0x7F800000#32),
    TRef.unary (TRef.of (T := ⟨S_, .f32⟩) main_call0_cst) (TRef.of (T := ⟨S16x1024, .f32⟩) main_call0_v1) (broadcastInDim S16x1024 ![] bcast_S_S16x1024),
    TRef.binary (TRef.of (T := ⟨S16x1024, .f32⟩) main_call0_v0) (TRef.of (T := ⟨S16x1024, .f32⟩) main_call0_v1) (TRef.of (T := ⟨S16x1024, .i1⟩) main_v12) (cmpf .oeq),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S16x1024, .f32⟩) main_call1_v1) (broadcastInDim S16x1024 ![] bcast_S_S16x1024),
    TRef.ternary (TRef.of (T := ⟨S16x1024, .i1⟩) main_v12) (TRef.of (T := ⟨S16x1024, .f32⟩) main_call1_v1) (TRef.of (T := ⟨S16x1024, .f32⟩) main_v11) (TRef.of (T := ⟨S16x1024, .f32⟩) main_v13) select ]

/-- The operations producing `%19` (stage `v19`). -/
def ops_v19 : List (HloOp τ sig (Elt F)) :=
  [ unary main_v13 main_v14 (broadcastInDim S16x1024x1 ![0, 1] bcast_S16x1024_S16x1024x1_0_1 : (⟨S16x1024, .f32⟩ : BufTy).Contents (Elt F) → (⟨S16x1024x1, .f32⟩ : BufTy).Contents (Elt F)),
    unary main_v14 main_v15 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v15 main_v8 main_v16 (mulf : (⟨S16x1024x1024, .f32⟩ : BufTy).Contents (Elt F) → (⟨S16x1024x1024, .f32⟩ : BufTy).Contents (Elt F) → (⟨S16x1024x1024, .f32⟩ : BufTy).Contents (Elt F)),
    unary main_v13 main_v17 (broadcastInDim S16x1x1024 ![0, 2] bcast_S16x1024_S16x1x1024_0_2 : (⟨S16x1024, .f32⟩ : BufTy).Contents (Elt F) → (⟨S16x1x1024, .f32⟩ : BufTy).Contents (Elt F)),
    unary main_v17 main_v18 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v16 main_v18 main_v19 (mulf : (⟨S16x1024x1024, .f32⟩ : BufTy).Contents (Elt F) → (⟨S16x1024x1024, .f32⟩ : BufTy).Contents (Elt F) → (⟨S16x1024x1024, .f32⟩ : BufTy).Contents (Elt F)) ]

/-- The operations producing `%23` (stage `v23`). -/
def ops_v23 : List (HloOp τ sig (Elt F)) :=
  [ binary main_arg0 main_arg2 main_v20 ((fun l r => Host.dotGeneral dot_S16x1024x512_S512x512_S16x1024x512_2_1_01_0_n_n none l r) : (⟨S16x1024x512, .f32⟩ : BufTy).Contents (Elt F) → (⟨S512x512, .f32⟩ : BufTy).Contents (Elt F) → (⟨S16x1024x512, .f32⟩ : BufTy).Contents (Elt F)),
    unary main_arg3 main_v21 (broadcastInDim S1x1x512 ![2] bcast_S512_S1x1x512_2 : (⟨S512, .f32⟩ : BufTy).Contents (Elt F) → (⟨S1x1x512, .f32⟩ : BufTy).Contents (Elt F)),
    unary main_v21 main_v22 (broadcastInDim S16x1024x512 ![0, 1, 2] bcast_S1x1x512_S16x1024x512_0_1_2 : (⟨S1x1x512, .f32⟩ : BufTy).Contents (Elt F) → (⟨S16x1024x512, .f32⟩ : BufTy).Contents (Elt F)),
    binary main_v20 main_v22 main_v23 (addf : (⟨S16x1024x512, .f32⟩ : BufTy).Contents (Elt F) → (⟨S16x1024x512, .f32⟩ : BufTy).Contents (Elt F) → (⟨S16x1024x512, .f32⟩ : BufTy).Contents (Elt F)) ]

/-- The operations producing `%24` (stage `v24`). -/
def ops_v24 : List (HloOp τ sig (Elt F)) :=
  [ nullary main_cst_4 (constant S_ .f32 0x3C23D70A#32),
    TRef.nullary (TRef.of (T := ⟨S_, .f32⟩) main_call2_cst) (constant S_ .f32 0x00000000#32),
    TRef.unary (TRef.of (T := ⟨S_, .f32⟩) main_call2_cst) (TRef.of (T := ⟨S16x1024x512, .f32⟩) main_call2_v0) (broadcastInDim S16x1024x512 ![] bcast_S_S16x1024x512),
    TRef.binary (TRef.of (T := ⟨S16x1024x512, .f32⟩) main_v23) (TRef.of (T := ⟨S16x1024x512, .f32⟩) main_call2_v0) (TRef.of (T := ⟨S16x1024x512, .i1⟩) main_call2_v1) (cmpf .oge),
    TRef.unary (TRef.of (T := ⟨S_, .f32⟩) main_cst_4) (TRef.of (T := ⟨S_, .f32⟩) main_call2_v2) id,
    TRef.unary (TRef.of (T := ⟨S_, .f32⟩) main_call2_v2) (TRef.of (T := ⟨S16x1024x512, .f32⟩) main_call2_v3) (broadcastInDim S16x1024x512 ![] bcast_S_S16x1024x512),
    TRef.binary (TRef.of (T := ⟨S16x1024x512, .f32⟩) main_call2_v3) (TRef.of (T := ⟨S16x1024x512, .f32⟩) main_v23) (TRef.of (T := ⟨S16x1024x512, .f32⟩) main_call2_v4) mulf,
    TRef.ternary (TRef.of (T := ⟨S16x1024x512, .i1⟩) main_call2_v1) (TRef.of (T := ⟨S16x1024x512, .f32⟩) main_v23) (TRef.of (T := ⟨S16x1024x512, .f32⟩) main_call2_v4) (TRef.of (T := ⟨S16x1024x512, .f32⟩) main_v24) select ]

/-- The operations producing `%25` (stage `v25`). -/
def ops_v25 : List (HloOp τ sig (Elt F)) :=
  [ unary main_v24 main_v25 ((transpose S16x512x1024 [0, 2, 1] · transposes_S16x1024x512_S16x512x1024_0_2_1) : (⟨S16x1024x512, .f32⟩ : BufTy).Contents (Elt F) → (⟨S16x512x1024, .f32⟩ : BufTy).Contents (Elt F)) ]

/-- The operations producing `%29` (stage `v29`). -/
def ops_v29 : List (HloOp τ sig (Elt F)) :=
  [ nullary main_cst_5 (constant S_ .f32 0x00000000#32),
    binary main_v25 main_cst_5 main_v26 ((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    unary main_v26 main_v27 (broadcastInDim S16x512x1 ![0, 1] bcast_S16x512_S16x512x1_0_1 : (⟨S16x512, .f32⟩ : BufTy).Contents (Elt F) → (⟨S16x512x1, .f32⟩ : BufTy).Contents (Elt F)),
    nullary main_cst_6 (constant S_ .f32 0x44800000#32),
    unary main_cst_6 main_v28 (broadcastInDim S16x512x1 ![] bcast_S_S16x512x1 : (⟨S_, .f32⟩ : BufTy).Contents (Elt F) → (⟨S16x512x1, .f32⟩ : BufTy).Contents (Elt F)),
    binary main_v27 main_v28 main_v29 (Host.divf : (⟨S16x512x1, .f32⟩ : BufTy).Contents (Elt F) → (⟨S16x512x1, .f32⟩ : BufTy).Contents (Elt F) → (⟨S16x512x1, .f32⟩ : BufTy).Contents (Elt F)) ]

/-- The operations producing `%30` (stage `v30`). -/
def ops_v30 : List (HloOp τ sig (Elt F)) :=
  [ nullary main_c (constantI S_ 32 0#32),
    TRef.nullary (TRef.of (T := ⟨S_, .f32⟩) main_call3_cst) (constant S_ .f32 0x00000000#32),
    TRef.binary (TRef.of (T := ⟨S16x512x1024, .f32⟩) main_v25) (TRef.of (T := ⟨S_, .f32⟩) main_call3_cst) (TRef.of (T := ⟨S16x512, .f32⟩) main_call3_v0) (fun x v => Host.reduceAdd x v reducesTo_S16x512x1024_S16x512_d2 h_S_),
    TRef.unary (TRef.of (T := ⟨S16x512, .f32⟩) main_call3_v0) (TRef.of (T := ⟨S16x512x1, .f32⟩) main_call3_v1) (broadcastInDim S16x512x1 ![0, 1] bcast_S16x512_S16x512x1_0_1),
    TRef.nullary (TRef.of (T := ⟨S_, .f32⟩) main_call3_cst_0) (constant S_ .f32 0x44800000#32),
    TRef.unary (TRef.of (T := ⟨S_, .f32⟩) main_call3_cst_0) (TRef.of (T := ⟨S16x512x1, .f32⟩) main_call3_v2) (broadcastInDim S16x512x1 ![] bcast_S_S16x512x1),
    TRef.binary (TRef.of (T := ⟨S16x512x1, .f32⟩) main_call3_v1) (TRef.of (T := ⟨S16x512x1, .f32⟩) main_call3_v2) (TRef.of (T := ⟨S16x512x1, .f32⟩) main_call3_v3) Host.divf,
    TRef.unary (TRef.of (T := ⟨S16x512x1, .f32⟩) main_call3_v3) (TRef.of (T := ⟨S16x512x1024, .f32⟩) main_call3_v4) (broadcastInDim S16x512x1024 ![0, 1, 2] bcast_S16x512x1_S16x512x1024_0_1_2),
    TRef.binary (TRef.of (T := ⟨S16x512x1024, .f32⟩) main_v25) (TRef.of (T := ⟨S16x512x1024, .f32⟩) main_call3_v4) (TRef.of (T := ⟨S16x512x1024, .f32⟩) main_call3_v5) subf,
    TRef.binary (TRef.of (T := ⟨S16x512x1024, .f32⟩) main_call3_v5) (TRef.of (T := ⟨S16x512x1024, .f32⟩) main_call3_v5) (TRef.of (T := ⟨S16x512x1024, .f32⟩) main_call3_v6) mulf,
    TRef.unary (TRef.of (T := ⟨S_, .i32⟩) main_c) (TRef.of (T := ⟨S_, .f32⟩) main_call3_v7) (sitofp .f32),
    TRef.nullary (TRef.of (T := ⟨S_, .f32⟩) main_call3_cst_1) (constant S_ .f32 0x44800000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S16x512x1024, .f32⟩) main_call3_v6) (TRef.of (T := ⟨S_, .f32⟩) main_call3_cst_2) (TRef.of (T := ⟨S16x512, .f32⟩) main_call3_v9) (fun x v => Host.reduceAdd x v reducesTo_S16x512x1024_S16x512_d2 h_S_),
    TRef.unary (TRef.of (T := ⟨S16x512, .f32⟩) main_call3_v9) (TRef.of (T := ⟨S16x512x1, .f32⟩) main_call3_v10) (broadcastInDim S16x512x1 ![0, 1] bcast_S16x512_S16x512x1_0_1),
    TRef.unary (TRef.of (T := ⟨S_, .f32⟩) main_call3_v8) (TRef.of (T := ⟨S16x512x1, .f32⟩) main_call3_v11) (broadcastInDim S16x512x1 ![] bcast_S_S16x512x1),
    TRef.binary (TRef.of (T := ⟨S16x512x1, .f32⟩) main_call3_v10) (TRef.of (T := ⟨S16x512x1, .f32⟩) main_call3_v11) (TRef.of (T := ⟨S16x512x1, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S16x512x1, .f32⟩) main_call3_call0_v1) (broadcastInDim S16x512x1 ![] bcast_S_S16x512x1),
    TRef.ternary (TRef.of (T := ⟨S_, .i1⟩) main_call3_v13) (TRef.of (T := ⟨S16x512x1, .f32⟩) main_call3_v12) (TRef.of (T := ⟨S16x512x1, .f32⟩) main_call3_call0_v1) (TRef.of (T := ⟨S16x512x1, .f32⟩) main_v30) (fun p a b => select (broadcastInDim S16x512x1 ![] bcast_S_S16x512x1 p) a b) ]

/-- The operations producing `%43` (stage `v43`). -/
def ops_v43 : List (HloOp τ sig (Elt F)) :=
  [ unary main_v29 main_v31 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v25 main_v31 main_v32 (subf : (⟨S16x512x1024, .f32⟩ : BufTy).Contents (Elt F) → (⟨S16x512x1024, .f32⟩ : BufTy).Contents (Elt F) → (⟨S16x512x1024, .f32⟩ : BufTy).Contents (Elt F)),
    nullary main_cst_7 (constant S_ .f32 0x3727C5AC#32),
    unary main_cst_7 main_v33 (broadcastInDim S16x512x1 ![] bcast_S_S16x512x1 : (⟨S_, .f32⟩ : BufTy).Contents (Elt F) → (⟨S16x512x1, .f32⟩ : BufTy).Contents (Elt F)),
    binary main_v30 main_v33 main_v34 (addf : (⟨S16x512x1, .f32⟩ : BufTy).Contents (Elt F) → (⟨S16x512x1, .f32⟩ : BufTy).Contents (Elt F) → (⟨S16x512x1, .f32⟩ : BufTy).Contents (Elt F)),
    unary main_v34 main_v35 (Host.rsqrt : (⟨S16x512x1, .f32⟩ : BufTy).Contents (Elt F) → (⟨S16x512x1, .f32⟩ : BufTy).Contents (Elt F)),
    unary main_v35 main_v36 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v32 main_v36 main_v37 (mulf : (⟨S16x512x1024, .f32⟩ : BufTy).Contents (Elt F) → (⟨S16x512x1024, .f32⟩ : BufTy).Contents (Elt F) → (⟨S16x512x1024, .f32⟩ : BufTy).Contents (Elt F)),
    unary main_arg10 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v37 main_v39 main_v40 (mulf : (⟨S16x512x1024, .f32⟩ : BufTy).Contents (Elt F) → (⟨S16x512x1024, .f32⟩ : BufTy).Contents (Elt F) → (⟨S16x512x1024, .f32⟩ : BufTy).Contents (Elt F)),
    unary main_arg11 main_v41 (broadcastInDim S1x1x1024 ![2] bcast_S1024_S1x1x1024_2 : (⟨S1024, .f32⟩ : BufTy).Contents (Elt F) → (⟨S1x1x1024, .f32⟩ : BufTy).Contents (Elt F)),
    unary main_v41 main_v42 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v40 main_v42 main_v43 (addf : (⟨S16x512x1024, .f32⟩ : BufTy).Contents (Elt F) → (⟨S16x512x1024, .f32⟩ : BufTy).Contents (Elt F) → (⟨S16x512x1024, .f32⟩ : BufTy).Contents (Elt F)) ]

/-- The operations producing `%47` (stage `v47`). -/
def ops_v47 : List (HloOp τ sig (Elt F)) :=
  [ binary main_v43 main_arg4 main_v44 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg5 main_v45 (broadcastInDim S1x1x1024 ![2] bcast_S1024_S1x1x1024_2 : (⟨S1024, .f32⟩ : BufTy).Contents (Elt F) → (⟨S1x1x1024, .f32⟩ : BufTy).Contents (Elt F)),
    unary main_v45 main_v46 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v44 main_v46 main_v47 (addf : (⟨S16x512x1024, .f32⟩ : BufTy).Contents (Elt F) → (⟨S16x512x1024, .f32⟩ : BufTy).Contents (Elt F) → (⟨S16x512x1024, .f32⟩ : BufTy).Contents (Elt F)) ]

/-- The operations producing `%48` and `%49` (stage `v49`). -/
def ops_v49 : List (HloOp τ sig (Elt F)) :=
  [ binary main_v43 main_arg6 main_v48 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg7 main_v49 (broadcastInDim S1x1x1024 ![2] bcast_S1024_S1x1x1024_2 : (⟨S1024, .f32⟩ : BufTy).Contents (Elt F) → (⟨S1x1x1024, .f32⟩ : BufTy).Contents (Elt F)) ]

/-- The operations producing `%51` (stage `v51`). -/
def ops_v51 : List (HloOp τ sig (Elt F)) :=
  [ unary main_v49 main_v50 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v48 main_v50 main_v51 (addf : (⟨S16x512x1024, .f32⟩ : BufTy).Contents (Elt F) → (⟨S16x512x1024, .f32⟩ : BufTy).Contents (Elt F) → (⟨S16x512x1024, .f32⟩ : BufTy).Contents (Elt F)) ]

/-- The operations producing `%56` (stage `v56`). -/
def ops_v56 : List (HloOp τ sig (Elt F)) :=
  [ binary main_v43 main_arg8 main_v52 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg9 main_v53 (broadcastInDim S1x1x1024 ![2] bcast_S1024_S1x1x1024_2 : (⟨S1024, .f32⟩ : BufTy).Contents (Elt F) → (⟨S1x1x1024, .f32⟩ : BufTy).Contents (Elt F)),
    unary main_v53 main_v54 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v52 main_v54 main_v55 (addf : (⟨S16x512x1024, .f32⟩ : BufTy).Contents (Elt F) → (⟨S16x512x1024, .f32⟩ : BufTy).Contents (Elt F) → (⟨S16x512x1024, .f32⟩ : BufTy).Contents (Elt F)),
    nullary main_cst_8 (constant S_ .f32 0x3C23D70A#32),
    TRef.nullary (TRef.of (T := ⟨S_, .f32⟩) main_call4_cst) (constant S_ .f32 0x00000000#32),
    TRef.unary (TRef.of (T := ⟨S_, .f32⟩) main_call4_cst) (TRef.of (T := ⟨S16x512x1024, .f32⟩) main_call4_v0) (broadcastInDim S16x512x1024 ![] bcast_S_S16x512x1024),
    TRef.binary (TRef.of (T := ⟨S16x512x1024, .f32⟩) main_v55) (TRef.of (T := ⟨S16x512x1024, .f32⟩) main_call4_v0) (TRef.of (T := ⟨S16x512x1024, .i1⟩) main_call4_v1) (cmpf .oge),
    TRef.unary (TRef.of (T := ⟨S_, .f32⟩) main_cst_8) (TRef.of (T := ⟨S_, .f32⟩) main_call4_v2) id,
    TRef.unary (TRef.of (T := ⟨S_, .f32⟩) main_call4_v2) (TRef.of (T := ⟨S16x512x1024, .f32⟩) main_call4_v3) (broadcastInDim S16x512x1024 ![] bcast_S_S16x512x1024),
    TRef.binary (TRef.of (T := ⟨S16x512x1024, .f32⟩) main_call4_v3) (TRef.of (T := ⟨S16x512x1024, .f32⟩) main_v55) (TRef.of (T := ⟨S16x512x1024, .f32⟩) main_call4_v4) mulf,
    TRef.ternary (TRef.of (T := ⟨S16x512x1024, .i1⟩) main_call4_v1) (TRef.of (T := ⟨S16x512x1024, .f32⟩) main_v55) (TRef.of (T := ⟨S16x512x1024, .f32⟩) main_call4_v4) (TRef.of (T := ⟨S16x512x1024, .f32⟩) main_v56) select ]

/-- The operations producing `%59` (stage `v59`). -/
def ops_v59 : List (HloOp τ sig (Elt F)) :=
  [ binary main_v47 main_v51 main_v57 ((fun l r => Host.dotGeneral dot_S16x512x1024_S16x512x1024_S16x512x512_2_2_1_1_0_0 none l r) : (⟨S16x512x1024, .f32⟩ : BufTy).Contents (Elt F) → (⟨S16x512x1024, .f32⟩ : BufTy).Contents (Elt F) → (⟨S16x512x512, .f32⟩ : BufTy).Contents (Elt F)),
    nullary main_cst_9 (constant S_ .f32 0x3D000000#32),
    unary main_cst_9 main_v58 (broadcastInDim S16x512x512 ![] bcast_S_S16x512x512 : (⟨S_, .f32⟩ : BufTy).Contents (Elt F) → (⟨S16x512x512, .f32⟩ : BufTy).Contents (Elt F)),
    binary main_v57 main_v58 main_v59 (mulf : (⟨S16x512x512, .f32⟩ : BufTy).Contents (Elt F) → (⟨S16x512x512, .f32⟩ : BufTy).Contents (Elt F) → (⟨S16x512x512, .f32⟩ : BufTy).Contents (Elt F)) ]

/-- The operations producing `%70` (stage `v70`). -/
def ops_v70 : List (HloOp τ sig (Elt F)) :=
  [ nullary main_cst_10 (constant S_ .f32 0xFF800000#32),
    binary main_v59 main_cst_10 main_v60 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_11 (constant S_ .f32 0xFF800000#32),
    unary main_cst_11 main_v61 (broadcastInDim S16x512 ![] bcast_S_S16x512 : (⟨S_, .f32⟩ : BufTy).Contents (Elt F) → (⟨S16x512, .f32⟩ : BufTy).Contents (Elt F)),
    binary main_v61 main_v60 main_v62 (maximumf : (⟨S16x512, .f32⟩ : BufTy).Contents (Elt F) → (⟨S16x512, .f32⟩ : BufTy).Contents (Elt F) → (⟨S16x512, .f32⟩ : BufTy).Contents (Elt F)),
    unary main_v62 main_v63 (broadcastInDim S16x512x1 ![0, 1] bcast_S16x512_S16x512x1_0_1 : (⟨S16x512, .f32⟩ : BufTy).Contents (Elt F) → (⟨S16x512x1, .f32⟩ : BufTy).Contents (Elt F)),
    unary main_v63 main_v64 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v59 main_v64 main_v65 (subf : (⟨S16x512x512, .f32⟩ : BufTy).Contents (Elt F) → (⟨S16x512x512, .f32⟩ : BufTy).Contents (Elt F) → (⟨S16x512x512, .f32⟩ : BufTy).Contents (Elt F)),
    unary main_v65 main_v66 (Host.exp : (⟨S16x512x512, .f32⟩ : BufTy).Contents (Elt F) → (⟨S16x512x512, .f32⟩ : BufTy).Contents (Elt F)),
    nullary main_cst_12 (constant S_ .f32 0x00000000#32),
    binary main_v66 main_cst_12 main_v67 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v67 main_v68 (broadcastInDim S16x512x1 ![0, 1] bcast_S16x512_S16x512x1_0_1 : (⟨S16x512, .f32⟩ : BufTy).Contents (Elt F) → (⟨S16x512x1, .f32⟩ : BufTy).Contents (Elt F)),
    unary main_v68 main_v69 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v66 main_v69 main_v70 (Host.divf : (⟨S16x512x512, .f32⟩ : BufTy).Contents (Elt F) → (⟨S16x512x512, .f32⟩ : BufTy).Contents (Elt F) → (⟨S16x512x512, .f32⟩ : BufTy).Contents (Elt F)) ]

/-- The operations producing `%72` (stage `v72`). -/
def ops_v72 : List (HloOp τ sig (Elt F)) :=
  [ binary main_v70 main_v56 main_v71 ((fun l r => Host.dotGeneral dot_S16x512x512_S16x512x1024_S16x512x1024_2_1_1_2_0_0 none l r) : (⟨S16x512x512, .f32⟩ : BufTy).Contents (Elt F) → (⟨S16x512x1024, .f32⟩ : BufTy).Contents (Elt F) → (⟨S16x512x1024, .f32⟩ : BufTy).Contents (Elt F)),
    binary main_v43 main_v71 main_v72 (addf : (⟨S16x512x1024, .f32⟩ : BufTy).Contents (Elt F) → (⟨S16x512x1024, .f32⟩ : BufTy).Contents (Elt F) → (⟨S16x512x1024, .f32⟩ : BufTy).Contents (Elt F)) ]

/-- The operations producing `%73` (stage `v73`). -/
def ops_v73 : List (HloOp τ sig (Elt F)) :=
  [ unary main_v72 main_v73 ((transpose S16x1024x512 [0, 2, 1] · transposes_S16x512x1024_S16x1024x512_0_2_1) : (⟨S16x512x1024, .f32⟩ : BufTy).Contents (Elt F) → (⟨S16x1024x512, .f32⟩ : BufTy).Contents (Elt F)) ]

/-- The operations producing `%74` (stage `v74`). -/
def ops_v74 : List (HloOp τ sig (Elt F)) :=
  [ binary main_v19 main_v73 main_v74 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)) ]

/-- The operations producing `%78` (stage `v78`). -/
def ops_v78 : List (HloOp τ sig (Elt F)) :=
  [ nullary main_cst_13 (constant S_ .f32 0x00000000#32),
    binary main_v74 main_cst_13 main_v75 ((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)),
    unary main_v75 main_v76 (broadcastInDim S16x1024x1 ![0, 1] bcast_S16x1024_S16x1024x1_0_1 : (⟨S16x1024, .f32⟩ : BufTy).Contents (Elt F) → (⟨S16x1024x1, .f32⟩ : BufTy).Contents (Elt F)),
    nullary main_cst_14 (constant S_ .f32 0x44000000#32),
    unary main_cst_14 main_v77 (broadcastInDim S16x1024x1 ![] bcast_S_S16x1024x1 : (⟨S_, .f32⟩ : BufTy).Contents (Elt F) → (⟨S16x1024x1, .f32⟩ : BufTy).Contents (Elt F)),
    binary main_v76 main_v77 main_v78 (Host.divf : (⟨S16x1024x1, .f32⟩ : BufTy).Contents (Elt F) → (⟨S16x1024x1, .f32⟩ : BufTy).Contents (Elt F) → (⟨S16x1024x1, .f32⟩ : BufTy).Contents (Elt F)) ]

/-- The operations producing `%79` (stage `v79`). -/
def ops_v79 : List (HloOp τ sig (Elt F)) :=
  [ nullary main_c_15 (constantI S_ 32 0#32),
    TRef.nullary (TRef.of (T := ⟨S_, .f32⟩) main_call5_cst) (constant S_ .f32 0x00000000#32),
    TRef.binary (TRef.of (T := ⟨S16x1024x512, .f32⟩) main_v74) (TRef.of (T := ⟨S_, .f32⟩) main_call5_cst) (TRef.of (T := ⟨S16x1024, .f32⟩) main_call5_v0) (fun x v => Host.reduceAdd x v reducesTo_S16x1024x512_S16x1024_d2 h_S_),
    TRef.unary (TRef.of (T := ⟨S16x1024, .f32⟩) main_call5_v0) (TRef.of (T := ⟨S16x1024x1, .f32⟩) main_call5_v1) (broadcastInDim S16x1024x1 ![0, 1] bcast_S16x1024_S16x1024x1_0_1),
    TRef.nullary (TRef.of (T := ⟨S_, .f32⟩) main_call5_cst_0) (constant S_ .f32 0x44000000#32),
    TRef.unary (TRef.of (T := ⟨S_, .f32⟩) main_call5_cst_0) (TRef.of (T := ⟨S16x1024x1, .f32⟩) main_call5_v2) (broadcastInDim S16x1024x1 ![] bcast_S_S16x1024x1),
    TRef.binary (TRef.of (T := ⟨S16x1024x1, .f32⟩) main_call5_v1) (TRef.of (T := ⟨S16x1024x1, .f32⟩) main_call5_v2) (TRef.of (T := ⟨S16x1024x1, .f32⟩) main_call5_v3) Host.divf,
    TRef.unary (TRef.of (T := ⟨S16x1024x1, .f32⟩) main_call5_v3) (TRef.of (T := ⟨S16x1024x512, .f32⟩) main_call5_v4) (broadcastInDim S16x1024x512 ![0, 1, 2] bcast_S16x1024x1_S16x1024x512_0_1_2),
    TRef.binary (TRef.of (T := ⟨S16x1024x512, .f32⟩) main_v74) (TRef.of (T := ⟨S16x1024x512, .f32⟩) main_call5_v4) (TRef.of (T := ⟨S16x1024x512, .f32⟩) main_call5_v5) subf,
    TRef.binary (TRef.of (T := ⟨S16x1024x512, .f32⟩) main_call5_v5) (TRef.of (T := ⟨S16x1024x512, .f32⟩) main_call5_v5) (TRef.of (T := ⟨S16x1024x512, .f32⟩) main_call5_v6) mulf,
    TRef.unary (TRef.of (T := ⟨S_, .i32⟩) main_c_15) (TRef.of (T := ⟨S_, .f32⟩) main_call5_v7) (sitofp .f32),
    TRef.nullary (TRef.of (T := ⟨S_, .f32⟩) main_call5_cst_1) (constant S_ .f32 0x44000000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S16x1024x512, .f32⟩) main_call5_v6) (TRef.of (T := ⟨S_, .f32⟩) main_call5_cst_2) (TRef.of (T := ⟨S16x1024, .f32⟩) main_call5_v9) (fun x v => Host.reduceAdd x v reducesTo_S16x1024x512_S16x1024_d2 h_S_),
    TRef.unary (TRef.of (T := ⟨S16x1024, .f32⟩) main_call5_v9) (TRef.of (T := ⟨S16x1024x1, .f32⟩) main_call5_v10) (broadcastInDim S16x1024x1 ![0, 1] bcast_S16x1024_S16x1024x1_0_1),
    TRef.unary (TRef.of (T := ⟨S_, .f32⟩) main_call5_v8) (TRef.of (T := ⟨S16x1024x1, .f32⟩) main_call5_v11) (broadcastInDim S16x1024x1 ![] bcast_S_S16x1024x1),
    TRef.binary (TRef.of (T := ⟨S16x1024x1, .f32⟩) main_call5_v10) (TRef.of (T := ⟨S16x1024x1, .f32⟩) main_call5_v11) (TRef.of (T := ⟨S16x1024x1, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S16x1024x1, .f32⟩) main_call5_call0_v1) (broadcastInDim S16x1024x1 ![] bcast_S_S16x1024x1),
    TRef.ternary (TRef.of (T := ⟨S_, .i1⟩) main_call5_v13) (TRef.of (T := ⟨S16x1024x1, .f32⟩) main_call5_v12) (TRef.of (T := ⟨S16x1024x1, .f32⟩) main_call5_call0_v1) (TRef.of (T := ⟨S16x1024x1, .f32⟩) main_v79) (fun p a b => select (broadcastInDim S16x1024x1 ![] bcast_S_S16x1024x1 p) a b) ]

/-- The operations producing `%92` (stage `v92`). -/
def ops_v92 : List (HloOp τ sig (Elt F)) :=
  [ unary main_v78 main_v80 (broadcastInDim S16x1024x512 ![0, 1, 2] bcast_S16x1024x1_S16x1024x512_0_1_2 : (⟨S16x1024x1, .f32⟩ : BufTy).Contents (Elt F) → (⟨S16x1024x512, .f32⟩ : BufTy).Contents (Elt F)),
    binary main_v74 main_v80 main_v81 (subf : (⟨S16x1024x512, .f32⟩ : BufTy).Contents (Elt F) → (⟨S16x1024x512, .f32⟩ : BufTy).Contents (Elt F) → (⟨S16x1024x512, .f32⟩ : BufTy).Contents (Elt F)),
    nullary main_cst_16 (constant S_ .f32 0x3727C5AC#32),
    unary main_cst_16 main_v82 (broadcastInDim S16x1024x1 ![] bcast_S_S16x1024x1 : (⟨S_, .f32⟩ : BufTy).Contents (Elt F) → (⟨S16x1024x1, .f32⟩ : BufTy).Contents (Elt F)),
    binary main_v79 main_v82 main_v83 (addf : (⟨S16x1024x1, .f32⟩ : BufTy).Contents (Elt F) → (⟨S16x1024x1, .f32⟩ : BufTy).Contents (Elt F) → (⟨S16x1024x1, .f32⟩ : BufTy).Contents (Elt F)),
    unary main_v83 main_v84 (Host.rsqrt : (⟨S16x1024x1, .f32⟩ : BufTy).Contents (Elt F) → (⟨S16x1024x1, .f32⟩ : BufTy).Contents (Elt F)),
    unary main_v84 main_v85 (broadcastInDim S16x1024x512 ![0, 1, 2] bcast_S16x1024x1_S16x1024x512_0_1_2 : (⟨S16x1024x1, .f32⟩ : BufTy).Contents (Elt F) → (⟨S16x1024x512, .f32⟩ : BufTy).Contents (Elt F)),
    binary main_v81 main_v85 main_v86 (mulf : (⟨S16x1024x512, .f32⟩ : BufTy).Contents (Elt F) → (⟨S16x1024x512, .f32⟩ : BufTy).Contents (Elt F) → (⟨S16x1024x512, .f32⟩ : BufTy).Contents (Elt F)),
    unary main_arg12 main_v87 (broadcastInDim S1x1x512 ![2] bcast_S512_S1x1x512_2 : (⟨S512, .f32⟩ : BufTy).Contents (Elt F) → (⟨S1x1x512, .f32⟩ : BufTy).Contents (Elt F)),
    unary main_v87 main_v88 (broadcastInDim S16x1024x512 ![0, 1, 2] bcast_S1x1x512_S16x1024x512_0_1_2 : (⟨S1x1x512, .f32⟩ : BufTy).Contents (Elt F) → (⟨S16x1024x512, .f32⟩ : BufTy).Contents (Elt F)),
    binary main_v86 main_v88 main_v89 (mulf : (⟨S16x1024x512, .f32⟩ : BufTy).Contents (Elt F) → (⟨S16x1024x512, .f32⟩ : BufTy).Contents (Elt F) → (⟨S16x1024x512, .f32⟩ : BufTy).Contents (Elt F)),
    unary main_arg13 main_v90 (broadcastInDim S1x1x512 ![2] bcast_S512_S1x1x512_2 : (⟨S512, .f32⟩ : BufTy).Contents (Elt F) → (⟨S1x1x512, .f32⟩ : BufTy).Contents (Elt F)),
    unary main_v90 main_v91 (broadcastInDim S16x1024x512 ![0, 1, 2] bcast_S1x1x512_S16x1024x512_0_1_2 : (⟨S1x1x512, .f32⟩ : BufTy).Contents (Elt F) → (⟨S16x1024x512, .f32⟩ : BufTy).Contents (Elt F)),
    binary main_v89 main_v91 main_v92 (addf : (⟨S16x1024x512, .f32⟩ : BufTy).Contents (Elt F) → (⟨S16x1024x512, .f32⟩ : BufTy).Contents (Elt F) → (⟨S16x1024x512, .f32⟩ : BufTy).Contents (Elt F)) ]

/-- Window `main_part0`'s operations. -/
abbrev ops_part0 : List (HloOp τ sig (Elt F)) :=
  ops_v5 ++ (ops_v8 ++ (ops_v9 ++ (ops_v13 ++ (ops_v19 ++ (ops_v23 ++ (ops_v24 ++ (ops_v25 ++ (ops_v29 ++ (ops_v30 ++ (ops_v43 ++ (ops_v47 ++ (ops_v49))))))))))))

/-- Window `main_part1`'s operations. -/
abbrev ops_part1 : List (HloOp τ sig (Elt F)) :=
  ops_v51 ++ (ops_v56 ++ (ops_v59 ++ (ops_v70 ++ (ops_v72 ++ (ops_v73 ++ (ops_v74 ++ (ops_v78 ++ (ops_v79 ++ (ops_v92)))))))))

/-- @main's 173 operations, in order. -/
abbrev ops : List (HloOp τ sig (Elt F)) := ops_part0 ++ ops_part1

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_v5_sub : (ops_v5 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩
theorem ops_v8_sub : (ops_v8 : List (HloOp τ sig (Elt F))).Forall fun op => op.bufs ⊆ tcRefs τ sig :=
  ⟨unary_bufs_sub .., unary_bufs_sub .., binary_bufs_sub ..⟩
theorem ops_v9_sub : (ops_v9 : List (HloOp τ sig (Elt F))).Forall fun op => op.bufs ⊆ tcRefs τ sig :=
  ⟨nullary_bufs_sub .., binary_bufs_sub ..⟩
theorem ops_v13_sub : (ops_v13 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., unary_bufs_sub .., ternary_bufs_sub ..⟩
theorem ops_v19_sub : (ops_v19 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem ops_v23_sub : (ops_v23 : List (HloOp τ sig (Elt F))).Forall fun op => op.bufs ⊆ tcRefs τ sig :=
  ⟨binary_bufs_sub .., unary_bufs_sub .., unary_bufs_sub .., binary_bufs_sub ..⟩
theorem ops_v24_sub : (ops_v24 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem ops_v25_sub : (ops_v25 : List (HloOp τ sig (Elt F))).Forall fun op => op.bufs ⊆ tcRefs τ sig :=
  unary_bufs_sub ..
theorem ops_v29_sub : (ops_v29 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem ops_v30_sub : (ops_v30 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem ops_v43_sub : (ops_v43 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem ops_v47_sub : (ops_v47 : List (HloOp τ sig (Elt F))).Forall fun op => op.bufs ⊆ tcRefs τ sig :=
  ⟨binary_bufs_sub .., unary_bufs_sub .., unary_bufs_sub .., binary_bufs_sub ..⟩
theorem ops_v49_sub : (ops_v49 : List (HloOp τ sig (Elt F))).Forall fun op => op.bufs ⊆ tcRefs τ sig :=
  ⟨binary_bufs_sub .., unary_bufs_sub ..⟩
theorem ops_v51_sub : (ops_v51 : List (HloOp τ sig (Elt F))).Forall fun op => op.bufs ⊆ tcRefs τ sig :=
  ⟨unary_bufs_sub .., binary_bufs_sub ..⟩
theorem ops_v56_sub : (ops_v56 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ops_v59_sub : (ops_v59 : List (HloOp τ sig (Elt F))).Forall fun op => op.bufs ⊆ tcRefs τ sig :=
  ⟨binary_bufs_sub .., nullary_bufs_sub .., unary_bufs_sub .., binary_bufs_sub ..⟩
theorem ops_v70_sub : (ops_v70 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ops_v72_sub : (ops_v72 : List (HloOp τ sig (Elt F))).Forall fun op => op.bufs ⊆ tcRefs τ sig :=
  ⟨binary_bufs_sub .., binary_bufs_sub ..⟩
theorem ops_v73_sub : (ops_v73 : List (HloOp τ sig (Elt F))).Forall fun op => op.bufs ⊆ tcRefs τ sig :=
  unary_bufs_sub ..
theorem ops_v74_sub : (ops_v74 : List (HloOp τ sig (Elt F))).Forall fun op => op.bufs ⊆ tcRefs τ sig :=
  binary_bufs_sub ..
theorem ops_v78_sub : (ops_v78 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem ops_v79_sub : (ops_v79 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem ops_v92_sub : (ops_v92 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, ops_part0, ops_part1, List.mem_append] at h
    rcases h with (h | h | h | h | h | h | h | h | h | h | h | h | h) | (h | h | h | h | h | h | h | h | h | h)
    exacts [List.forall_iff_forall_mem.mp ops_v5_sub op h, List.forall_iff_forall_mem.mp ops_v8_sub op h, List.forall_iff_forall_mem.mp ops_v9_sub op h, List.forall_iff_forall_mem.mp ops_v13_sub op h, List.forall_iff_forall_mem.mp ops_v19_sub op h, List.forall_iff_forall_mem.mp ops_v23_sub op h, List.forall_iff_forall_mem.mp ops_v24_sub op h, List.forall_iff_forall_mem.mp ops_v25_sub op h, List.forall_iff_forall_mem.mp ops_v29_sub op h, List.forall_iff_forall_mem.mp ops_v30_sub op h, List.forall_iff_forall_mem.mp ops_v43_sub op h, List.forall_iff_forall_mem.mp ops_v47_sub op h, List.forall_iff_forall_mem.mp ops_v49_sub op h, List.forall_iff_forall_mem.mp ops_v51_sub op h, List.forall_iff_forall_mem.mp ops_v56_sub op h, List.forall_iff_forall_mem.mp ops_v59_sub op h, List.forall_iff_forall_mem.mp ops_v70_sub op h, List.forall_iff_forall_mem.mp ops_v72_sub op h, List.forall_iff_forall_mem.mp ops_v73_sub op h, List.forall_iff_forall_mem.mp ops_v74_sub op h, List.forall_iff_forall_mem.mp ops_v78_sub op h, List.forall_iff_forall_mem.mp ops_v79_sub op h, List.forall_iff_forall_mem.mp ops_v92_sub op h]

end Cert.ReferenceIdeal.RefRun

end
-- ==== Proof.RefRun.lean ====
/- The reference program's run read back: from any memory with zero counters every weakly fair execution of @main
   terminates with the result buffer at `result` of the argument arrays' launch contents and the arguments unchanged.
   Stage by stage: what a stage's operations leave at the buffer of the value it produces (`out_*`), and that they
   leave every buffer they do not write as it was (`keep_*`); the whole line is the stages in turn. -/
import proofs.«132337_j89043261980865_2_alg».proof.Proof.RefDefs
import proofs.«132337_j89043261980865_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### Stage `v5` -/

/-- The buffers stage `v5`'s operations write. -/
abbrev W_v5 : List (Ref sig .tc) := [main_v0, main_v1, main_cst, main_v2, main_v3, main_cst_0, main_v4, main_v5]
set_option maxRecDepth 8192 in
theorem ops_v5_writes : (ops_v5 : List (HloOp τ sig (Elt F))).Forall fun op => op.writes ⊆ (W_v5.map (Proc.devRef (τ := τ) .tc)).toFinset := by
  simp only [ops_v5, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v5` does not write keeps its contents through it. -/
theorem keep_v5 (V : Valuation τ sig (Elt F)) (r : Ref sig .tc) (h : r ∉ W_v5) :
    after ops_v5 V (no_index (Proc.devRef .tc r)) = V (Proc.devRef .tc r) :=
  after_of_writes_sub ops_v5 V ops_v5_writes h
set_option maxRecDepth 8192 in
set_option maxHeartbeats 2000000 in
/-- After stage `v5` the buffer of `%5` holds `st_v5` of what the stage read. -/
theorem out_v5 (V : Valuation τ sig (Elt F)) :
    after ops_v5 V (no_index (Proc.devRef .tc main_v5)) = st_v5 (V (Proc.devRef .tc main_arg14)) := by
  simp only [ops_v5]
  after_results_simp <;> rfl

/-! ### Stage `v8` -/

/-- The buffers stage `v8`'s operations write. -/
abbrev W_v8 : List (Ref sig .tc) := [main_v6, main_v7, main_v8]
set_option maxRecDepth 8192 in
theorem ops_v8_writes : (ops_v8 : List (HloOp τ sig (Elt F))).Forall fun op => op.writes ⊆ (W_v8.map (Proc.devRef (τ := τ) .tc)).toFinset := by
  simp only [ops_v8, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v8` does not write keeps its contents through it. -/
theorem keep_v8 (V : Valuation τ sig (Elt F)) (r : Ref sig .tc) (h : r ∉ W_v8) :
    after ops_v8 V (no_index (Proc.devRef .tc r)) = V (Proc.devRef .tc r) :=
  after_of_writes_sub ops_v8 V ops_v8_writes h
set_option maxRecDepth 8192 in
set_option maxHeartbeats 2000000 in
/-- After stage `v8` the buffer of `%8` holds `st_v8` of what the stage read. -/
theorem out_v8 (V : Valuation τ sig (Elt F)) :
    after ops_v8 V (no_index (Proc.devRef .tc main_v8)) = st_v8 (V (Proc.devRef .tc main_v5)) (V (Proc.devRef .tc main_arg1)) := by
  simp only [ops_v8]
  after_results_simp <;> rfl

/-! ### Stage `v9` -/

/-- The buffers stage `v9`'s operations write. -/
abbrev W_v9 : List (Ref sig .tc) := [main_cst_1, main_v9]
set_option maxRecDepth 8192 in
theorem ops_v9_writes : (ops_v9 : List (HloOp τ sig (Elt F))).Forall fun op => op.writes ⊆ (W_v9.map (Proc.devRef (τ := τ) .tc)).toFinset := by
  simp only [ops_v9, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v9` does not write keeps its contents through it. -/
theorem keep_v9 (V : Valuation τ sig (Elt F)) (r : Ref sig .tc) (h : r ∉ W_v9) :
    after ops_v9 V (no_index (Proc.devRef .tc r)) = V (Proc.devRef .tc r) :=
  after_of_writes_sub ops_v9 V ops_v9_writes h
set_option maxRecDepth 8192 in
set_option maxHeartbeats 2000000 in
/-- After stage `v9` the buffer of `%9` holds `st_v9` of what the stage read. -/
theorem out_v9 (V : Valuation τ sig (Elt F)) :
    after ops_v9 V (no_index (Proc.devRef .tc main_v9)) = st_v9 (V (Proc.devRef .tc main_v8)) := by
  simp only [ops_v9]
  after_results_simp <;> rfl

/-! ### Stage `v13` -/

/-- The buffers stage `v13`'s operations write. -/
abbrev W_v13 : List (Ref sig .tc) := [main_cst_2, main_v10, main_v11, main_call0_v0, main_call0_cst, main_call0_v1, main_v12, main_cst_3, main_call1_v0, main_call1_v1, main_v13]
set_option maxRecDepth 8192 in
theorem ops_v13_writes : (ops_v13 : List (HloOp τ sig (Elt F))).Forall fun op => op.writes ⊆ (W_v13.map (Proc.devRef (τ := τ) .tc)).toFinset := by
  simp only [ops_v13, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v13` does not write keeps its contents through it. -/
theorem keep_v13 (V : Valuation τ sig (Elt F)) (r : Ref sig .tc) (h : r ∉ W_v13) :
    after ops_v13 V (no_index (Proc.devRef .tc r)) = V (Proc.devRef .tc r) :=
  after_of_writes_sub ops_v13 V ops_v13_writes h
set_option maxRecDepth 8192 in
set_option maxHeartbeats 2000000 in
/-- After stage `v13` the buffer of `%13` holds `st_v13` of what the stage read. -/
theorem out_v13 (V : Valuation τ sig (Elt F)) :
    after ops_v13 V (no_index (Proc.devRef .tc main_v13)) = st_v13 (V (Proc.devRef .tc main_v9)) := by
  simp only [ops_v13]
  after_results_simp <;> rfl

/-! ### Stage `v19` -/

/-- The buffers stage `v19`'s operations write. -/
abbrev W_v19 : List (Ref sig .tc) := [main_v14, main_v15, main_v16, main_v17, main_v18, main_v19]
set_option maxRecDepth 8192 in
theorem ops_v19_writes : (ops_v19 : List (HloOp τ sig (Elt F))).Forall fun op => op.writes ⊆ (W_v19.map (Proc.devRef (τ := τ) .tc)).toFinset := by
  simp only [ops_v19, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v19` does not write keeps its contents through it. -/
theorem keep_v19 (V : Valuation τ sig (Elt F)) (r : Ref sig .tc) (h : r ∉ W_v19) :
    after ops_v19 V (no_index (Proc.devRef .tc r)) = V (Proc.devRef .tc r) :=
  after_of_writes_sub ops_v19 V ops_v19_writes h
set_option maxRecDepth 8192 in
set_option maxHeartbeats 2000000 in
/-- After stage `v19` the buffer of `%19` holds `st_v19` of what the stage read. -/
theorem out_v19 (V : Valuation τ sig (Elt F)) :
    after ops_v19 V (no_index (Proc.devRef .tc main_v19)) = st_v19 (V (Proc.devRef .tc main_v8)) (V (Proc.devRef .tc main_v13)) := by
  simp only [ops_v19]
  after_results_simp <;> rfl

/-! ### Stage `v23` -/

/-- The buffers stage `v23`'s operations write. -/
abbrev W_v23 : List (Ref sig .tc) := [main_v20, main_v21, main_v22, main_v23]
set_option maxRecDepth 8192 in
theorem ops_v23_writes : (ops_v23 : List (HloOp τ sig (Elt F))).Forall fun op => op.writes ⊆ (W_v23.map (Proc.devRef (τ := τ) .tc)).toFinset := by
  simp only [ops_v23, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v23` does not write keeps its contents through it. -/
theorem keep_v23 (V : Valuation τ sig (Elt F)) (r : Ref sig .tc) (h : r ∉ W_v23) :
    after ops_v23 V (no_index (Proc.devRef .tc r)) = V (Proc.devRef .tc r) :=
  after_of_writes_sub ops_v23 V ops_v23_writes h
set_option maxRecDepth 8192 in
set_option maxHeartbeats 2000000 in
/-- After stage `v23` the buffer of `%23` holds `st_v23` of what the stage read. -/
theorem out_v23 (V : Valuation τ sig (Elt F)) :
    after ops_v23 V (no_index (Proc.devRef .tc main_v23)) = st_v23 (V (Proc.devRef .tc main_arg0)) (V (Proc.devRef .tc main_arg2)) (V (Proc.devRef .tc main_arg3)) := by
  simp only [ops_v23]
  after_results_simp <;> rfl

/-! ### Stage `v24` -/

/-- The buffers stage `v24`'s operations write. -/
abbrev W_v24 : List (Ref sig .tc) := [main_cst_4, main_call2_cst, main_call2_v0, main_call2_v1, main_call2_v2, main_call2_v3, main_call2_v4, main_v24]
set_option maxRecDepth 8192 in
theorem ops_v24_writes : (ops_v24 : List (HloOp τ sig (Elt F))).Forall fun op => op.writes ⊆ (W_v24.map (Proc.devRef (τ := τ) .tc)).toFinset := by
  simp only [ops_v24, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v24` does not write keeps its contents through it. -/
theorem keep_v24 (V : Valuation τ sig (Elt F)) (r : Ref sig .tc) (h : r ∉ W_v24) :
    after ops_v24 V (no_index (Proc.devRef .tc r)) = V (Proc.devRef .tc r) :=
  after_of_writes_sub ops_v24 V ops_v24_writes h
set_option maxRecDepth 8192 in
set_option maxHeartbeats 2000000 in
/-- After stage `v24` the buffer of `%24` holds `st_v24` of what the stage read. -/
theorem out_v24 (V : Valuation τ sig (Elt F)) :
    after ops_v24 V (no_index (Proc.devRef .tc main_v24)) = st_v24 (V (Proc.devRef .tc main_v23)) := by
  simp only [ops_v24]
  after_results_simp <;> rfl

/-! ### Stage `v25` -/

/-- The buffers stage `v25`'s operations write. -/
abbrev W_v25 : List (Ref sig .tc) := [main_v25]
set_option maxRecDepth 8192 in
theorem ops_v25_writes : (ops_v25 : List (HloOp τ sig (Elt F))).Forall fun op => op.writes ⊆ (W_v25.map (Proc.devRef (τ := τ) .tc)).toFinset := by
  simp only [ops_v25, List.Forall]; exact (by simp only [nullary_writes, unary_writes, binary_writes, ternary_writes, Finset.singleton_subset_iff, List.mem_toFinset]; exact List.mem_map_of_mem (by decide))
/-- A buffer stage `v25` does not write keeps its contents through it. -/
theorem keep_v25 (V : Valuation τ sig (Elt F)) (r : Ref sig .tc) (h : r ∉ W_v25) :
    after ops_v25 V (no_index (Proc.devRef .tc r)) = V (Proc.devRef .tc r) :=
  after_of_writes_sub ops_v25 V ops_v25_writes h
set_option maxRecDepth 8192 in
set_option maxHeartbeats 2000000 in
/-- After stage `v25` the buffer of `%25` holds `st_v25` of what the stage read. -/
theorem out_v25 (V : Valuation τ sig (Elt F)) :
    after ops_v25 V (no_index (Proc.devRef .tc main_v25)) = st_v25 (V (Proc.devRef .tc main_v24)) := by
  simp only [ops_v25]
  after_results_simp <;> rfl

/-! ### Stage `v29` -/

/-- The buffers stage `v29`'s operations write. -/
abbrev W_v29 : List (Ref sig .tc) := [main_cst_5, main_v26, main_v27, main_cst_6, main_v28, main_v29]
set_option maxRecDepth 8192 in
theorem ops_v29_writes : (ops_v29 : List (HloOp τ sig (Elt F))).Forall fun op => op.writes ⊆ (W_v29.map (Proc.devRef (τ := τ) .tc)).toFinset := by
  simp only [ops_v29, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v29` does not write keeps its contents through it. -/
theorem keep_v29 (V : Valuation τ sig (Elt F)) (r : Ref sig .tc) (h : r ∉ W_v29) :
    after ops_v29 V (no_index (Proc.devRef .tc r)) = V (Proc.devRef .tc r) :=
  after_of_writes_sub ops_v29 V ops_v29_writes h
set_option maxRecDepth 8192 in
set_option maxHeartbeats 2000000 in
/-- After stage `v29` the buffer of `%29` holds `st_v29` of what the stage read. -/
theorem out_v29 (V : Valuation τ sig (Elt F)) :
    after ops_v29 V (no_index (Proc.devRef .tc main_v29)) = st_v29 (V (Proc.devRef .tc main_v25)) := by
  simp only [ops_v29]
  after_results_simp <;> rfl

/-! ### Stage `v30` -/

/-- The buffers stage `v30`'s operations write. -/
abbrev W_v30 : List (Ref sig .tc) := [main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v30]
set_option maxRecDepth 8192 in
theorem ops_v30_writes : (ops_v30 : List (HloOp τ sig (Elt F))).Forall fun op => op.writes ⊆ (W_v30.map (Proc.devRef (τ := τ) .tc)).toFinset := by
  simp only [ops_v30, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v30` does not write keeps its contents through it. -/
theorem keep_v30 (V : Valuation τ sig (Elt F)) (r : Ref sig .tc) (h : r ∉ W_v30) :
    after ops_v30 V (no_index (Proc.devRef .tc r)) = V (Proc.devRef .tc r) :=
  after_of_writes_sub ops_v30 V ops_v30_writes h
set_option maxRecDepth 8192 in
set_option maxHeartbeats 2000000 in
/-- After stage `v30` the buffer of `%30` holds `st_v30` of what the stage read. -/
theorem out_v30 (V : Valuation τ sig (Elt F)) :
    after ops_v30 V (no_index (Proc.devRef .tc main_v30)) = st_v30 (V (Proc.devRef .tc main_v25)) := by
  simp only [ops_v30]
  after_results_simp <;> rfl

/-! ### Stage `v43` -/

/-- The buffers stage `v43`'s operations write. -/
abbrev W_v43 : List (Ref sig .tc) := [main_v31, main_v32, main_cst_7, main_v33, main_v34, main_v35, main_v36, main_v37, main_v38, main_v39, main_v40, main_v41, main_v42, main_v43]
set_option maxRecDepth 8192 in
theorem ops_v43_writes : (ops_v43 : List (HloOp τ sig (Elt F))).Forall fun op => op.writes ⊆ (W_v43.map (Proc.devRef (τ := τ) .tc)).toFinset := by
  simp only [ops_v43, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v43` does not write keeps its contents through it. -/
theorem keep_v43 (V : Valuation τ sig (Elt F)) (r : Ref sig .tc) (h : r ∉ W_v43) :
    after ops_v43 V (no_index (Proc.devRef .tc r)) = V (Proc.devRef .tc r) :=
  after_of_writes_sub ops_v43 V ops_v43_writes h
set_option maxRecDepth 8192 in
set_option maxHeartbeats 2000000 in
/-- After stage `v43` the buffer of `%43` holds `st_v43` of what the stage read. -/
theorem out_v43 (V : Valuation τ sig (Elt F)) :
    after ops_v43 V (no_index (Proc.devRef .tc main_v43)) = st_v43 (V (Proc.devRef .tc main_v25)) (V (Proc.devRef .tc main_v29)) (V (Proc.devRef .tc main_v30)) (V (Proc.devRef .tc main_arg10)) (V (Proc.devRef .tc main_arg11)) := by
  simp only [ops_v43]
  after_results_simp <;> rfl

/-! ### Stage `v47` -/

/-- The buffers stage `v47`'s operations write. -/
abbrev W_v47 : List (Ref sig .tc) := [main_v44, main_v45, main_v46, main_v47]
set_option maxRecDepth 8192 in
theorem ops_v47_writes : (ops_v47 : List (HloOp τ sig (Elt F))).Forall fun op => op.writes ⊆ (W_v47.map (Proc.devRef (τ := τ) .tc)).toFinset := by
  simp only [ops_v47, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v47` does not write keeps its contents through it. -/
theorem keep_v47 (V : Valuation τ sig (Elt F)) (r : Ref sig .tc) (h : r ∉ W_v47) :
    after ops_v47 V (no_index (Proc.devRef .tc r)) = V (Proc.devRef .tc r) :=
  after_of_writes_sub ops_v47 V ops_v47_writes h
set_option maxRecDepth 8192 in
set_option maxHeartbeats 2000000 in
/-- After stage `v47` the buffer of `%47` holds `st_v47` of what the stage read. -/
theorem out_v47 (V : Valuation τ sig (Elt F)) :
    after ops_v47 V (no_index (Proc.devRef .tc main_v47)) = st_v47 (V (Proc.devRef .tc main_v43)) (V (Proc.devRef .tc main_arg4)) (V (Proc.devRef .tc main_arg5)) := by
  simp only [ops_v47]
  after_results_simp <;> rfl

/-! ### Stage `v49` -/

/-- The buffers stage `v49`'s operations write. -/
abbrev W_v49 : List (Ref sig .tc) := [main_v48, main_v49]
set_option maxRecDepth 8192 in
theorem ops_v49_writes : (ops_v49 : List (HloOp τ sig (Elt F))).Forall fun op => op.writes ⊆ (W_v49.map (Proc.devRef (τ := τ) .tc)).toFinset := by
  simp only [ops_v49, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v49` does not write keeps its contents through it. -/
theorem keep_v49 (V : Valuation τ sig (Elt F)) (r : Ref sig .tc) (h : r ∉ W_v49) :
    after ops_v49 V (no_index (Proc.devRef .tc r)) = V (Proc.devRef .tc r) :=
  after_of_writes_sub ops_v49 V ops_v49_writes h
set_option maxRecDepth 8192 in
set_option maxHeartbeats 2000000 in
/-- After stage `v49` the buffer of `%48` holds `st_v48` of what the stage read. -/
theorem out_v48 (V : Valuation τ sig (Elt F)) :
    after ops_v49 V (no_index (Proc.devRef .tc main_v48)) = st_v48 (V (Proc.devRef .tc main_v43)) (V (Proc.devRef .tc main_arg6)) := by
  simp only [ops_v49]
  after_results_simp <;> rfl
set_option maxRecDepth 8192 in
set_option maxHeartbeats 2000000 in
/-- After stage `v49` the buffer of `%49` holds `st_v49` of what the stage read. -/
theorem out_v49 (V : Valuation τ sig (Elt F)) :
    after ops_v49 V (no_index (Proc.devRef .tc main_v49)) = st_v49 (V (Proc.devRef .tc main_arg7)) := by
  simp only [ops_v49]
  after_results_simp <;> rfl

/-! ### Stage `v51` -/

/-- The buffers stage `v51`'s operations write. -/
abbrev W_v51 : List (Ref sig .tc) := [main_v50, main_v51]
set_option maxRecDepth 8192 in
theorem ops_v51_writes : (ops_v51 : List (HloOp τ sig (Elt F))).Forall fun op => op.writes ⊆ (W_v51.map (Proc.devRef (τ := τ) .tc)).toFinset := by
  simp only [ops_v51, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v51` does not write keeps its contents through it. -/
theorem keep_v51 (V : Valuation τ sig (Elt F)) (r : Ref sig .tc) (h : r ∉ W_v51) :
    after ops_v51 V (no_index (Proc.devRef .tc r)) = V (Proc.devRef .tc r) :=
  after_of_writes_sub ops_v51 V ops_v51_writes h
set_option maxRecDepth 8192 in
set_option maxHeartbeats 2000000 in
/-- After stage `v51` the buffer of `%51` holds `st_v51` of what the stage read. -/
theorem out_v51 (V : Valuation τ sig (Elt F)) :
    after ops_v51 V (no_index (Proc.devRef .tc main_v51)) = st_v51 (V (Proc.devRef .tc main_v48)) (V (Proc.devRef .tc main_v49)) := by
  simp only [ops_v51]
  after_results_simp <;> rfl

/-! ### Stage `v56` -/

/-- The buffers stage `v56`'s operations write. -/
abbrev W_v56 : List (Ref sig .tc) := [main_v52, main_v53, main_v54, main_v55, main_cst_8, main_call4_cst, main_call4_v0, main_call4_v1, main_call4_v2, main_call4_v3, main_call4_v4, main_v56]
set_option maxRecDepth 8192 in
theorem ops_v56_writes : (ops_v56 : List (HloOp τ sig (Elt F))).Forall fun op => op.writes ⊆ (W_v56.map (Proc.devRef (τ := τ) .tc)).toFinset := by
  simp only [ops_v56, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v56` does not write keeps its contents through it. -/
theorem keep_v56 (V : Valuation τ sig (Elt F)) (r : Ref sig .tc) (h : r ∉ W_v56) :
    after ops_v56 V (no_index (Proc.devRef .tc r)) = V (Proc.devRef .tc r) :=
  after_of_writes_sub ops_v56 V ops_v56_writes h
set_option maxRecDepth 8192 in
set_option maxHeartbeats 2000000 in
/-- After stage `v56` the buffer of `%56` holds `st_v56` of what the stage read. -/
theorem out_v56 (V : Valuation τ sig (Elt F)) :
    after ops_v56 V (no_index (Proc.devRef .tc main_v56)) = st_v56 (V (Proc.devRef .tc main_v43)) (V (Proc.devRef .tc main_arg8)) (V (Proc.devRef .tc main_arg9)) := by
  simp only [ops_v56]
  after_results_simp <;> rfl

/-! ### Stage `v59` -/

/-- The buffers stage `v59`'s operations write. -/
abbrev W_v59 : List (Ref sig .tc) := [main_v57, main_cst_9, main_v58, main_v59]
set_option maxRecDepth 8192 in
theorem ops_v59_writes : (ops_v59 : List (HloOp τ sig (Elt F))).Forall fun op => op.writes ⊆ (W_v59.map (Proc.devRef (τ := τ) .tc)).toFinset := by
  simp only [ops_v59, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v59` does not write keeps its contents through it. -/
theorem keep_v59 (V : Valuation τ sig (Elt F)) (r : Ref sig .tc) (h : r ∉ W_v59) :
    after ops_v59 V (no_index (Proc.devRef .tc r)) = V (Proc.devRef .tc r) :=
  after_of_writes_sub ops_v59 V ops_v59_writes h
set_option maxRecDepth 8192 in
set_option maxHeartbeats 2000000 in
/-- After stage `v59` the buffer of `%59` holds `st_v59` of what the stage read. -/
theorem out_v59 (V : Valuation τ sig (Elt F)) :
    after ops_v59 V (no_index (Proc.devRef .tc main_v59)) = st_v59 (V (Proc.devRef .tc main_v47)) (V (Proc.devRef .tc main_v51)) := by
  simp only [ops_v59]
  after_results_simp <;> rfl

/-! ### Stage `v70` -/

/-- The buffers stage `v70`'s operations write. -/
abbrev W_v70 : List (Ref sig .tc) := [main_cst_10, main_v60, main_cst_11, main_v61, main_v62, main_v63, main_v64, main_v65, main_v66, main_cst_12, main_v67, main_v68, main_v69, main_v70]
set_option maxRecDepth 8192 in
theorem ops_v70_writes : (ops_v70 : List (HloOp τ sig (Elt F))).Forall fun op => op.writes ⊆ (W_v70.map (Proc.devRef (τ := τ) .tc)).toFinset := by
  simp only [ops_v70, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v70` does not write keeps its contents through it. -/
theorem keep_v70 (V : Valuation τ sig (Elt F)) (r : Ref sig .tc) (h : r ∉ W_v70) :
    after ops_v70 V (no_index (Proc.devRef .tc r)) = V (Proc.devRef .tc r) :=
  after_of_writes_sub ops_v70 V ops_v70_writes h
set_option maxRecDepth 8192 in
set_option maxHeartbeats 2000000 in
/-- After stage `v70` the buffer of `%70` holds `st_v70` of what the stage read. -/
theorem out_v70 (V : Valuation τ sig (Elt F)) :
    after ops_v70 V (no_index (Proc.devRef .tc main_v70)) = st_v70 (V (Proc.devRef .tc main_v59)) := by
  simp only [ops_v70]
  after_results_simp <;> rfl

/-! ### Stage `v72` -/

/-- The buffers stage `v72`'s operations write. -/
abbrev W_v72 : List (Ref sig .tc) := [main_v71, main_v72]
set_option maxRecDepth 8192 in
theorem ops_v72_writes : (ops_v72 : List (HloOp τ sig (Elt F))).Forall fun op => op.writes ⊆ (W_v72.map (Proc.devRef (τ := τ) .tc)).toFinset := by
  simp only [ops_v72, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v72` does not write keeps its contents through it. -/
theorem keep_v72 (V : Valuation τ sig (Elt F)) (r : Ref sig .tc) (h : r ∉ W_v72) :
    after ops_v72 V (no_index (Proc.devRef .tc r)) = V (Proc.devRef .tc r) :=
  after_of_writes_sub ops_v72 V ops_v72_writes h
set_option maxRecDepth 8192 in
set_option maxHeartbeats 2000000 in
/-- After stage `v72` the buffer of `%72` holds `st_v72` of what the stage read. -/
theorem out_v72 (V : Valuation τ sig (Elt F)) :
    after ops_v72 V (no_index (Proc.devRef .tc main_v72)) = st_v72 (V (Proc.devRef .tc main_v43)) (V (Proc.devRef .tc main_v56)) (V (Proc.devRef .tc main_v70)) := by
  simp only [ops_v72]
  after_results_simp <;> rfl

/-! ### Stage `v73` -/

/-- The buffers stage `v73`'s operations write. -/
abbrev W_v73 : List (Ref sig .tc) := [main_v73]
set_option maxRecDepth 8192 in
theorem ops_v73_writes : (ops_v73 : List (HloOp τ sig (Elt F))).Forall fun op => op.writes ⊆ (W_v73.map (Proc.devRef (τ := τ) .tc)).toFinset := by
  simp only [ops_v73, List.Forall]; exact (by simp only [nullary_writes, unary_writes, binary_writes, ternary_writes, Finset.singleton_subset_iff, List.mem_toFinset]; exact List.mem_map_of_mem (by decide))
/-- A buffer stage `v73` does not write keeps its contents through it. -/
theorem keep_v73 (V : Valuation τ sig (Elt F)) (r : Ref sig .tc) (h : r ∉ W_v73) :
    after ops_v73 V (no_index (Proc.devRef .tc r)) = V (Proc.devRef .tc r) :=
  after_of_writes_sub ops_v73 V ops_v73_writes h
set_option maxRecDepth 8192 in
set_option maxHeartbeats 2000000 in
/-- After stage `v73` the buffer of `%73` holds `st_v73` of what the stage read. -/
theorem out_v73 (V : Valuation τ sig (Elt F)) :
    after ops_v73 V (no_index (Proc.devRef .tc main_v73)) = st_v73 (V (Proc.devRef .tc main_v72)) := by
  simp only [ops_v73]
  after_results_simp <;> rfl

/-! ### Stage `v74` -/

/-- The buffers stage `v74`'s operations write. -/
abbrev W_v74 : List (Ref sig .tc) := [main_v74]
set_option maxRecDepth 8192 in
theorem ops_v74_writes : (ops_v74 : List (HloOp τ sig (Elt F))).Forall fun op => op.writes ⊆ (W_v74.map (Proc.devRef (τ := τ) .tc)).toFinset := by
  simp only [ops_v74, List.Forall]; exact (by simp only [nullary_writes, unary_writes, binary_writes, ternary_writes, Finset.singleton_subset_iff, List.mem_toFinset]; exact List.mem_map_of_mem (by decide))
/-- A buffer stage `v74` does not write keeps its contents through it. -/
theorem keep_v74 (V : Valuation τ sig (Elt F)) (r : Ref sig .tc) (h : r ∉ W_v74) :
    after ops_v74 V (no_index (Proc.devRef .tc r)) = V (Proc.devRef .tc r) :=
  after_of_writes_sub ops_v74 V ops_v74_writes h
set_option maxRecDepth 8192 in
set_option maxHeartbeats 2000000 in
/-- After stage `v74` the buffer of `%74` holds `st_v74` of what the stage read. -/
theorem out_v74 (V : Valuation τ sig (Elt F)) :
    after ops_v74 V (no_index (Proc.devRef .tc main_v74)) = st_v74 (V (Proc.devRef .tc main_v19)) (V (Proc.devRef .tc main_v73)) := by
  simp only [ops_v74]
  after_results_simp <;> rfl

/-! ### Stage `v78` -/

/-- The buffers stage `v78`'s operations write. -/
abbrev W_v78 : List (Ref sig .tc) := [main_cst_13, main_v75, main_v76, main_cst_14, main_v77, main_v78]
set_option maxRecDepth 8192 in
theorem ops_v78_writes : (ops_v78 : List (HloOp τ sig (Elt F))).Forall fun op => op.writes ⊆ (W_v78.map (Proc.devRef (τ := τ) .tc)).toFinset := by
  simp only [ops_v78, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v78` does not write keeps its contents through it. -/
theorem keep_v78 (V : Valuation τ sig (Elt F)) (r : Ref sig .tc) (h : r ∉ W_v78) :
    after ops_v78 V (no_index (Proc.devRef .tc r)) = V (Proc.devRef .tc r) :=
  after_of_writes_sub ops_v78 V ops_v78_writes h
set_option maxRecDepth 8192 in
set_option maxHeartbeats 2000000 in
/-- After stage `v78` the buffer of `%78` holds `st_v78` of what the stage read. -/
theorem out_v78 (V : Valuation τ sig (Elt F)) :
    after ops_v78 V (no_index (Proc.devRef .tc main_v78)) = st_v78 (V (Proc.devRef .tc main_v74)) := by
  simp only [ops_v78]
  after_results_simp <;> rfl

/-! ### Stage `v79` -/

/-- The buffers stage `v79`'s operations write. -/
abbrev W_v79 : List (Ref sig .tc) := [main_c_15, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v79]
set_option maxRecDepth 8192 in
theorem ops_v79_writes : (ops_v79 : List (HloOp τ sig (Elt F))).Forall fun op => op.writes ⊆ (W_v79.map (Proc.devRef (τ := τ) .tc)).toFinset := by
  simp only [ops_v79, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v79` does not write keeps its contents through it. -/
theorem keep_v79 (V : Valuation τ sig (Elt F)) (r : Ref sig .tc) (h : r ∉ W_v79) :
    after ops_v79 V (no_index (Proc.devRef .tc r)) = V (Proc.devRef .tc r) :=
  after_of_writes_sub ops_v79 V ops_v79_writes h
set_option maxRecDepth 8192 in
set_option maxHeartbeats 2000000 in
/-- After stage `v79` the buffer of `%79` holds `st_v79` of what the stage read. -/
theorem out_v79 (V : Valuation τ sig (Elt F)) :
    after ops_v79 V (no_index (Proc.devRef .tc main_v79)) = st_v79 (V (Proc.devRef .tc main_v74)) := by
  simp only [ops_v79]
  after_results_simp <;> rfl

/-! ### Stage `v92` -/

/-- The buffers stage `v92`'s operations write. -/
abbrev W_v92 : List (Ref sig .tc) := [main_v80, main_v81, main_cst_16, main_v82, main_v83, main_v84, main_v85, main_v86, main_v87, main_v88, main_v89, main_v90, main_v91, main_v92]
set_option maxRecDepth 8192 in
theorem ops_v92_writes : (ops_v92 : List (HloOp τ sig (Elt F))).Forall fun op => op.writes ⊆ (W_v92.map (Proc.devRef (τ := τ) .tc)).toFinset := by
  simp only [ops_v92, List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer stage `v92` does not write keeps its contents through it. -/
theorem keep_v92 (V : Valuation τ sig (Elt F)) (r : Ref sig .tc) (h : r ∉ W_v92) :
    after ops_v92 V (no_index (Proc.devRef .tc r)) = V (Proc.devRef .tc r) :=
  after_of_writes_sub ops_v92 V ops_v92_writes h
set_option maxRecDepth 8192 in
set_option maxHeartbeats 2000000 in
/-- After stage `v92` the buffer of `%92` holds `st_v92` of what the stage read. -/
theorem out_v92 (V : Valuation τ sig (Elt F)) :
    after ops_v92 V (no_index (Proc.devRef .tc main_v92)) = st_v92 (V (Proc.devRef .tc main_v74)) (V (Proc.devRef .tc main_v78)) (V (Proc.devRef .tc main_v79)) (V (Proc.devRef .tc main_arg12)) (V (Proc.devRef .tc main_arg13)) := by
  simp only [ops_v92]
  after_results_simp <;> rfl

/-! ### The whole line -/

set_option maxRecDepth 8192 in
set_option maxHeartbeats 8000000 in
/-- After all 173 operations the result buffer holds `result` of the arguments' contents. -/
theorem after_v92 (V0 : Valuation τ sig (Elt F)) :
    after ops V0 (Proc.devRef .tc main_v92) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  simp only [ops, ops_part0, ops_part1, after_append]
  simp (disch := decide) only [out_v92, out_v79, out_v78, out_v74, out_v73, out_v72, out_v70, out_v59, out_v56, out_v51, out_v49, out_v48, out_v47, out_v43, out_v30, out_v29, out_v25, out_v24, out_v23, out_v19, out_v13, out_v9, out_v8, out_v5, keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
  rfl
set_option maxRecDepth 8192 in
theorem after_arg0 (V0 : Valuation τ sig (Elt F)) : after ops V0 (Proc.devRef .tc main_arg0) = V0 (Proc.devRef .tc main_arg0) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg1 (V0 : Valuation τ sig (Elt F)) : after ops V0 (Proc.devRef .tc main_arg1) = V0 (Proc.devRef .tc main_arg1) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg2 (V0 : Valuation τ sig (Elt F)) : after ops V0 (Proc.devRef .tc main_arg2) = V0 (Proc.devRef .tc main_arg2) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg3 (V0 : Valuation τ sig (Elt F)) : after ops V0 (Proc.devRef .tc main_arg3) = V0 (Proc.devRef .tc main_arg3) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg4 (V0 : Valuation τ sig (Elt F)) : after ops V0 (Proc.devRef .tc main_arg4) = V0 (Proc.devRef .tc main_arg4) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg5 (V0 : Valuation τ sig (Elt F)) : after ops V0 (Proc.devRef .tc main_arg5) = V0 (Proc.devRef .tc main_arg5) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg6 (V0 : Valuation τ sig (Elt F)) : after ops V0 (Proc.devRef .tc main_arg6) = V0 (Proc.devRef .tc main_arg6) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg7 (V0 : Valuation τ sig (Elt F)) : after ops V0 (Proc.devRef .tc main_arg7) = V0 (Proc.devRef .tc main_arg7) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg8 (V0 : Valuation τ sig (Elt F)) : after ops V0 (Proc.devRef .tc main_arg8) = V0 (Proc.devRef .tc main_arg8) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg9 (V0 : Valuation τ sig (Elt F)) : after ops V0 (Proc.devRef .tc main_arg9) = V0 (Proc.devRef .tc main_arg9) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg10 (V0 : Valuation τ sig (Elt F)) : after ops V0 (Proc.devRef .tc main_arg10) = V0 (Proc.devRef .tc main_arg10) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg11 (V0 : Valuation τ sig (Elt F)) : after ops V0 (Proc.devRef .tc main_arg11) = V0 (Proc.devRef .tc main_arg11) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg12 (V0 : Valuation τ sig (Elt F)) : after ops V0 (Proc.devRef .tc main_arg12) = V0 (Proc.devRef .tc main_arg12) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg13 (V0 : Valuation τ sig (Elt F)) : after ops V0 (Proc.devRef .tc main_arg13) = V0 (Proc.devRef .tc main_arg13) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]
set_option maxRecDepth 8192 in
theorem after_arg14 (V0 : Valuation τ sig (Elt F)) : after ops V0 (Proc.devRef .tc main_arg14) = V0 (Proc.devRef .tc main_arg14) := by
  simp only [ops, ops_part0, ops_part1, after_append]
  simp (disch := decide) only [keep_v92, keep_v79, keep_v78, keep_v74, keep_v73, keep_v72, keep_v70, keep_v59, keep_v56, keep_v51, keep_v49, keep_v47, keep_v43, keep_v30, keep_v29, keep_v25, keep_v24, keep_v23, keep_v19, keep_v13, keep_v9, keep_v8, keep_v5]

set_option maxRecDepth 8192 in
/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v92) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v92).trans (after_v92 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c)),
      (h c main_arg11).trans (after_arg11 (launchContents m c)),
      (h c main_arg12).trans (after_arg12 (launchContents m c)),
      (h c main_arg13).trans (after_arg13 (launchContents m c)),
      (h c main_arg14).trans (after_arg14 (launchContents m c))⟩)
    (run_seq scopedRefs_eq scopedSems_eq defs main (fun _ => ops) main_eq (fun _ => ops_sub) m ρ)

end Cert.ReferenceIdeal.RefRun

end
-- ==== Proof.RefFrame.lean ====
/- The reference program's run with only the frame in its post: every weakly fair execution of @main terminates
   and leaves each of the fifteen argument arrays as it was. -/
import proofs.«132337_j89043261980865_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, from any memory with zero counters: every weakly fair execution of @main terminates with the
    fifteen argument arrays unchanged (the run's post without its first conjunct). -/
theorem run_frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.ReferenceIdeal.RefRun

end
-- ==== Proof.KernRunA.lean ====
/- The kernel's run with its result buffer read at the last boundary's contents: the run of @main's three
   segments (one stretch of host operations, two TensorCore regions) ends, on every core, with the result
   buffer at the contents the boundary fold names after the second region, and each argument array as launched. -/
import proofs.«132337_j89043261980865_2_alg».proof.Proof.Gen.KernelIdeal.Frame

set_option maxRecDepth 16384

noncomputable section

namespace Cert.KernelIdeal.KernRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from a memory with zero counters terminates, and in every final state the
    result buffer holds the contents named at the boundary after the second region, the arguments as launched. -/
theorem run_value : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c)⟩)

end Cert.KernelIdeal.KernRun

end
-- ==== Proof.KernBlocks0.lean ====
/- From blocks to the array, first region: what each grid point writes back to the intermediate array is the block at
   that point of ONE function of the region's eleven input arrays, and the blocks cover the array, so after the region
   the array is that function — for any contents the region is entered with. -/
import proofs.«132337_j89043261980865_2_alg».proof.Proof.Gen.KernelIdeal.Frame
import Idealize.ShloMosaic.Lib.Pipeline.Value
import Idealize.ShloMosaic.Lib.ValueIdx

set_option maxRecDepth 16384

noncomputable section

namespace Cert.KernelIdeal.KernRun

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The slab at batch `b` of an array whose leading axis is the batch of 16, as a block with a leading unit axis:
    the block's element (0, p, q) is the array's element (b, p, q). -/
def sl {α : Type} {r k : Nat} (A : (⟨3, ![16, r, k]⟩ : Shape).Idx → α) (b : Fin 16) : (⟨3, ![1, r, k]⟩ : Shape).Idx → α :=
  fun y => A (ix3 b (y 1) (y 2))

/-- What the first region's body leaves in its output block from its eleven input blocks: the projection with its
    activation and layer norm (payloads 2 and 3), the value, query and key projections (4, 5, 6) and the attention
    with its residual (1), composed as the body composes them. -/
def body0 (x0 : Vec F S1x1024x512 .f32) (x1 : Vec F S512x512 .bf16) (x2 : Vec F S512 .f32) (x3 : Vec F S1024 .f32) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) : Vec F S1x512x1024 .bf16 :=
  k0_pay1 (k0_pay2 x0 x1 x2 x3 x4) (k0_pay4 (k0_pay3 x0 x1 x2 x3 x4) x9 x10) (k0_pay5 (k0_pay3 x0 x1 x2 x3 x4) x5 x7 x6 x8) (k0_pay6 (k0_pay3 x0 x1 x2 x3 x4) x5 x7 x6 x8)

/-- The one whole-buffer store over whole-buffer loads is that composition. -/
theorem out0_11_eq (x0 : Vec F S1x1024x512 .f32) (x1 : Vec F S512x512 .bf16) (x2 : Vec F S512 .f32) (x3 : Vec F S1024 .f32) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) : out0_11 x0 x1 x2 x3 x4 x5 x6 x7 x8 x9 x10 = body0 x0 x1 x2 x3 x4 x5 x6 x7 x8 x9 x10 := by
  unfold out0_11 body0
  rw [View.canon_unit_zero hz3]
  simp only [View.ld_unit_zero (S := S1x1024x512) hz3, View.ld_unit_zero (S := S512x512) hz2, View.ld_unit_zero (S := S512) hz1, View.ld_unit_zero (S := S1024) hz1, View.ld_unit_zero (S := S1024x1024) hz2]

/-- The printed index maps over the grid: the first window and the output move along the batch axis with the point,
    every other window stays at block zero. -/
theorem idx0 : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 1) = 0
    ∧ win0_3.index t (0 : Fin 1) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 3) = t.val
    ∧ win0_11.index t (1 : Fin 3) = 0
    ∧ win0_11.index t (2 : Fin 3) = 0 :=
  (by decide +kernel : ∀ t : Fin grid0.N, _)

/-- The batch a point of the first region works on. -/
def bat0 (t : Fin cfg0.N) : Fin 16 := t.cast N_0

/-- Window 0's block at point `t` is the slab of its array at the point's batch. -/
theorem iblk0_0 (V : (c : Dev nD) → (b : Ref sig .tc) → Buf (Elt F) ((c : Thread nD τ).loc b)) (c : Dev nD) (t : Fin cfg0.N) :
    (iblk0 V c 0 t : Vec F S1x1024x512 .f32) = sl (V c main_arg0 : Vec F S16x1024x512 .f32) (bat0 t) := by
  obtain ⟨e0, e1, e2, e3, e4, e5, e6, e7, e8, e9, e10, e11, e12, e13, e14, e15, e16, e17, e18, e19⟩ := idx0 t
  funext y
  show V c main_arg0 (((cfg0.win 0).blk t).view.emb y) = V c main_arg0 (ix3 (bat0 t) (y 1) (y 2))
  refine congrArg (V c main_arg0) (funext fun a => Fin.ext ?_)
  match a with
  | ⟨0, _⟩ => show win0_0.index t (0 : Fin 3) * 1 + 1 * (y 0).val = t.val; have := (y 0).isLt; have h1 : (y 0).val < 1 := this; omega
  | ⟨1, _⟩ => show win0_0.index t (1 : Fin 3) * 1024 + 1 * (y 1).val = (y 1).val; omega
  | ⟨2, _⟩ => show win0_0.index t (2 : Fin 3) * 512 + 1 * (y 2).val = (y 2).val; omega

/-- Window 1's block is its whole array at every point. -/
theorem iblk0_1 (V : (c : Dev nD) → (b : Ref sig .tc) → Buf (Elt F) ((c : Thread nD τ).loc b)) (c : Dev nD) (t : Fin cfg0.N) :
    (iblk0 V c 1 t : Vec F S512x512 .bf16) = V c main_v0 := by
  obtain ⟨e0, e1, e2, e3, e4, e5, e6, e7, e8, e9, e10, e11, e12, e13, e14, e15, e16, e17, e18, e19⟩ := idx0 t
  funext y
  show V c main_v0 (((cfg0.win 1).blk t).view.emb y) = V c main_v0 y
  refine congrArg (V c main_v0) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- Window 2's block is its whole array at every point. -/
theorem iblk0_2 (V : (c : Dev nD) → (b : Ref sig .tc) → Buf (Elt F) ((c : Thread nD τ).loc b)) (c : Dev nD) (t : Fin cfg0.N) :
    (iblk0 V c 2 t : Vec F S512 .f32) = V c main_arg3 := by
  obtain ⟨e0, e1, e2, e3, e4, e5, e6, e7, e8, e9, e10, e11, e12, e13, e14, e15, e16, e17, e18, e19⟩ := idx0 t
  funext y
  show V c main_arg3 (((cfg0.win 2).blk t).view.emb y) = V c main_arg3 y
  refine congrArg (V c main_arg3) (funext fun a => Fin.ext ?_)
  match a with
  | ⟨0, _⟩ => show win0_2.index t (0 : Fin 1) * 512 + 1 * (y 0).val = (y 0).val; omega

/-- Window 3's block is its whole array at every point. -/
theorem iblk0_3 (V : (c : Dev nD) → (b : Ref sig .tc) → Buf (Elt F) ((c : Thread nD τ).loc b)) (c : Dev nD) (t : Fin cfg0.N) :
    (iblk0 V c 3 t : Vec F S1024 .f32) = V c main_arg10 := by
  obtain ⟨e0, e1, e2, e3, e4, e5, e6, e7, e8, e9, e10, e11, e12, e13, e14, e15, e16, e17, e18, e19⟩ := idx0 t
  funext y
  show V c main_arg10 (((cfg0.win 3).blk t).view.emb y) = V c main_arg10 y
  refine congrArg (V c main_arg10) (funext fun a => Fin.ext ?_)
  match a with
  | ⟨0, _⟩ => show win0_3.index t (0 : Fin 1) * 1024 + 1 * (y 0).val = (y 0).val; omega

/-- Window 4's block is its whole array at every point. -/
theorem iblk0_4 (V : (c : Dev nD) → (b : Ref sig .tc) → Buf (Elt F) ((c : Thread nD τ).loc b)) (c : Dev nD) (t : Fin cfg0.N) :
    (iblk0 V c 4 t : Vec F S1024 .f32) = V c main_arg11 := by
  obtain ⟨e0, e1, e2, e3, e4, e5, e6, e7, e8, e9, e10, e11, e12, e13, e14, e15, e16, e17, e18, e19⟩ := idx0 t
  funext y
  show V c main_arg11 (((cfg0.win 4).blk t).view.emb y) = V c main_arg11 y
  refine congrArg (V c main_arg11) (funext fun a => Fin.ext ?_)
  match a with
  | ⟨0, _⟩ => show win0_4.index t (0 : Fin 1) * 1024 + 1 * (y 0).val = (y 0).val; omega

/-- Window 5's block is its whole array at every point. -/
theorem iblk0_5 (V : (c : Dev nD) → (b : Ref sig .tc) → Buf (Elt F) ((c : Thread nD τ).loc b)) (c : Dev nD) (t : Fin cfg0.N) :
    (iblk0 V c 5 t : Vec F S1024x1024 .bf16) = V c main_v1 := by
  obtain ⟨e0, e1, e2, e3, e4, e5, e6, e7, e8, e9, e10, e11, e12, e13, e14, e15, e16, e17, e18, e19⟩ := idx0 t
  funext y
  show V c main_v1 (((cfg0.win 5).blk t).view.emb y) = V c main_v1 y
  refine congrArg (V c main_v1) (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Window 6's block is its whole array at every point. -/
theorem iblk0_6 (V : (c : Dev nD) → (b : Ref sig .tc) → Buf (Elt F) ((c : Thread nD τ).loc b)) (c : Dev nD) (t : Fin cfg0.N) :
    (iblk0 V c 6 t : Vec F S1024 .f32) = V c main_arg5 := by
  obtain ⟨e0, e1, e2, e3, e4, e5, e6, e7, e8, e9, e10, e11, e12, e13, e14, e15, e16, e17, e18, e19⟩ := idx0 t
  funext y
  show V c main_arg5 (((cfg0.win 6).blk t).view.emb y) = V c main_arg5 y
  refine congrArg (V c main_arg5) (funext fun a => Fin.ext ?_)
  match a with
  | ⟨0, _⟩ => show win0_6.index t (0 : Fin 1) * 1024 + 1 * (y 0).val = (y 0).val; omega

/-- Window 7's block is its whole array at every point. -/
theorem iblk0_7 (V : (c : Dev nD) → (b : Ref sig .tc) → Buf (Elt F) ((c : Thread nD τ).loc b)) (c : Dev nD) (t : Fin cfg0.N) :
    (iblk0 V c 7 t : Vec F S1024x1024 .bf16) = V c main_v2 := by
  obtain ⟨e0, e1, e2, e3, e4, e5, e6, e7, e8, e9, e10, e11, e12, e13, e14, e15, e16, e17, e18, e19⟩ := idx0 t
  funext y
  show V c main_v2 (((cfg0.win 7).blk t).view.emb y) = V c main_v2 y
  refine congrArg (V c main_v2) (funext fun a => Fin.ext ?_)
  match a with
  | ⟨0, _⟩ => show win0_7.index t (0 : Fin 2) * 1024 + 1 * (y 0).val = (y 0).val; omega
  | ⟨1, _⟩ => show win0_7.index t (1 : Fin 2) * 1024 + 1 * (y 1).val = (y 1).val; omega

/-- Window 8's block is its whole array at every point. -/
theorem iblk0_8 (V : (c : Dev nD) → (b : Ref sig .tc) → Buf (Elt F) ((c : Thread nD τ).loc b)) (c : Dev nD) (t : Fin cfg0.N) :
    (iblk0 V c 8 t : Vec F S1024 .f32) = V c main_arg7 := by
  obtain ⟨e0, e1, e2, e3, e4, e5, e6, e7, e8, e9, e10, e11, e12, e13, e14, e15, e16, e17, e18, e19⟩ := idx0 t
  funext y
  show V c main_arg7 (((cfg0.win 8).blk t).view.emb y) = V c main_arg7 y
  refine congrArg (V c main_arg7) (funext fun a => Fin.ext ?_)
  match a with
  | ⟨0, _⟩ => show win0_8.index t (0 : Fin 1) * 1024 + 1 * (y 0).val = (y 0).val; omega

/-- Window 9's block is its whole array at every point. -/
theorem iblk0_9 (V : (c : Dev nD) → (b : Ref sig .tc) → Buf (Elt F) ((c : Thread nD τ).loc b)) (c : Dev nD) (t : Fin cfg0.N) :
    (iblk0 V c 9 t : Vec F S1024x1024 .bf16) = V c main_v3 := by
  obtain ⟨e0, e1, e2, e3, e4, e5, e6, e7, e8, e9, e10, e11, e12, e13, e14, e15, e16, e17, e18, e19⟩ := idx0 t
  funext y
  show V c main_v3 (((cfg0.win 9).blk t).view.emb y) = V c main_v3 y
  refine congrArg (V c main_v3) (funext fun a => Fin.ext ?_)
  match a with
  | ⟨0, _⟩ => show win0_9.index t (0 : Fin 2) * 1024 + 1 * (y 0).val = (y 0).val; omega
  | ⟨1, _⟩ => show win0_9.index t (1 : Fin 2) * 1024 + 1 * (y 1).val = (y 1).val; omega

/-- Window 10's block is its whole array at every point. -/
theorem iblk0_10 (V : (c : Dev nD) → (b : Ref sig .tc) → Buf (Elt F) ((c : Thread nD τ).loc b)) (c : Dev nD) (t : Fin cfg0.N) :
    (iblk0 V c 10 t : Vec F S1024 .f32) = V c main_arg9 := by
  obtain ⟨e0, e1, e2, e3, e4, e5, e6, e7, e8, e9, e10, e11, e12, e13, e14, e15, e16, e17, e18, e19⟩ := idx0 t
  funext y
  show V c main_arg9 (((cfg0.win 10).blk t).view.emb y) = V c main_arg9 y
  refine congrArg (V c main_arg9) (funext fun a => Fin.ext ?_)
  match a with
  | ⟨0, _⟩ => show win0_10.index t (0 : Fin 1) * 1024 + 1 * (y 0).val = (y 0).val; omega

/-- The intermediate array the first region writes, as one function of its eleven input arrays: at batch `b` it is
    the body's result for the slab of the first array at `b` and the ten whole arrays. -/
def tx2 (a0 : Vec F S16x1024x512 .f32) (w1 : Vec F S512x512 .bf16) (w2 : Vec F S512 .f32) (w3 : Vec F S1024 .f32) (w4 : Vec F S1024 .f32) (w5 : Vec F S1024x1024 .bf16) (w6 : Vec F S1024 .f32) (w7 : Vec F S1024x1024 .bf16) (w8 : Vec F S1024 .f32) (w9 : Vec F S1024x1024 .bf16) (w10 : Vec F S1024 .f32) : Vec F S16x512x1024 .bf16 :=
  fun i => body0 (sl a0 (i 0)) w1 w2 w3 w4 w5 w6 w7 w8 w9 w10 (ix3 0 (i 1) (i 2))

/-- The body's result for a point's blocks, at an index of the block, is that array at the index the block's index
    sits at: same batch, same row and column. -/
theorem tx2_block (a0 : Vec F S16x1024x512 .f32) (w1 : Vec F S512x512 .bf16) (w2 : Vec F S512 .f32) (w3 : Vec F S1024 .f32) (w4 : Vec F S1024 .f32) (w5 : Vec F S1024x1024 .bf16) (w6 : Vec F S1024 .f32) (w7 : Vec F S1024x1024 .bf16) (w8 : Vec F S1024 .f32) (w9 : Vec F S1024x1024 .bf16) (w10 : Vec F S1024 .f32) (b : Fin 16) (x0 : Vec F S1x1024x512 .f32) (x1 : Vec F S512x512 .bf16) (x2 : Vec F S512 .f32) (x3 : Vec F S1024 .f32) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (hx0 : x0 = sl a0 b) (hx1 : x1 = w1) (hx2 : x2 = w2) (hx3 : x3 = w3) (hx4 : x4 = w4) (hx5 : x5 = w5) (hx6 : x6 = w6) (hx7 : x7 = w7) (hx8 : x8 = w8) (hx9 : x9 = w9) (hx10 : x10 = w10)
    (j : S1x512x1024.Idx) (i : S16x512x1024.Idx) (hi0 : (i 0).val = b.val) (hi1 : (i 1).val = (j 1).val) (hi2 : (i 2).val = (j 2).val) :
    body0 x0 x1 x2 x3 x4 x5 x6 x7 x8 x9 x10 j = tx2 a0 w1 w2 w3 w4 w5 w6 w7 w8 w9 w10 i := by
  subst hx0 hx1 hx2 hx3 hx4 hx5 hx6 hx7 hx8 hx9 hx10
  unfold tx2
  have hb : i 0 = b := Fin.ext hi0
  have hj : j = ix3 0 (i 1) (i 2) := by
    funext a
    match a with
    | ⟨0, _⟩ => exact Fin.ext (by have h1 : (j 0).val < 1 := (j 0).isLt; show (j 0).val = 0; omega)
    | ⟨1, _⟩ => exact Fin.ext hi1.symm
    | ⟨2, _⟩ => exact Fin.ext hi2.symm
  rw [hb]
  exact congrArg (body0 (sl a0 b) x1 x2 x3 x4 x5 x6 x7 x8 x9 x10) hj

/-- What point `t` writes back to the intermediate array is block `t` of `tx2` of the arrays the region finds. -/
theorem flushed0_eq (V : (c : Dev nD) → (b : Ref sig .tc) → Buf (Elt F) ((c : Thread nD τ).loc b)) (c : Dev nD) (t : Fin cfg0.N) :
    (dat0 V c).flushed 11 t = ((cfg0.win 11).blk t).view.read (Elt F) (tx2 (V c main_arg0 : Vec F S16x1024x512 .f32) (V c main_v0 : Vec F S512x512 .bf16) (V c main_arg3 : Vec F S512 .f32) (V c main_arg10 : Vec F S1024 .f32) (V c main_arg11 : Vec F S1024 .f32) (V c main_v1 : Vec F S1024x1024 .bf16) (V c main_arg5 : Vec F S1024 .f32) (V c main_v2 : Vec F S1024x1024 .bf16) (V c main_arg7 : Vec F S1024 .f32) (V c main_v3 : Vec F S1024x1024 .bf16) (V c main_arg9 : Vec F S1024 .f32)) := by
  show (cfg0.win 11).cut (grid0.coords t) ((dat0 V c).after 11 t) = _
  rw [after0_11, out0_11_eq]
  obtain ⟨e0, e1, e2, e3, e4, e5, e6, e7, e8, e9, e10, e11, e12, e13, e14, e15, e16, e17, e18, e19⟩ := idx0 t
  funext j
  show body0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((cfg0.win 11).xinj (grid0.coords t) j)
      = tx2 (V c main_arg0 : Vec F S16x1024x512 .f32) (V c main_v0 : Vec F S512x512 .bf16) (V c main_arg3 : Vec F S512 .f32) (V c main_arg10 : Vec F S1024 .f32) (V c main_arg11 : Vec F S1024 .f32) (V c main_v1 : Vec F S1024x1024 .bf16) (V c main_arg5 : Vec F S1024 .f32) (V c main_v2 : Vec F S1024x1024 .bf16) (V c main_arg7 : Vec F S1024 .f32) (V c main_v3 : Vec F S1024x1024 .bf16) (V c main_arg9 : Vec F S1024 .f32) (((cfg0.win 11).blk t).view.emb j)
  refine tx2_block (V c main_arg0 : Vec F S16x1024x512 .f32) (V c main_v0 : Vec F S512x512 .bf16) (V c main_arg3 : Vec F S512 .f32) (V c main_arg10 : Vec F S1024 .f32) (V c main_arg11 : Vec F S1024 .f32) (V c main_v1 : Vec F S1024x1024 .bf16) (V c main_arg5 : Vec F S1024 .f32) (V c main_v2 : Vec F S1024x1024 .bf16) (V c main_arg7 : Vec F S1024 .f32) (V c main_v3 : Vec F S1024x1024 .bf16) (V c main_arg9 : Vec F S1024 .f32) (bat0 t)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (iblk0_0 V c t) (iblk0_1 V c t) (iblk0_2 V c t) (iblk0_3 V c t) (iblk0_4 V c t) (iblk0_5 V c t) (iblk0_6 V c t) (iblk0_7 V c t) (iblk0_8 V c t) (iblk0_9 V c t) (iblk0_10 V c t)
    ((cfg0.win 11).xinj (grid0.coords t) j) (((cfg0.win 11).blk t).view.emb j) ?_ ?_ ?_
  · show win0_11.index t (0 : Fin 3) * 1 + 1 * (j 0).val = t.val
    have h1 : (j 0).val < 1 := (j 0).isLt
    omega
  · show win0_11.index t (1 : Fin 3) * 512 + 1 * (j 1).val = (j 1).val
    omega
  · show win0_11.index t (2 : Fin 3) * 1024 + 1 * (j 2).val = (j 2).val
    omega

/-- Every index of the intermediate array is in the block of the point at its batch. -/
theorem cover0 (i : S16x512x1024.Idx) : ∃ t : Fin cfg0.N, (cfg0.win 11).flush t = true ∧ i ∈ ((cfg0.win 11).blk t).view.set := by
  have h0 : (i 0).val < 16 := (i 0).isLt
  have h1 : (i 1).val < 512 := (i 1).isLt
  have h2 : (i 2).val < 1024 := (i 2).isLt
  obtain ⟨t, ht⟩ : ∃ t : Fin cfg0.N, t.val = (i 0).val := ⟨⟨(i 0).val, by rw [show cfg0.N = 16 from N_0]; exact h0⟩, rfl⟩
  refine ⟨t, flush0_11 t, ?_⟩
  obtain ⟨e0, e1, e2, e3, e4, e5, e6, e7, e8, e9, e10, e11, e12, e13, e14, e15, e16, e17, e18, e19⟩ := idx0 t
  show i ∈ ((View.whole main_v10).slice (win0_11.rect t)).set
  rw [View.set_slice_whole, Rect.mem_set_unit]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 1024 ≤ (i 2).val ∧ (i 2).val < win0_11.index t (2 : Fin 3) * 1024 + 1024; omega

/-- THE INTERMEDIATE ARRAY after the first region, from any entry contents: `tx2` of the region's input arrays. -/
theorem arr0 (V : (c : Dev nD) → (b : Ref sig .tc) → Buf (Elt F) ((c : Thread nD τ).loc b)) (c : Dev nD) :
    (dat0 V c).arrAt 11 cfg0.N = tx2 (V c main_arg0 : Vec F S16x1024x512 .f32) (V c main_v0 : Vec F S512x512 .bf16) (V c main_arg3 : Vec F S512 .f32) (V c main_arg10 : Vec F S1024 .f32) (V c main_arg11 : Vec F S1024 .f32) (V c main_v1 : Vec F S1024x1024 .bf16) (V c main_arg5 : Vec F S1024 .f32) (V c main_v2 : Vec F S1024x1024 .bf16) (V c main_arg7 : Vec F S1024 .f32) (V c main_v3 : Vec F S1024x1024 .bf16) (V c main_arg9 : Vec F S1024 .f32) :=
  (dat0 V c).arrAt_eq_of_cover 11 (tx2 (V c main_arg0 : Vec F S16x1024x512 .f32) (V c main_v0 : Vec F S512x512 .bf16) (V c main_arg3 : Vec F S512 .f32) (V c main_arg10 : Vec F S1024 .f32) (V c main_arg11 : Vec F S1024 .f32) (V c main_v1 : Vec F S1024x1024 .bf16) (V c main_arg5 : Vec F S1024 .f32) (V c main_v2 : Vec F S1024x1024 .bf16) (V c main_arg7 : Vec F S1024 .f32) (V c main_v3 : Vec F S1024x1024 .bf16) (V c main_arg9 : Vec F S1024 .f32)) (fun t _ => flushed0_eq V c t) cover0

end Cert.KernelIdeal.KernRun

end
-- ==== Proof.KernBlocks1.lean ====
/- From blocks to the array, second region: what each grid point writes back to the result array is the block at that
   point of ONE function of the region's five input arrays, and the blocks cover the array, so after the region the
   array is that function — for any contents the region is entered with. -/
import proofs.«132337_j89043261980865_2_alg».proof.Proof.KernBlocks0

set_option maxRecDepth 16384

noncomputable section

namespace Cert.KernelIdeal.KernRun

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- What the second region's body leaves in its output block from its five input blocks: the normalised weighted
    adjacency applied to the intermediate (payload 2), the row statistics (4, 5) and the closing layer norm with its
    scale and shift (1), composed as the body composes them. -/
def body1 (x0 : Vec F S1x1024x1024 .f32) (x1 : Vec F S1024x1024 .f32) (x2 : Vec F S1x512x1024 .bf16) (x3 : Vec F S512 .f32) (x4 : Vec F S512 .f32) : Vec F S1x1024x512 .f32 :=
  k1_pay1 (k1_pay2 x0 x1 x2) x3 x4 (k1_pay4 x0 x1 x2) (k1_pay5 x0 x1 x2)

/-- The one whole-buffer store over whole-buffer loads is that composition. -/
theorem out1_5_eq (x0 : Vec F S1x1024x1024 .f32) (x1 : Vec F S1024x1024 .f32) (x2 : Vec F S1x512x1024 .bf16) (x3 : Vec F S512 .f32) (x4 : Vec F S512 .f32) : out1_5 x0 x1 x2 x3 x4 = body1 x0 x1 x2 x3 x4 := by
  unfold out1_5 body1
  rw [View.canon_unit_zero hz3]
  simp only [View.ld_unit_zero (S := S1x1024x1024) hz3, View.ld_unit_zero (S := S1024x1024) hz2, View.ld_unit_zero (S := S1x512x1024) hz3, View.ld_unit_zero (S := S512) hz1]

/-- The printed index maps over the grid: the adjacency, the intermediate and the output move along the batch axis
    with the point, every other window stays at block zero. -/
theorem idx1 : ∀ t : Fin cfg1.N, win1_0.index t (0 : Fin 3) = t.val
    ∧ win1_0.index t (1 : Fin 3) = 0
    ∧ win1_0.index t (2 : Fin 3) = 0
    ∧ win1_1.index t (0 : Fin 2) = 0
    ∧ win1_1.index t (1 : Fin 2) = 0
    ∧ win1_2.index t (0 : Fin 3) = t.val
    ∧ win1_2.index t (1 : Fin 3) = 0
    ∧ win1_2.index t (2 : Fin 3) = 0
    ∧ win1_3.index t (0 : Fin 1) = 0
    ∧ win1_4.index t (0 : Fin 1) = 0
    ∧ win1_5.index t (0 : Fin 3) = t.val
    ∧ win1_5.index t (1 : Fin 3) = 0
    ∧ win1_5.index t (2 : Fin 3) = 0 :=
  (by decide +kernel : ∀ t : Fin grid1.N, _)

/-- The batch a point of the second region works on. -/
def bat1 (t : Fin cfg1.N) : Fin 16 := t.cast N_1

/-- Window 0's block at point `t` is the slab of its array at the point's batch. -/
theorem iblk1_0 (V : (c : Dev nD) → (b : Ref sig .tc) → Buf (Elt F) ((c : Thread nD τ).loc b)) (c : Dev nD) (t : Fin cfg1.N) :
    (iblk1 V c 0 t : Vec F S1x1024x1024 .f32) = sl (V c main_arg1 : Vec F S16x1024x1024 .f32) (bat1 t) := by
  obtain ⟨e0, e1, e2, e3, e4, e5, e6, e7, e8, e9, e10, e11, e12⟩ := idx1 t
  funext y
  show V c main_arg1 (((cfg1.win 0).blk t).view.emb y) = V c main_arg1 (ix3 (bat1 t) (y 1) (y 2))
  refine congrArg (V c main_arg1) (funext fun a => Fin.ext ?_)
  match a with
  | ⟨0, _⟩ => show win1_0.index t (0 : Fin 3) * 1 + 1 * (y 0).val = t.val; have h1 : (y 0).val < 1 := (y 0).isLt; omega
  | ⟨1, _⟩ => show win1_0.index t (1 : Fin 3) * 1024 + 1 * (y 1).val = (y 1).val; omega
  | ⟨2, _⟩ => show win1_0.index t (2 : Fin 3) * 1024 + 1 * (y 2).val = (y 2).val; omega

/-- Window 1's block is its whole array at every point. -/
theorem iblk1_1 (V : (c : Dev nD) → (b : Ref sig .tc) → Buf (Elt F) ((c : Thread nD τ).loc b)) (c : Dev nD) (t : Fin cfg1.N) :
    (iblk1 V c 1 t : Vec F S1024x1024 .f32) = V c main_v9 := by
  obtain ⟨e0, e1, e2, e3, e4, e5, e6, e7, e8, e9, e10, e11, e12⟩ := idx1 t
  funext y
  show V c main_v9 (((cfg1.win 1).blk t).view.emb y) = V c main_v9 y
  refine congrArg (V c main_v9) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- Window 2's block at point `t` is the slab of its array at the point's batch. -/
theorem iblk1_2 (V : (c : Dev nD) → (b : Ref sig .tc) → Buf (Elt F) ((c : Thread nD τ).loc b)) (c : Dev nD) (t : Fin cfg1.N) :
    (iblk1 V c 2 t : Vec F S1x512x1024 .bf16) = sl (V c main_v10 : Vec F S16x512x1024 .bf16) (bat1 t) := by
  obtain ⟨e0, e1, e2, e3, e4, e5, e6, e7, e8, e9, e10, e11, e12⟩ := idx1 t
  funext y
  show V c main_v10 (((cfg1.win 2).blk t).view.emb y) = V c main_v10 (ix3 (bat1 t) (y 1) (y 2))
  refine congrArg (V c main_v10) (funext fun a => Fin.ext ?_)
  match a with
  | ⟨0, _⟩ => show win1_2.index t (0 : Fin 3) * 1 + 1 * (y 0).val = t.val; have h1 : (y 0).val < 1 := (y 0).isLt; omega
  | ⟨1, _⟩ => show win1_2.index t (1 : Fin 3) * 512 + 1 * (y 1).val = (y 1).val; omega
  | ⟨2, _⟩ => show win1_2.index t (2 : Fin 3) * 1024 + 1 * (y 2).val = (y 2).val; omega

/-- Window 3's block is its whole array at every point. -/
theorem iblk1_3 (V : (c : Dev nD) → (b : Ref sig .tc) → Buf (Elt F) ((c : Thread nD τ).loc b)) (c : Dev nD) (t : Fin cfg1.N) :
    (iblk1 V c 3 t : Vec F S512 .f32) = V c main_arg12 := by
  obtain ⟨e0, e1, e2, e3, e4, e5, e6, e7, e8, e9, e10, e11, e12⟩ := idx1 t
  funext y
  show V c main_arg12 (((cfg1.win 3).blk t).view.emb y) = V c main_arg12 y
  refine congrArg (V c main_arg12) (funext fun a => Fin.ext ?_)
  match a with
  | ⟨0, _⟩ => show win1_3.index t (0 : Fin 1) * 512 + 1 * (y 0).val = (y 0).val; omega

/-- Window 4's block is its whole array at every point. -/
theorem iblk1_4 (V : (c : Dev nD) → (b : Ref sig .tc) → Buf (Elt F) ((c : Thread nD τ).loc b)) (c : Dev nD) (t : Fin cfg1.N) :
    (iblk1 V c 4 t : Vec F S512 .f32) = V c main_arg13 := by
  obtain ⟨e0, e1, e2, e3, e4, e5, e6, e7, e8, e9, e10, e11, e12⟩ := idx1 t
  funext y
  show V c main_arg13 (((cfg1.win 4).blk t).view.emb y) = V c main_arg13 y
  refine congrArg (V c main_arg13) (funext fun a => Fin.ext ?_)
  match a with
  | ⟨0, _⟩ => show win1_4.index t (0 : Fin 1) * 512 + 1 * (y 0).val = (y 0).val; omega

/-- The result array the second region writes, as one function of its five input arrays: at batch `b` it is the
    body's result for the slabs of the adjacency and of the intermediate at `b` and the three whole arrays. -/
def outv (a0 : Vec F S16x1024x1024 .f32) (w1 : Vec F S1024x1024 .f32) (a2 : Vec F S16x512x1024 .bf16) (w3 : Vec F S512 .f32) (w4 : Vec F S512 .f32) : Vec F S16x1024x512 .f32 :=
  fun i => body1 (sl a0 (i 0)) w1 (sl a2 (i 0)) w3 w4 (ix3 0 (i 1) (i 2))

/-- The body's result for a point's blocks, at an index of the block, is that array at the index the block's index
    sits at: same batch, same row and column. -/
theorem outv_block (a0 : Vec F S16x1024x1024 .f32) (w1 : Vec F S1024x1024 .f32) (a2 : Vec F S16x512x1024 .bf16) (w3 : Vec F S512 .f32) (w4 : Vec F S512 .f32) (b : Fin 16) (x0 : Vec F S1x1024x1024 .f32) (x1 : Vec F S1024x1024 .f32) (x2 : Vec F S1x512x1024 .bf16) (x3 : Vec F S512 .f32) (x4 : Vec F S512 .f32) (hx0 : x0 = sl a0 b) (hx1 : x1 = w1) (hx2 : x2 = sl a2 b) (hx3 : x3 = w3) (hx4 : x4 = w4)
    (j : S1x1024x512.Idx) (i : S16x1024x512.Idx) (hi0 : (i 0).val = b.val) (hi1 : (i 1).val = (j 1).val) (hi2 : (i 2).val = (j 2).val) :
    body1 x0 x1 x2 x3 x4 j = outv a0 w1 a2 w3 w4 i := by
  subst hx0 hx1 hx2 hx3 hx4
  unfold outv
  have hb : i 0 = b := Fin.ext hi0
  have hj : j = ix3 0 (i 1) (i 2) := by
    funext a
    match a with
    | ⟨0, _⟩ => exact Fin.ext (by have h1 : (j 0).val < 1 := (j 0).isLt; show (j 0).val = 0; omega)
    | ⟨1, _⟩ => exact Fin.ext hi1.symm
    | ⟨2, _⟩ => exact Fin.ext hi2.symm
  rw [hb]
  exact congrArg (body1 (sl a0 b) x1 (sl a2 b) x3 x4) hj

/-- What point `t` writes back to the result array is block `t` of `outv` of the arrays the region finds. -/
theorem flushed1_eq (V : (c : Dev nD) → (b : Ref sig .tc) → Buf (Elt F) ((c : Thread nD τ).loc b)) (c : Dev nD) (t : Fin cfg1.N) :
    (dat1 V c).flushed 5 t = ((cfg1.win 5).blk t).view.read (Elt F) (outv (V c main_arg1 : Vec F S16x1024x1024 .f32) (V c main_v9 : Vec F S1024x1024 .f32) (V c main_v10 : Vec F S16x512x1024 .bf16) (V c main_arg12 : Vec F S512 .f32) (V c main_arg13 : Vec F S512 .f32)) := by
  show (cfg1.win 5).cut (grid1.coords t) ((dat1 V c).after 5 t) = _
  rw [after1_5, out1_5_eq]
  obtain ⟨e0, e1, e2, e3, e4, e5, e6, e7, e8, e9, e10, e11, e12⟩ := idx1 t
  funext j
  show body1 (iblk1 V c 0 t) (iblk1 V c 1 t) (iblk1 V c 2 t) (iblk1 V c 3 t) (iblk1 V c 4 t) ((cfg1.win 5).xinj (grid1.coords t) j)
      = outv (V c main_arg1 : Vec F S16x1024x1024 .f32) (V c main_v9 : Vec F S1024x1024 .f32) (V c main_v10 : Vec F S16x512x1024 .bf16) (V c main_arg12 : Vec F S512 .f32) (V c main_arg13 : Vec F S512 .f32) (((cfg1.win 5).blk t).view.emb j)
  refine outv_block (V c main_arg1 : Vec F S16x1024x1024 .f32) (V c main_v9 : Vec F S1024x1024 .f32) (V c main_v10 : Vec F S16x512x1024 .bf16) (V c main_arg12 : Vec F S512 .f32) (V c main_arg13 : Vec F S512 .f32) (bat1 t)
    (iblk1 V c 0 t) (iblk1 V c 1 t) (iblk1 V c 2 t) (iblk1 V c 3 t) (iblk1 V c 4 t)
    (iblk1_0 V c t) (iblk1_1 V c t) (iblk1_2 V c t) (iblk1_3 V c t) (iblk1_4 V c t)
    ((cfg1.win 5).xinj (grid1.coords t) j) (((cfg1.win 5).blk t).view.emb j) ?_ ?_ ?_
  · show win1_5.index t (0 : Fin 3) * 1 + 1 * (j 0).val = t.val
    have h1 : (j 0).val < 1 := (j 0).isLt
    omega
  · show win1_5.index t (1 : Fin 3) * 1024 + 1 * (j 1).val = (j 1).val
    omega
  · show win1_5.index t (2 : Fin 3) * 512 + 1 * (j 2).val = (j 2).val
    omega

/-- Every index of the result array is in the block of the point at its batch. -/
theorem cover1 (i : S16x1024x512.Idx) : ∃ t : Fin cfg1.N, (cfg1.win 5).flush t = true ∧ i ∈ ((cfg1.win 5).blk t).view.set := by
  have h0 : (i 0).val < 16 := (i 0).isLt
  have h1 : (i 1).val < 1024 := (i 1).isLt
  have h2 : (i 2).val < 512 := (i 2).isLt
  obtain ⟨t, ht⟩ : ∃ t : Fin cfg1.N, t.val = (i 0).val := ⟨⟨(i 0).val, by rw [show cfg1.N = 16 from N_1]; exact h0⟩, rfl⟩
  refine ⟨t, flush1_5 t, ?_⟩
  obtain ⟨e0, e1, e2, e3, e4, e5, e6, e7, e8, e9, e10, e11, e12⟩ := idx1 t
  show i ∈ ((View.whole main_v11).slice (win1_5.rect t)).set
  rw [View.set_slice_whole, Rect.mem_set_unit]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 512 ≤ (i 2).val ∧ (i 2).val < win1_5.index t (2 : Fin 3) * 512 + 512; omega

/-- THE RESULT ARRAY after the second region, from any entry contents: `outv` of the region's input arrays. -/
theorem arr1 (V : (c : Dev nD) → (b : Ref sig .tc) → Buf (Elt F) ((c : Thread nD τ).loc b)) (c : Dev nD) :
    (dat1 V c).arrAt 5 cfg1.N = outv (V c main_arg1 : Vec F S16x1024x1024 .f32) (V c main_v9 : Vec F S1024x1024 .f32) (V c main_v10 : Vec F S16x512x1024 .bf16) (V c main_arg12 : Vec F S512 .f32) (V c main_arg13 : Vec F S512 .f32) :=
  (dat1 V c).arrAt_eq_of_cover 5 (outv (V c main_arg1 : Vec F S16x1024x1024 .f32) (V c main_v9 : Vec F S1024x1024 .f32) (V c main_v10 : Vec F S16x512x1024 .bf16) (V c main_arg12 : Vec F S512 .f32) (V c main_arg13 : Vec F S512 .f32)) (fun t _ => flushed1_eq V c t) cover1

end Cert.KernelIdeal.KernRun

end
-- ==== Proof.KernRun.lean ====
/- The kernel's value run: the result buffer at the last boundary read back through the two regions and the host
   operations to the launch contents. The second region's output array is one function of its input arrays; its
   inputs are launch arguments, the host's sigmoid of the edge weights, and the intermediate array the first region
   wrote, itself one function of launch arguments and the host's bf16 casts of the weights. -/
import proofs.«132337_j89043261980865_2_alg».proof.Proof.KernRunA
import proofs.«132337_j89043261980865_2_alg».proof.Proof.KernBlocks1

set_option maxRecDepth 16384

noncomputable section

namespace Cert.KernelIdeal.KernRun

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

variable (m : (ℓ : Loc nD τ sig) → Buf (Elt F) ℓ) (ρ : Dev nD → PrngReg)

/-- The host's cast of a weight array to bf16. -/
def castW {S : Shape} (w : Vec F S .f32) : Vec F S .bf16 := truncf .bf16 w bitsLt_bf16_f32

/-- The host's sigmoid of the edge weights, as the host computes it: 1 / (1 + exp (−x)), the ones broadcast scalars. -/
def sigm (ew : Vec F S1024x1024 .f32) : Vec F S1024x1024 .f32 :=
  Host.divf (broadcastInDim S1024x1024 ![] bcast_S_S1024x1024 (constant (F := F) S_ .f32 0x3F800000#32))
    (addf (broadcastInDim S1024x1024 ![] bcast_S_S1024x1024 (constant (F := F) S_ .f32 0x3F800000#32)) (Host.exp (Host.negf ew)))

/-! ## What the first region is entered with: the launch contents through the host operations -/

theorem V1_main_arg0 (c : Dev nD) : (V1 m ρ c main_arg0 : Vec F S16x1024x512 .f32) = (m ((c : Thread nD τ).loc main_arg0)) := by
  show StableHlo.after hostOps0 (W0 m ρ c) (Proc.devRef .tc main_arg0) = _
  after_results
theorem V1_main_v0 (c : Dev nD) : (V1 m ρ c main_v0 : Vec F S512x512 .bf16) = castW (m ((c : Thread nD τ).loc main_arg2)) := by
  show StableHlo.after hostOps0 (W0 m ρ c) (Proc.devRef .tc main_v0) = _
  after_results
  rfl
theorem V1_main_arg3 (c : Dev nD) : (V1 m ρ c main_arg3 : Vec F S512 .f32) = (m ((c : Thread nD τ).loc main_arg3)) := by
  show StableHlo.after hostOps0 (W0 m ρ c) (Proc.devRef .tc main_arg3) = _
  after_results
theorem V1_main_arg10 (c : Dev nD) : (V1 m ρ c main_arg10 : Vec F S1024 .f32) = (m ((c : Thread nD τ).loc main_arg10)) := by
  show StableHlo.after hostOps0 (W0 m ρ c) (Proc.devRef .tc main_arg10) = _
  after_results
theorem V1_main_arg11 (c : Dev nD) : (V1 m ρ c main_arg11 : Vec F S1024 .f32) = (m ((c : Thread nD τ).loc main_arg11)) := by
  show StableHlo.after hostOps0 (W0 m ρ c) (Proc.devRef .tc main_arg11) = _
  after_results
theorem V1_main_v1 (c : Dev nD) : (V1 m ρ c main_v1 : Vec F S1024x1024 .bf16) = castW (m ((c : Thread nD τ).loc main_arg4)) := by
  show StableHlo.after hostOps0 (W0 m ρ c) (Proc.devRef .tc main_v1) = _
  after_results
  rfl
theorem V1_main_arg5 (c : Dev nD) : (V1 m ρ c main_arg5 : Vec F S1024 .f32) = (m ((c : Thread nD τ).loc main_arg5)) := by
  show StableHlo.after hostOps0 (W0 m ρ c) (Proc.devRef .tc main_arg5) = _
  after_results
theorem V1_main_v2 (c : Dev nD) : (V1 m ρ c main_v2 : Vec F S1024x1024 .bf16) = castW (m ((c : Thread nD τ).loc main_arg6)) := by
  show StableHlo.after hostOps0 (W0 m ρ c) (Proc.devRef .tc main_v2) = _
  after_results
  rfl
theorem V1_main_arg7 (c : Dev nD) : (V1 m ρ c main_arg7 : Vec F S1024 .f32) = (m ((c : Thread nD τ).loc main_arg7)) := by
  show StableHlo.after hostOps0 (W0 m ρ c) (Proc.devRef .tc main_arg7) = _
  after_results
theorem V1_main_v3 (c : Dev nD) : (V1 m ρ c main_v3 : Vec F S1024x1024 .bf16) = castW (m ((c : Thread nD τ).loc main_arg8)) := by
  show StableHlo.after hostOps0 (W0 m ρ c) (Proc.devRef .tc main_v3) = _
  after_results
  rfl
theorem V1_main_arg9 (c : Dev nD) : (V1 m ρ c main_arg9 : Vec F S1024 .f32) = (m ((c : Thread nD τ).loc main_arg9)) := by
  show StableHlo.after hostOps0 (W0 m ρ c) (Proc.devRef .tc main_arg9) = _
  after_results
theorem V1_main_arg1 (c : Dev nD) : (V1 m ρ c main_arg1 : Vec F S16x1024x1024 .f32) = (m ((c : Thread nD τ).loc main_arg1)) := by
  show StableHlo.after hostOps0 (W0 m ρ c) (Proc.devRef .tc main_arg1) = _
  after_results
theorem V1_main_v9 (c : Dev nD) : (V1 m ρ c main_v9 : Vec F S1024x1024 .f32) = sigm (m ((c : Thread nD τ).loc main_arg14)) := by
  show StableHlo.after hostOps0 (W0 m ρ c) (Proc.devRef .tc main_v9) = _
  after_results
  rfl
theorem V1_main_arg12 (c : Dev nD) : (V1 m ρ c main_arg12 : Vec F S512 .f32) = (m ((c : Thread nD τ).loc main_arg12)) := by
  show StableHlo.after hostOps0 (W0 m ρ c) (Proc.devRef .tc main_arg12) = _
  after_results
theorem V1_main_arg13 (c : Dev nD) : (V1 m ρ c main_arg13 : Vec F S512 .f32) = (m ((c : Thread nD τ).loc main_arg13)) := by
  show StableHlo.after hostOps0 (W0 m ρ c) (Proc.devRef .tc main_arg13) = _
  after_results

/-! ## What the second region is entered with -/

theorem V2_main_arg1 (c : Dev nD) : (V2 m ρ c main_arg1 : Vec F S16x1024x1024 .f32) = (m ((c : Thread nD τ).loc main_arg1)) :=
  (W2_of_ne m ρ c main_arg1 (by decide)).trans (V1_main_arg1 m ρ c)
theorem V2_main_v9 (c : Dev nD) : (V2 m ρ c main_v9 : Vec F S1024x1024 .f32) = sigm (m ((c : Thread nD τ).loc main_arg14)) :=
  (W2_of_ne m ρ c main_v9 (by decide)).trans (V1_main_v9 m ρ c)
theorem V2_main_arg12 (c : Dev nD) : (V2 m ρ c main_arg12 : Vec F S512 .f32) = (m ((c : Thread nD τ).loc main_arg12)) :=
  (W2_of_ne m ρ c main_arg12 (by decide)).trans (V1_main_arg12 m ρ c)
theorem V2_main_arg13 (c : Dev nD) : (V2 m ρ c main_arg13 : Vec F S512 .f32) = (m ((c : Thread nD τ).loc main_arg13)) :=
  (W2_of_ne m ρ c main_arg13 (by decide)).trans (V1_main_arg13 m ρ c)

/-- The intermediate array the second region reads is the one the first region wrote. -/
theorem V2_main_v10 (c : Dev nD) : (V2 m ρ c main_v10 : Vec F S16x512x1024 .bf16)
    = tx2 (m ((c : Thread nD τ).loc main_arg0)) (castW (m ((c : Thread nD τ).loc main_arg2))) (m ((c : Thread nD τ).loc main_arg3)) (m ((c : Thread nD τ).loc main_arg10)) (m ((c : Thread nD τ).loc main_arg11)) (castW (m ((c : Thread nD τ).loc main_arg4))) (m ((c : Thread nD τ).loc main_arg5)) (castW (m ((c : Thread nD τ).loc main_arg6))) (m ((c : Thread nD τ).loc main_arg7)) (castW (m ((c : Thread nD τ).loc main_arg8))) (m ((c : Thread nD τ).loc main_arg9)) := by
  refine (W2_arr m ρ c 11).trans ((arr0 (V1 m ρ) c).trans ?_)
  rw [V1_main_arg0 m ρ c, V1_main_v0 m ρ c, V1_main_arg3 m ρ c, V1_main_arg10 m ρ c, V1_main_arg11 m ρ c, V1_main_v1 m ρ c, V1_main_arg5 m ρ c, V1_main_v2 m ρ c, V1_main_arg7 m ρ c, V1_main_v3 m ρ c, V1_main_arg9 m ρ c]

/-- THE KERNEL'S RESULT as one function of the fifteen argument arrays: the second region's array function of the
    adjacency, the sigmoid of the edge weights, the intermediate array (the first region's array function of the node
    features, the bf16 casts of the four weight matrices and the biases and layer-norm parameters) and the closing
    layer norm's scale and shift. -/
def kout (a0 : Vec F S16x1024x512 .f32) (a1 : Vec F S16x1024x1024 .f32) (a2 : Vec F S512x512 .f32) (a3 : Vec F S512 .f32) (a4 : Vec F S1024x1024 .f32) (a5 : Vec F S1024 .f32) (a6 : Vec F S1024x1024 .f32) (a7 : Vec F S1024 .f32) (a8 : Vec F S1024x1024 .f32) (a9 : Vec F S1024 .f32) (a10 : Vec F S1024 .f32) (a11 : Vec F S1024 .f32) (a12 : Vec F S512 .f32) (a13 : Vec F S512 .f32) (a14 : Vec F S1024x1024 .f32) : Vec F S16x1024x512 .f32 :=
  outv a1 (sigm a14) (tx2 a0 (castW a2) a3 a10 a11 (castW a4) a5 (castW a6) a7 (castW a8) a9) a12 a13

/-- The result buffer at the last boundary is `kout` of the launch contents of the arguments. -/
theorem W3_main_v11 (c : Dev nD) : (W3 m ρ c (Proc.devRef .tc main_v11) : Vec F S16x1024x512 .f32)
    = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W3_arr m ρ c 5).trans ((arr1 (V2 m ρ) c).trans ?_)
  rw [V2_main_arg1 m ρ c, V2_main_v9 m ρ c, V2_main_v10 m ρ c, V2_main_arg12 m ρ c, V2_main_arg13 m ρ c]
  rfl

/-- THE KERNEL'S RUN: every weakly fair execution of @main from a memory with zero counters terminates, and in every
    final state the result buffer holds `kout` of the argument arrays as launched, each argument as launched. -/
theorem run : θ_run defs (onTc (τ := τ) (main (F := F))) ⟨m, fun _ => 0, ρ⟩ (fun r => ∀ c : Dev nD,
      r.2.mem ((c.tc : Thread nD τ).loc main_v11) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W3_main_v11 m ρ c), (h c).2⟩) (run_value m ρ)

end Cert.KernelIdeal.KernRun

end
-- ==== Proof.Spec.lean ====
/-
  The function both programs compute, stated once over coordinate functions on the extended reals.

  Per batch `b` (the programs differ only in how they cut the work: one batch at a time in two passes, or all batches
  at once):
    feat o n  = leaky (Σ_i lw o i · nf n i + lb o)                       -- projected node features, channel-major
    tx o ·    = layer norm of the row `feat o ·` over the 1024 nodes, scale n1w, shift n1b
    q, k      = tx projected by qw, kw (plus bias);  v = leaky (tx projected by vw, plus bias)
    att o ·   = softmax over y of (Σ_h q o h · k y h) · 1/32
    tx2 o n   = tx o n + Σ_y att o y · v y n
    wa0 n m   = adj n m · sg n m;  d n = Σ_m wa0 n m;  dis n = the guarded d ^ (-1/2)
    wa n m    = (dis n · wa0 n m) · dis m
    xp n o    = Σ_m wa n m · tx2 o m
    out n ·   = layer norm of the row `xp n ·` over the 512 channels, scale n2w, shift n2b.
  Every float constant is kept as the bit pattern both programs spell; only the patterns whose value matters are
  evaluated, elsewhere.
-/
import Idealize.ShloMosaic.PureOps.Ideal.Laws

noncomputable section

namespace Cert.Bridge

open Idealize.ShloMosaic

/-- Leaky ReLU: `a` where `0 ≤ a`, else the slope (the f32 nearest 0.01) times `a`. -/
def lk (a : EReal) : EReal :=
  Scalar.select (Ideal.cmp .oge a (Ideal.ofBits .f32 0x00000000#32)) a (Ideal.ofBits .f32 0x3C23D70A#32 * a)

/-- The mean of a row: its sum divided by the constant `c` (the row's length as a float). -/
def rowMean {K : ℕ} (c : EReal) (x : Fin K → EReal) : EReal := Ideal.div (∑ j, x j) c

/-- The (biased) variance of a row: the mean of the squared deviations from the mean. -/
def rowVar {K : ℕ} (c : EReal) (x : Fin K → EReal) : EReal :=
  Ideal.div (∑ j, (x j - rowMean c x) * (x j - rowMean c x)) c

/-- Layer norm of a row at one position: deviation times the inverse square root of variance plus ε (the f32
    nearest 1e-5), scaled and shifted. -/
def lnRow {K : ℕ} (c : EReal) (x w b : Fin K → EReal) (k : Fin K) : EReal :=
  ((x k - rowMean c x) * Ideal.rsqrt (rowVar c x + Ideal.ofBits .f32 0x3727C5AC#32)) * w k + b k

/-- The maximum of a row, started from (and joined once more with) the pattern of `-∞`. -/
def rowMax {K : ℕ} (l : Fin K → EReal) : EReal :=
  max (Ideal.ofBits .f32 0xFF800000#32) (Finset.univ.fold max (Ideal.ofBits .f32 0xFF800000#32) l)

/-- Softmax of a row at one position. -/
def smRow {K : ℕ} (l : Fin K → EReal) (y : Fin K) : EReal :=
  Ideal.div (Ideal.exp (l y - rowMax l)) (∑ y', Ideal.exp (l y' - rowMax l))

/-- The guarded inverse square root of a row sum, in the spelling that tests `0 < d`. -/
def dis (d : EReal) : EReal :=
  Scalar.select (Ideal.cmp .ogt d (Ideal.ofBits .f32 0x00000000#32))
    (Ideal.rsqrt (Scalar.select (Ideal.cmp .ogt d (Ideal.ofBits .f32 0x00000000#32)) d (Ideal.ofBits .f32 0x3F800000#32)))
    (Ideal.ofBits .f32 0x00000000#32)

section Block

variable (nf : Fin 1024 → Fin 512 → EReal) (lw : Fin 512 → Fin 512 → EReal) (lb : Fin 512 → EReal)
  (n1w n1b : Fin 1024 → EReal) (qw kw vw : Fin 1024 → Fin 1024 → EReal) (qb kb vb : Fin 1024 → EReal)

/-- Projected node features, channel-major. -/
def feat (o : Fin 512) (n : Fin 1024) : EReal := lk ((∑ i, lw o i * nf n i) + lb o)

/-- The first layer norm, over the node axis. -/
def tx (o : Fin 512) (n : Fin 1024) : EReal :=
  lnRow (Ideal.ofBits .f32 0x44800000#32) (feat nf lw lb o) n1w n1b n

/-- A projection of the normalized features by a square weight, plus bias. -/
def proj (x : Fin 512 → Fin 1024 → EReal) (w : Fin 1024 → Fin 1024 → EReal) (bias : Fin 1024 → EReal)
    (o : Fin 512) (g : Fin 1024) : EReal := (∑ h, x o h * w g h) + bias g

/-- The scaled attention logits between channels. -/
def logit (q k : Fin 512 → Fin 1024 → EReal) (x y : Fin 512) : EReal :=
  (∑ h, q x h * k y h) * Ideal.ofBits .f32 0x3D000000#32

/-- The intermediate the first pass leaves: normalized features plus their channel attention. -/
def tx2 (o : Fin 512) (n : Fin 1024) : EReal :=
  tx nf lw lb n1w n1b o n
    + ∑ y, smRow (logit (proj (tx nf lw lb n1w n1b) qw qb) (proj (tx nf lw lb n1w n1b) kw kb) o) y
        * lk (proj (tx nf lw lb n1w n1b) vw vb y n)

end Block

section Prop2

variable (adj sg : Fin 1024 → Fin 1024 → EReal) (t2 : Fin 512 → Fin 1024 → EReal) (n2w n2b : Fin 512 → EReal)

/-- The weighted adjacency. -/
def wa0 (n m : Fin 1024) : EReal := adj n m * sg n m

/-- The symmetrically degree-normalized weighted adjacency. -/
def wa (n m : Fin 1024) : EReal :=
  (dis (∑ m', wa0 adj sg n m') * wa0 adj sg n m) * dis (∑ m', wa0 adj sg m m')

/-- Graph propagation of the intermediate. -/
def xp (n : Fin 1024) (o : Fin 512) : EReal := ∑ m, wa adj sg n m * t2 o m

/-- The second layer norm, over the channel axis: the result. -/
def outB (n : Fin 1024) (o : Fin 512) : EReal :=
  lnRow (Ideal.ofBits .f32 0x44000000#32) (xp adj sg t2 n) n2w n2b o

end Prop2

/-- The edge gate: the logistic function of the edge weight, as both programs spell it on the host. -/
def gate (e : EReal) : EReal :=
  Ideal.div (Ideal.ofBits .f32 0x3F800000#32) (Ideal.ofBits .f32 0x3F800000#32 + Ideal.exp (-e))

end Cert.Bridge

end
-- ==== Proof.ScalarLaws.lean ====
/-
  Scalar facts on the extended reals used by the value bridge.

  * The bit patterns of the constants whose VALUE matters (1024, 512, -1/2, +infinity, 1, 0).
  * The guarded inverse square root.  One program computes, for a row sum `d`,
    `if 0 < d then rsqrt (if 0 < d then d else 1) else 0`; the other computes `d ^ (-1/2)` and replaces an
    infinite result by `0`.  On every extended real the two agree: for a positive real both are `(√d)⁻¹`;
    at `0` the real power `0 ^ (-1/2)` is `0`; for a negative real the real power carries the factor
    `cos (-π/2) = 0`; at `+∞` both are `0`; at `-∞` the power is `-∞`, whose absolute value is infinite, so it is
    replaced by `0`.
  * The variance's normalizer `1024 - 0` (resp. `512 - 0`) is positive and equals `1024` (resp. `512`).
-/
import Idealize.ShloMosaic.PureOps.Ideal.Laws
import Idealize.ShloMosaic.Lib.IdealHost

noncomputable section

namespace Cert.Bridge

open Idealize.ShloMosaic

theorem ofBits_1024 : Ideal.ofBits .f32 0x44800000#32 = ((1024 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_inf : Ideal.ofBits .f32 0x7F800000#32 = ⊤ := by
  simp [Ideal.ofBits, Ideal.ieee]

theorem cmp_ogt_eq (x y : EReal) : Ideal.cmp .ogt x y = BitVec.ofBool (decide (y < x)) := rfl
theorem cmp_oeq_eq (x y : EReal) : Ideal.cmp .oeq x y = BitVec.ofBool (decide (x = y)) := rfl

theorem select_ofBool_true {α : Type} {p : Prop} [Decidable p] (hp : p) (a b : α) :
    Scalar.select (BitVec.ofBool (decide p)) a b = a := by
  simp [Scalar.select, hp]

theorem select_ofBool_false {α : Type} {p : Prop} [Decidable p] (hp : ¬ p) (a b : α) :
    Scalar.select (BitVec.ofBool (decide p)) a b = b := by
  simp [Scalar.select, hp]

/-- The real power `r ^ (-1/2)` of a negative real is `0`: its cosine factor is `cos (-π/2)`. -/
theorem rpow_neg_half_of_neg {r : ℝ} (h : r < 0) : Real.rpow r (-(1 / 2)) = 0 := by
  show r ^ (-(1 / 2) : ℝ) = 0
  rw [Real.rpow_def_of_neg h]
  have : Real.cos (-(1 / 2) * Real.pi) = 0 := by
    rw [show (-(1 / 2) * Real.pi : ℝ) = -(Real.pi / 2) by ring, Real.cos_neg, Real.cos_pi_div_two]
  rw [this, mul_zero]

/-- The real power `r ^ (-1/2)` of a positive real is the inverse of its square root. -/
theorem rpow_neg_half_of_pos {r : ℝ} (h : 0 < r) : Real.rpow r (-(1 / 2)) = (Real.sqrt r)⁻¹ := by
  show r ^ (-(1 / 2) : ℝ) = (Real.sqrt r)⁻¹
  rw [Real.rpow_neg h.le, Real.sqrt_eq_rpow]

/-- The guarded inverse square root, in its two spellings, on every extended real. -/
theorem guarded_rsqrt_eq (d : EReal) :
    Scalar.select (Ideal.cmp .ogt d 0) (Ideal.rsqrt (Scalar.select (Ideal.cmp .ogt d 0) d 1)) (0 : EReal)
      = Scalar.select (Ideal.cmp .oeq (max (Ideal.pow d ((-(1 / 2) : ℝ) : EReal)) (-(Ideal.pow d ((-(1 / 2) : ℝ) : EReal)))) ⊤)
          (0 : EReal) (Ideal.pow d ((-(1 / 2) : ℝ) : EReal)) := by
  induction d using EReal.rec with
  | bot =>
    have h1 : ¬ ((0 : EReal) < ⊥) := not_lt_bot
    rw [cmp_ogt_eq, select_ofBool_false h1]
    show _ = Scalar.select (Ideal.cmp .oeq (max (⊥ : EReal) (-(⊥ : EReal))) ⊤) (0 : EReal) (⊥ : EReal)
    rw [EReal.neg_bot, max_eq_right bot_le, cmp_oeq_eq, select_ofBool_true rfl]
  | top =>
    have h1 : (0 : EReal) < ⊤ := EReal.zero_lt_top
    rw [cmp_ogt_eq, select_ofBool_true h1, select_ofBool_true h1, Ideal.rsqrt_top]
    have hp : Ideal.pow (⊤ : EReal) ((-(1 / 2) : ℝ) : EReal) = 0 := by
      show (if (0 : EReal) < ((-(1 / 2) : ℝ) : EReal) then (⊤ : EReal) else if ((-(1 / 2) : ℝ) : EReal) = 0 then 1 else 0) = 0
      have a1 : ¬ ((0 : EReal) < ((-(1 / 2) : ℝ) : EReal)) := by
        rw [← EReal.coe_zero, EReal.coe_lt_coe_iff]; norm_num
      have a2 : ¬ (((-(1 / 2) : ℝ) : EReal) = 0) := by
        rw [← EReal.coe_zero, EReal.coe_eq_coe_iff]; norm_num
      rw [if_neg a1, if_neg a2]
    rw [hp, neg_zero, max_self, cmp_oeq_eq, select_ofBool_false (by exact EReal.zero_ne_top)]
  | coe r =>
    rw [Ideal.pow_coe_coe]
    have hne : ¬ (max ((Real.rpow r (-(1 / 2)) : ℝ) : EReal) (-((Real.rpow r (-(1 / 2)) : ℝ) : EReal)) = ⊤) := by
      rw [← EReal.coe_neg]
      rcases max_choice ((Real.rpow r (-(1 / 2)) : ℝ) : EReal) ((-(Real.rpow r (-(1 / 2))) : ℝ) : EReal) with h | h <;>
        rw [h] <;> exact EReal.coe_ne_top _
    rw [cmp_oeq_eq, select_ofBool_false hne, cmp_ogt_eq]
    rcases lt_trichotomy r 0 with h | h | h
    · have h1 : ¬ ((0 : EReal) < (r : EReal)) := by
        rw [← EReal.coe_zero, EReal.coe_lt_coe_iff]; exact not_lt.mpr h.le
      rw [select_ofBool_false h1, rpow_neg_half_of_neg h, EReal.coe_zero]
    · subst h
      have h1 : ¬ ((0 : EReal) < ((0 : ℝ) : EReal)) := by rw [EReal.coe_zero]; exact lt_irrefl _
      rw [select_ofBool_false h1]
      have : Real.rpow 0 (-(1 / 2)) = 0 := by
        show (0 : ℝ) ^ (-(1 / 2) : ℝ) = 0
        exact Real.zero_rpow (by norm_num)
      rw [this, EReal.coe_zero]
    · have h1 : (0 : EReal) < (r : EReal) := by
        rw [← EReal.coe_zero, EReal.coe_lt_coe_iff]; exact h
      rw [select_ofBool_true h1, select_ofBool_true h1, Ideal.rsqrt_coe, if_neg (not_lt.mpr h.le), if_neg h.ne',
        rpow_neg_half_of_pos h]

/-- The variance's normalizer: `c - 0` is `c`, and it is positive, for `c = 1024`. -/
theorem normalizer_1024 :
    Ideal.ofBits .f32 0x44800000#32 - ((((0#32 : BitVec 32).toInt : ℝ)) : EReal) = Ideal.ofBits .f32 0x44800000#32 := by
  have : (((0#32 : BitVec 32).toInt : ℝ) : EReal) = 0 := by simp
  rw [this, sub_zero]

theorem normalizer_1024_pos :
    Ideal.cmp .ogt (Ideal.ofBits .f32 0x44800000#32 - ((((0#32 : BitVec 32).toInt : ℝ)) : EReal)) (Ideal.ofBits .f32 0x00000000#32) = 1#1 := by
  rw [normalizer_1024, cmp_ogt_eq, Ideal.ofBits_zero_f32, ofBits_1024]
  have : (0 : EReal) < ((1024 : ℝ) : EReal) := by rw [← EReal.coe_zero, EReal.coe_lt_coe_iff]; norm_num
  simp [this]

theorem normalizer_512 :
    Ideal.ofBits .f32 0x44000000#32 - ((((0#32 : BitVec 32).toInt : ℝ)) : EReal) = Ideal.ofBits .f32 0x44000000#32 := by
  have : (((0#32 : BitVec 32).toInt : ℝ) : EReal) = 0 := by simp
  rw [this, sub_zero]

theorem normalizer_512_pos :
    Ideal.cmp .ogt (Ideal.ofBits .f32 0x44000000#32 - ((((0#32 : BitVec 32).toInt : ℝ)) : EReal)) (Ideal.ofBits .f32 0x00000000#32) = 1#1 := by
  rw [normalizer_512, cmp_ogt_eq, Ideal.ofBits_zero_f32, ofBits_512]
  have : (0 : EReal) < ((512 : ℝ) : EReal) := by rw [← EReal.coe_zero, EReal.coe_lt_coe_iff]; norm_num
  simp [this]

end Cert.Bridge

end
-- ==== Proof.RefBridgeG.lean ====
/-
  The graph half of the reference's value, read at an index on the extended reals: the edge gate, the weighted and the
  degree-normalized adjacency, the propagation of the intermediate, and the second layer norm, each stage of the
  reference's result function equal to the specification's coordinate function.
-/
import proofs.«132337_j89043261980865_2_alg».proof.Proof.RefDefs
import proofs.«132337_j89043261980865_2_alg».proof.Proof.Spec
import proofs.«132337_j89043261980865_2_alg».proof.Proof.ScalarLaws
import Idealize.ShloMosaic.Lib.IdealHost
import Idealize.ShloMosaic.Lib.Pipeline.Value
import Idealize.ShloMosaic.Lib.ValueLayout
import Idealize.ShloMosaic.Lib.StackMember

noncomputable section

namespace Cert.Bridge.RefG

open Idealize.ShloMosaic Idealize.ShloMosaic.ValueIdx Cert.ReferenceIdeal Cert.ReferenceIdeal.RefRun

/-! ## Broadcasts and sums read at an index -/

/-- A (1024,1024) array broadcast to (1,1024,1024) and then over the batch reads, at (b, n, m), the array at (n, m). -/
theorem bcast_nm (x : S1024x1024.Idx → EReal)
    (h1 : S1024x1024.BroadcastsInDim S1x1024x1024 (![1, 2] : Fin 2 → Fin S1x1024x1024.rank))
    (h2 : S1x1024x1024.BroadcastsInDim S16x1024x1024 (![0, 1, 2] : Fin 3 → Fin S16x1024x1024.rank))
    (b : Fin 16) (n m : Fin 1024) :
    broadcastInDim S16x1024x1024 ![0, 1, 2] h2 (broadcastInDim S1x1024x1024 ![1, 2] h1 x) (ix3 b n m) = x (ix2 n m) := by
  rw [broadcastInDim_apply _ h2 _ (ix3 b n m) (ix3 (0 : Fin 1) n m)
        (fun a => match a with | ⟨0, _⟩ => rfl | ⟨1, _⟩ => rfl | ⟨2, _⟩ => rfl),
      broadcastInDim_apply _ h1 _ (ix3 (0 : Fin 1) n m) (ix2 n m) (fun a => match a with | ⟨0, _⟩ => rfl | ⟨1, _⟩ => rfl)]

/-- The sum over the last axis of a rank-3 array from an initial value, read at (a, b). -/
theorem reduce_last3 {A B C : ℕ} {u : Shape} (x : FVec Ideal ⟨3, ![A, B, C]⟩ .f32) (init : u.Idx → Ideal .f32)
    (h' : (⟨3, ![A, B, C]⟩ : Shape).ReducesTo [2] ⟨2, ![A, B]⟩) (hu : 0 < u.numel) (a : Fin A) (b : Fin B) :
    Host.reduceAdd x init h' hu (ix2 a b) = init (Shape.Idx.first hu) + ∑ c : Fin C, x (ix3 a b c) := by
  have h : (⟨3, ![A, B, C]⟩ : Shape).Reduces [2] ⟨2, ![A, B]⟩ := ⟨h'.1, Nat.two_pos, h'.2⟩
  show Ideal.hostReduceAdd h' x _ (ix2 a b) = _
  rw [Ideal.hostReduceAdd_single h' h]
  refine congrArg (_ + ·) (Finset.sum_congr rfl fun k _ => ?_)
  refine congrArg x (funext fun ax => Fin.ext ?_)
  match ax with
  | ⟨0, _⟩ => rfl
  | ⟨1, _⟩ => rfl
  | ⟨2, _⟩ => rfl

/-! ## The stages -/

/-- The edge gate at (n, m). -/
theorem st_v5_apply (a14 : S1024x1024.Idx → EReal) (n m : Fin 1024) :
    st_v5 (F := Ideal) a14 (ix2 n m) = Cert.Bridge.gate (a14 (ix2 n m)) := by
  unfold st_v5
  show Ideal.div (broadcastInDim S1024x1024 ![] _ (constant (F := Ideal) S_ .f32 0x3F800000#32) (ix2 n m))
      (broadcastInDim S1024x1024 ![] _ (constant (F := Ideal) S_ .f32 0x3F800000#32) (ix2 n m) + Ideal.exp (-(a14 (ix2 n m)))) = _
  rw [broadcastInDim_scalar_apply]
  rfl

/-- The weighted adjacency at (b, n, m). -/
theorem st_v8_apply (v5 : S1024x1024.Idx → EReal) (a1 : S16x1024x1024.Idx → EReal) (b : Fin 16) (n m : Fin 1024) :
    st_v8 (F := Ideal) v5 a1 (ix3 b n m) = a1 (ix3 b n m) * v5 (ix2 n m) := by
  unfold st_v8
  show a1 (ix3 b n m) * broadcastInDim S16x1024x1024 ![0, 1, 2] _ (broadcastInDim S1x1024x1024 ![1, 2] _ v5) (ix3 b n m) = _
  rw [bcast_nm]

/-! ## Broadcasts as functions of the result index -/

/-- A scalar broadcast to any shape is the constant function. -/
theorem bcast0 {α : Type} {T : Shape} (h : S_.BroadcastsInDim T ![]) (x : S_.Idx → α) :
    broadcastInDim T (no_index ![]) h x = fun _ => x ix0 :=
  funext fun j => broadcastInDim_scalar_apply h x j

theorem bcast_keep {α : Type} (h : S16x1024.BroadcastsInDim S16x1024x1 (![0, 1] : Fin 2 → Fin S16x1024x1.rank))
    (x : S16x1024.Idx → α) :
    broadcastInDim S16x1024x1 (no_index ![0, 1]) h x = fun j => x (ix2 (j 0) (j 1)) :=
  funext fun j => broadcastInDim_apply _ h x j (ix2 (j 0) (j 1)) (fun a => match a with | ⟨0, _⟩ => rfl | ⟨1, _⟩ => rfl)

theorem bcast_unit512 {α : Type} (h : S16x1024x1.BroadcastsInDim S16x1024x512 (![0, 1, 2] : Fin 3 → Fin S16x1024x512.rank))
    (y : S16x1024x1.Idx → α) :
    broadcastInDim S16x1024x512 (no_index ![0, 1, 2]) h y = fun j => y (ix3 (j 0) (j 1) (0 : Fin 1)) :=
  funext fun j => broadcastInDim_apply _ h y j (ix3 (j 0) (j 1) (0 : Fin 1))
    (fun a => match a with | ⟨0, _⟩ => rfl | ⟨1, _⟩ => rfl | ⟨2, _⟩ => rfl)

theorem bcast_unit1024 {α : Type} (h : S16x1024x1.BroadcastsInDim S16x1024x1024 (![0, 1, 2] : Fin 3 → Fin S16x1024x1024.rank))
    (y : S16x1024x1.Idx → α) :
    broadcastInDim S16x1024x1024 (no_index ![0, 1, 2]) h y = fun j => y (ix3 (j 0) (j 1) (0 : Fin 1)) :=
  funext fun j => broadcastInDim_apply _ h y j (ix3 (j 0) (j 1) (0 : Fin 1))
    (fun a => match a with | ⟨0, _⟩ => rfl | ⟨1, _⟩ => rfl | ⟨2, _⟩ => rfl)

theorem bcast_col1 {α : Type} (h : S16x1024.BroadcastsInDim S16x1x1024 (![0, 2] : Fin 2 → Fin S16x1x1024.rank))
    (x : S16x1024.Idx → α) :
    broadcastInDim S16x1x1024 (no_index ![0, 2]) h x = fun j => x (ix2 (j 0) (j 2)) :=
  funext fun j => broadcastInDim_apply _ h x j (ix2 (j 0) (j 2)) (fun a => match a with | ⟨0, _⟩ => rfl | ⟨1, _⟩ => rfl)

theorem bcast_col2 {α : Type} (h : S16x1x1024.BroadcastsInDim S16x1024x1024 (![0, 1, 2] : Fin 3 → Fin S16x1024x1024.rank))
    (y : S16x1x1024.Idx → α) :
    broadcastInDim S16x1024x1024 (no_index ![0, 1, 2]) h y = fun j => y (ix3 (j 0) (0 : Fin 1) (j 2)) :=
  funext fun j => broadcastInDim_apply _ h y j (ix3 (j 0) (0 : Fin 1) (j 2))
    (fun a => match a with | ⟨0, _⟩ => rfl | ⟨1, _⟩ => rfl | ⟨2, _⟩ => rfl)

theorem bcast_ch1 {α : Type} (h : S512.BroadcastsInDim S1x1x512 (![2] : Fin 1 → Fin S1x1x512.rank))
    (x : S512.Idx → α) :
    broadcastInDim S1x1x512 (no_index ![2]) h x = fun j => x (ix1 (j 2)) :=
  funext fun j => broadcastInDim_apply _ h x j (ix1 (j 2)) (fun a => match a with | ⟨0, _⟩ => rfl)

theorem bcast_ch2 {α : Type} (h : S1x1x512.BroadcastsInDim S16x1024x512 (![0, 1, 2] : Fin 3 → Fin S16x1024x512.rank))
    (y : S1x1x512.Idx → α) :
    broadcastInDim S16x1024x512 (no_index ![0, 1, 2]) h y = fun j => y (ix3 (0 : Fin 1) (0 : Fin 1) (j 2)) :=
  funext fun j => broadcastInDim_apply _ h y j (ix3 (0 : Fin 1) (0 : Fin 1) (j 2))
    (fun a => match a with | ⟨0, _⟩ => rfl | ⟨1, _⟩ => rfl | ⟨2, _⟩ => rfl)

/-- The sum over the last axis of a rank-3 array from an initial value, read at any index. -/
theorem reduce_last3' {A B C : ℕ} {u : Shape} (x : FVec Ideal ⟨3, ![A, B, C]⟩ .f32) (init : u.Idx → Ideal .f32)
    (h' : (⟨3, ![A, B, C]⟩ : Shape).ReducesTo [2] ⟨2, ![A, B]⟩) (hu : 0 < u.numel) (j : (⟨2, ![A, B]⟩ : Shape).Idx) :
    Host.reduceAdd x init h' hu j = init (Shape.Idx.first hu) + ∑ c : Fin C, x (ix3 (j 0) (j 1) c) := by
  have h : (⟨3, ![A, B, C]⟩ : Shape).Reduces [2] ⟨2, ![A, B]⟩ := ⟨h'.1, Nat.two_pos, h'.2⟩
  show Ideal.hostReduceAdd h' x _ j = _
  rw [Ideal.hostReduceAdd_single h' h]
  refine congrArg (_ + ·) (Finset.sum_congr rfl fun k _ => ?_)
  refine congrArg x (funext fun ax => Fin.ext ?_)
  match ax with
  | ⟨0, _⟩ => rfl
  | ⟨1, _⟩ => rfl
  | ⟨2, _⟩ => rfl

/-! ## The remaining stages -/

/-- The degree at (b, n). -/
theorem st_v9_apply (v8 : S16x1024x1024.Idx → EReal) (b : Fin 16) (n : Fin 1024) :
    st_v9 (F := Ideal) v8 (ix2 b n) = ∑ m : Fin 1024, v8 (ix3 b n m) := by
  unfold st_v9
  show Host.reduceAdd v8 (constant (F := Ideal) S_ .f32 0x00000000#32) _ _ (ix2 b n) = _
  rw [reduce_last3]
  show Ideal.ofBits .f32 0x00000000#32 + _ = _
  rw [Ideal.ofBits_zero_f32, zero_add]

/-- The guarded inverse square root of the degree at (b, n): the power, its infinity test and the replacement by zero are
    the specification's guarded inverse square root. -/
theorem st_v13_apply (v9 : S16x1024.Idx → EReal) (b : Fin 16) (n : Fin 1024) :
    st_v13 (F := Ideal) v9 (ix2 b n) = Cert.Bridge.dis (v9 (ix2 b n)) := by
  simp only [st_v13, id_eq, bcast0]
  show Scalar.select (Ideal.cmp .oeq (max (Ideal.pow (v9 (ix2 b n)) (Ideal.ofBits .f32 0xBF000000#32))
        (-(Ideal.pow (v9 (ix2 b n)) (Ideal.ofBits .f32 0xBF000000#32)))) (Ideal.ofBits .f32 0x7F800000#32))
      (Ideal.ofBits .f32 0x00000000#32) (Ideal.pow (v9 (ix2 b n)) (Ideal.ofBits .f32 0xBF000000#32)) = _
  unfold Cert.Bridge.dis
  rw [ofBits_neg_half, ofBits_inf, Ideal.ofBits_zero_f32, Ideal.ofBits_one_f32]
  exact (guarded_rsqrt_eq _).symm

/-- The normalized adjacency at (b, n, m). -/
theorem st_v19_apply (v8 : S16x1024x1024.Idx → EReal) (v13 : S16x1024.Idx → EReal) (b : Fin 16) (n m : Fin 1024) :
    st_v19 (F := Ideal) v8 v13 (ix3 b n m) = (v13 (ix2 b n) * v8 (ix3 b n m)) * v13 (ix2 b m) := by
  simp only [st_v19, bcast_keep, bcast_unit1024, bcast_col1, bcast_col2]
  rfl

/-- The transpose back at (b, n, o). -/
theorem st_v73_apply (v72 : S16x512x1024.Idx → EReal) (b : Fin 16) (n : Fin 1024) (o : Fin 512) :
    st_v73 (F := Ideal) v72 (ix3 b n o) = v72 (ix3 b o n) := by
  unfold st_v73
  exact transpose_ix3_021_apply v72 _ b n o

/-- The propagation at (b, n, o). -/
theorem st_v74_apply (v19 : S16x1024x1024.Idx → EReal) (v73 : S16x1024x512.Idx → EReal) (b : Fin 16) (n : Fin 1024) (o : Fin 512) :
    st_v74 (F := Ideal) v19 v73 (ix3 b n o) = ∑ m : Fin 1024, v19 (ix3 b n m) * v73 (ix3 b m o) := by
  unfold st_v74
  exact StackMember.dotGeneral_stack_apply _ none v19 v73 b n o

/-- The mean over the channel axis at (b, n). -/
theorem st_v78_apply (v74 : S16x1024x512.Idx → EReal) (b : Fin 16) (n : Fin 1024) (z : Fin 1) :
    st_v78 (F := Ideal) v74 (ix3 b n z)
      = Cert.Bridge.rowMean (Ideal.ofBits .f32 0x44000000#32) (fun o : Fin 512 => v74 (ix3 b n o)) := by
  simp only [st_v78, bcast0, bcast_keep, reduce_last3']
  show Ideal.div (Ideal.ofBits .f32 0x00000000#32 + ∑ c : Fin 512, v74 (ix3 b n c)) (Ideal.ofBits .f32 0x44000000#32) = _
  rw [Ideal.ofBits_zero_f32, zero_add]
  rfl

/-- The variance over the channel axis at (b, n): the normalizer 512 - 0 is 512 and positive, so the guard selects the
    quotient. -/
theorem st_v79_apply (v74 : S16x1024x512.Idx → EReal) (b : Fin 16) (n : Fin 1024) (z : Fin 1) :
    st_v79 (F := Ideal) v74 (ix3 b n z)
      = Cert.Bridge.rowVar (Ideal.ofBits .f32 0x44000000#32) (fun o : Fin 512 => v74 (ix3 b n o)) := by
  simp only [st_v79, id_eq, bcast0, bcast_keep, bcast_unit512, reduce_last3']
  show Scalar.select
      (Ideal.cmp .ogt (Ideal.ofBits .f32 0x44000000#32 - ((((0#32 : BitVec 32).toInt : ℝ)) : EReal)) (Ideal.ofBits .f32 0x00000000#32))
      (Ideal.div (Ideal.ofBits .f32 0x00000000#32 + ∑ c : Fin 512,
          (v74 (ix3 b n c) - Ideal.div (Ideal.ofBits .f32 0x00000000#32 + ∑ c' : Fin 512, v74 (ix3 b n c')) (Ideal.ofBits .f32 0x44000000#32))
          * (v74 (ix3 b n c) - Ideal.div (Ideal.ofBits .f32 0x00000000#32 + ∑ c' : Fin 512, v74 (ix3 b n c')) (Ideal.ofBits .f32 0x44000000#32)))
        (Ideal.ofBits .f32 0x44000000#32 - ((((0#32 : BitVec 32).toInt : ℝ)) : EReal)))
      (Ideal.ofBits .f32 0x7FC00000#32) = _
  rw [normalizer_512_pos, select_one, normalizer_512]
  simp only [Ideal.ofBits_zero_f32, zero_add]
  rfl

/-- The second layer norm's last steps at (b, n, o). -/
theorem st_v92_apply (v74 : S16x1024x512.Idx → EReal) (v78 v79 : S16x1024x1.Idx → EReal) (a12 a13 : S512.Idx → EReal)
    (b : Fin 16) (n : Fin 1024) (o : Fin 512) :
    st_v92 (F := Ideal) v74 v78 v79 a12 a13 (ix3 b n o)
      = ((v74 (ix3 b n o) - v78 (ix3 b n (0 : Fin 1)))
          * Ideal.rsqrt (v79 (ix3 b n (0 : Fin 1)) + Ideal.ofBits .f32 0x3727C5AC#32)) * a12 (ix1 o) + a13 (ix1 o) := by
  simp only [st_v92, bcast0, bcast_unit512, bcast_ch1, bcast_ch2]
  rfl

/-! ## The graph half -/

/-- From the intermediate T2 on: the reference's propagation through the degree-normalized gated adjacency and its
    second layer norm are the specification's, at every batch, node and channel. -/
theorem graph_eq (a1 : S16x1024x1024.Idx → EReal) (a14 : S1024x1024.Idx → EReal) (T2 : S16x512x1024.Idx → EReal)
    (a12 a13 : S512.Idx → EReal) (b : Fin 16) (n : Fin 1024) (o : Fin 512) :
    st_v92 (F := Ideal)
        (st_v74 (st_v19 (st_v8 (st_v5 a14) a1) (st_v13 (st_v9 (st_v8 (st_v5 a14) a1)))) (st_v73 T2))
        (st_v78 (st_v74 (st_v19 (st_v8 (st_v5 a14) a1) (st_v13 (st_v9 (st_v8 (st_v5 a14) a1)))) (st_v73 T2)))
        (st_v79 (st_v74 (st_v19 (st_v8 (st_v5 a14) a1) (st_v13 (st_v9 (st_v8 (st_v5 a14) a1)))) (st_v73 T2)))
        a12 a13 (ix3 b n o)
      = Cert.Bridge.outB (fun n m => a1 (ix3 b n m)) (fun n m => Cert.Bridge.gate (a14 (ix2 n m)))
          (fun o m => T2 (ix3 b o m)) (fun o => a12 (ix1 o)) (fun o => a13 (ix1 o)) n o := by
  have hwa0 : ∀ n' m' : Fin 1024, st_v8 (F := Ideal) (st_v5 a14) a1 (ix3 b n' m')
      = Cert.Bridge.wa0 (fun n m => a1 (ix3 b n m)) (fun n m => Cert.Bridge.gate (a14 (ix2 n m))) n' m' := by
    intro n' m'
    rw [st_v8_apply, st_v5_apply]
    rfl
  have hXp : ∀ o' : Fin 512,
      st_v74 (F := Ideal) (st_v19 (st_v8 (st_v5 a14) a1) (st_v13 (st_v9 (st_v8 (st_v5 a14) a1)))) (st_v73 T2) (ix3 b n o')
        = Cert.Bridge.xp (fun n m => a1 (ix3 b n m)) (fun n m => Cert.Bridge.gate (a14 (ix2 n m))) (fun o m => T2 (ix3 b o m)) n o' := by
    intro o'
    rw [st_v74_apply]
    unfold Cert.Bridge.xp Cert.Bridge.wa
    refine Finset.sum_congr rfl fun m _ => ?_
    rw [st_v19_apply, st_v73_apply, st_v13_apply, st_v13_apply, st_v9_apply, st_v9_apply]
    simp only [hwa0]
  generalize st_v74 (F := Ideal) (st_v19 (st_v8 (st_v5 a14) a1) (st_v13 (st_v9 (st_v8 (st_v5 a14) a1)))) (st_v73 T2) = X at hXp ⊢
  rw [st_v92_apply, st_v78_apply, st_v79_apply, funext hXp, hXp o]
  rfl

end Cert.Bridge.RefG

end
-- ==== Proof.RefBridgeA.lean ====
/-
  The attention half of the reference's value from the first layer norm's output on, read at an index on the extended
  reals: the three projections, the scaled scores, their softmax, and the residual sum, each stage of the reference's
  result function equal to the specification's coordinate function.
-/
import proofs.«132337_j89043261980865_2_alg».proof.Proof.RefBridgeG
import Idealize.ShloMosaic.PureOps.Reduce

noncomputable section

namespace Cert.Bridge.RefA

open Idealize.ShloMosaic Idealize.ShloMosaic.ValueIdx Cert.ReferenceIdeal Cert.ReferenceIdeal.RefRun Cert.Bridge.RefG

/-! ## Two matrix products read at an index -/

/-- A stack of row blocks times the transpose of one matrix (contract the stack's last axis with the matrix's last axis,
    no batch axis): at (g, a, c) the sum over the contracted coordinate. -/
theorem dot_rowsT_apply {G m n k : ℕ} {φ₁ φ₂ : FTy}
    (w : DotDims.WF ⟨3, ![G, m, k]⟩ ⟨2, ![n, k]⟩ ⟨3, ![G, m, n]⟩ [2] [1] [0, 1] [0] [] [])
    (prec : Option ContractPrecision) (A : FVec Ideal ⟨3, ![G, m, k]⟩ φ₁) (B : FVec Ideal ⟨2, ![n, k]⟩ φ₂)
    (g : Fin G) (a : Fin m) (c : Fin n) :
    Host.dotGeneral (⟨[2], [1], [0, 1], [0], [], [], w⟩ : DotDims _ _ _) prec A B (ix3 g a c)
      = ∑ h : Fin k, A (ix3 g a h) * B (ix2 c h) := by
  show FloatOps.dotGeneral _ prec _ A B (ix3 g a c) = _
  rw [Ideal.dotGeneral_apply,
    ← Equiv.sum_comp (contrEquiv1 (⟨[2], [1], [0, 1], [0], [], [], w⟩ : DotDims _ _ _) k rfl rfl).symm]
  refine Finset.sum_congr rfl fun h _ => ?_
  have c3 := contrEquiv1_symm_val
    (⟨[2], [1], [0, 1], [0], [], [], w⟩ : DotDims ⟨3, ![G, m, k]⟩ ⟨2, ![n, k]⟩ ⟨3, ![G, m, n]⟩) k rfl rfl h
  have l3 : (⟨[2], [1], [0, 1], [0], [], [], w⟩ : DotDims ⟨3, ![G, m, k]⟩ ⟨2, ![n, k]⟩ ⟨3, ![G, m, n]⟩).lhsIdx (ix3 g a c)
      ((contrEquiv1 _ k rfl rfl).symm h) = ix3 g a h := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![G, m, k]⟩ ⟨2, ![n, k]⟩ ⟨3, ![G, m, n]⟩).rhsIdx (ix3 g a c)
      ((contrEquiv1 _ k rfl rfl).symm h) = ix2 c h := by
    funext ax; apply Fin.ext
    match ax with
    | ⟨0, _⟩ => simp [DotDims.rhsIdx]; rfl
    | ⟨1, _⟩ => simp [DotDims.rhsIdx]; exact c3
  rw [l3, r3]

/-- Two stacks, each member of the first times the transpose of the member of the second (batch axes 0 and 0, both last
    axes contracted): at (g, a, c) the sum over the contracted coordinate. -/
theorem dot_stackT_apply {G m n k : ℕ} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (c : Fin n) :
    Host.dotGeneral (⟨[2], [2], [1], [1], [0], [0], w⟩ : DotDims _ _ _) prec A B (ix3 g a c)
      = ∑ h : Fin k, A (ix3 g a h) * B (ix3 g c h) := by
  show FloatOps.dotGeneral _ prec _ A B (ix3 g a c) = _
  rw [Ideal.dotGeneral_apply,
    ← Equiv.sum_comp (contrEquiv1 (⟨[2], [2], [1], [1], [0], [0], w⟩ : DotDims _ _ _) k rfl rfl).symm]
  refine Finset.sum_congr rfl fun h _ => ?_
  have c3 := contrEquiv1_symm_val
    (⟨[2], [2], [1], [1], [0], [0], w⟩ : DotDims ⟨3, ![G, m, k]⟩ ⟨3, ![G, n, k]⟩ ⟨3, ![G, m, n]⟩) k rfl rfl h
  have l3 : (⟨[2], [2], [1], [1], [0], [0], w⟩ : DotDims ⟨3, ![G, m, k]⟩ ⟨3, ![G, n, k]⟩ ⟨3, ![G, m, n]⟩).lhsIdx (ix3 g a c)
      ((contrEquiv1 _ k rfl rfl).symm h) = ix3 g a h := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a c)
      ((contrEquiv1 _ k rfl rfl).symm h) = ix3 g c h := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-! ## The maximum over the last axis, and four more broadcasts -/

/-- The maximum over the last axis of a rank-3 array from an initial value, read at any index: the fold of max. -/
theorem reduceMax_last3 {A B C : ℕ} {u : Shape} (x : FVec Ideal ⟨3, ![A, B, C]⟩ .f32) (init : u.Idx → Ideal .f32)
    (h' : (⟨3, ![A, B, C]⟩ : Shape).ReducesTo [2] ⟨2, ![A, B]⟩) (hu : 0 < u.numel) (j : (⟨2, ![A, B]⟩ : Shape).Idx) :
    Host.reduce FloatOps.maximumf x init h' hu j
      = (Finset.univ : Finset (Fin C)).fold max (init (Shape.Idx.first hu)) (fun c => x (ix3 (j 0) (j 1) c)) := by
  have h : (⟨3, ![A, B, C]⟩ : Shape).Reduces [2] ⟨2, ![A, B]⟩ := ⟨h'.1, Nat.two_pos, h'.2⟩
  rw [Host.reduce_eq_fold_single FloatOps.maximumf x init h' h hu j]
  have e : (x ∘ h.lift j) = fun c : Fin C => x (ix3 (j 0) (j 1) c) :=
    funext fun k => congrArg x (funext fun ax => Fin.ext (match ax with | ⟨0, _⟩ => rfl | ⟨1, _⟩ => rfl | ⟨2, _⟩ => rfl))
  rw [e]
  rfl

theorem bcast_w1 {α : Type} (h : S1024.BroadcastsInDim S1x1x1024 (![2] : Fin 1 → Fin S1x1x1024.rank)) (x : S1024.Idx → α) :
    broadcastInDim S1x1x1024 (no_index ![2]) h x = fun j => x (ix1 (j 2)) :=
  funext fun j => broadcastInDim_apply _ h x j (ix1 (j 2)) (fun a => match a with | ⟨0, _⟩ => rfl)

theorem bcast_w2 {α : Type} (h : S1x1x1024.BroadcastsInDim S16x512x1024 (![0, 1, 2] : Fin 3 → Fin S16x512x1024.rank))
    (y : S1x1x1024.Idx → α) :
    broadcastInDim S16x512x1024 (no_index ![0, 1, 2]) h y = fun j => y (ix3 (0 : Fin 1) (0 : Fin 1) (j 2)) :=
  funext fun j => broadcastInDim_apply _ h y j (ix3 (0 : Fin 1) (0 : Fin 1) (j 2))
    (fun a => match a with | ⟨0, _⟩ => rfl | ⟨1, _⟩ => rfl | ⟨2, _⟩ => rfl)

theorem bcast_keep512 {α : Type} (h : S16x512.BroadcastsInDim S16x512x1 (![0, 1] : Fin 2 → Fin S16x512x1.rank))
    (x : S16x512.Idx → α) :
    broadcastInDim S16x512x1 (no_index ![0, 1]) h x = fun j => x (ix2 (j 0) (j 1)) :=
  funext fun j => broadcastInDim_apply _ h x j (ix2 (j 0) (j 1)) (fun a => match a with | ⟨0, _⟩ => rfl | ⟨1, _⟩ => rfl)

theorem bcast_unit_sc {α : Type} (h : S16x512x1.BroadcastsInDim S16x512x512 (![0, 1, 2] : Fin 3 → Fin S16x512x512.rank))
    (y : S16x512x1.Idx → α) :
    broadcastInDim S16x512x512 (no_index ![0, 1, 2]) h y = fun j => y (ix3 (j 0) (j 1) (0 : Fin 1)) :=
  funext fun j => broadcastInDim_apply _ h y j (ix3 (j 0) (j 1) (0 : Fin 1))
    (fun a => match a with | ⟨0, _⟩ => rfl | ⟨1, _⟩ => rfl | ⟨2, _⟩ => rfl)

/-- The projection's product at any index. -/
theorem dotW_apply (T : S16x512x1024.Idx → EReal) (W : S1024x1024.Idx → EReal) (j : S16x512x1024.Idx) :
    Host.dotGeneral (F := Ideal) (φ₁ := .f32) (φ₂ := .f32) dot_S16x512x1024_S1024x1024_S16x512x1024_2_1_01_0_n_n none T W j
      = ∑ h : Fin 1024, T (ix3 (j 0) (j 1) h) * W (ix2 (j 2) h) :=
  (congrArg (Host.dotGeneral (F := Ideal) (φ₁ := .f32) (φ₂ := .f32) dot_S16x512x1024_S1024x1024_S16x512x1024_2_1_01_0_n_n none T W) (eq_ix3 j)).trans
    (dot_rowsT_apply _ none T W (j 0) (j 1) (j 2))

/-- The scores' product at any index. -/
theorem dotQK_apply (Q K : S16x512x1024.Idx → EReal) (j : S16x512x512.Idx) :
    Host.dotGeneral (F := Ideal) (φ₁ := .f32) (φ₂ := .f32) dot_S16x512x1024_S16x512x1024_S16x512x512_2_2_1_1_0_0 none Q K j
      = ∑ h : Fin 1024, Q (ix3 (j 0) (j 1) h) * K (ix3 (j 0) (j 2) h) :=
  (congrArg (Host.dotGeneral (F := Ideal) (φ₁ := .f32) (φ₂ := .f32) dot_S16x512x1024_S16x512x1024_S16x512x512_2_2_1_1_0_0 none Q K) (eq_ix3 j)).trans
    (dot_stackT_apply _ none Q K (j 0) (j 1) (j 2))

/-- The same four readings as functions of the result index, for rewriting an operand that is not applied to an index. -/
theorem dotW_fun (T : S16x512x1024.Idx → EReal) (W : S1024x1024.Idx → EReal) :
    Host.dotGeneral (F := Ideal) (φ₁ := .f32) (φ₂ := .f32) dot_S16x512x1024_S1024x1024_S16x512x1024_2_1_01_0_n_n none T W
      = fun j => ∑ h : Fin 1024, T (ix3 (j 0) (j 1) h) * W (ix2 (j 2) h) :=
  funext fun j => dotW_apply T W j

theorem dotQK_fun (Q K : S16x512x1024.Idx → EReal) :
    Host.dotGeneral (F := Ideal) (φ₁ := .f32) (φ₂ := .f32) dot_S16x512x1024_S16x512x1024_S16x512x512_2_2_1_1_0_0 none Q K
      = fun j => ∑ h : Fin 1024, Q (ix3 (j 0) (j 1) h) * K (ix3 (j 0) (j 2) h) :=
  funext fun j => dotQK_apply Q K j

theorem reduce_last3_fun {A B C : ℕ} {u : Shape} (x : FVec Ideal ⟨3, ![A, B, C]⟩ .f32) (init : u.Idx → Ideal .f32)
    (h' : (⟨3, ![A, B, C]⟩ : Shape).ReducesTo [2] ⟨2, ![A, B]⟩) (hu : 0 < u.numel) :
    Host.reduceAdd x init h' hu = fun j => init (Shape.Idx.first hu) + ∑ c : Fin C, x (ix3 (j 0) (j 1) c) :=
  funext fun j => reduce_last3' x init h' hu j

theorem reduceMax_last3_fun {A B C : ℕ} {u : Shape} (x : FVec Ideal ⟨3, ![A, B, C]⟩ .f32) (init : u.Idx → Ideal .f32)
    (h' : (⟨3, ![A, B, C]⟩ : Shape).ReducesTo [2] ⟨2, ![A, B]⟩) (hu : 0 < u.numel) :
    Host.reduce FloatOps.maximumf x init h' hu
      = fun j => (Finset.univ : Finset (Fin C)).fold max (init (Shape.Idx.first hu)) (fun c => x (ix3 (j 0) (j 1) c)) :=
  funext fun j => reduceMax_last3 x init h' hu j

/-! ## The stages -/

/-- The query projection at (b, x, g). -/
theorem st_v47_apply (T : S16x512x1024.Idx → EReal) (a4 : S1024x1024.Idx → EReal) (a5 : S1024.Idx → EReal)
    (b : Fin 16) (x : Fin 512) (g : Fin 1024) :
    st_v47 (F := Ideal) T a4 a5 (ix3 b x g) = (∑ h : Fin 1024, T (ix3 b x h) * a4 (ix2 g h)) + a5 (ix1 g) := by
  simp only [st_v47, bcast_w1, bcast_w2, dotW_fun]
  rfl

/-- The key projection's product at (b, x, g). -/
theorem st_v48_apply (T : S16x512x1024.Idx → EReal) (a6 : S1024x1024.Idx → EReal) (b : Fin 16) (x : Fin 512) (g : Fin 1024) :
    st_v48 (F := Ideal) T a6 (ix3 b x g) = ∑ h : Fin 1024, T (ix3 b x h) * a6 (ix2 g h) := by
  unfold st_v48
  exact dot_rowsT_apply _ none T a6 b x g

/-- The key bias as a (1,1,1024) array at (0, 0, g). -/
theorem st_v49_apply (a7 : S1024.Idx → EReal) (z z' : Fin 1) (g : Fin 1024) :
    st_v49 (F := Ideal) a7 (ix3 z z' g) = a7 (ix1 g) := by
  unfold st_v49
  exact broadcastInDim_apply _ _ a7 (ix3 z z' g) (ix1 g) (fun a => match a with | ⟨0, _⟩ => rfl)

/-- The key projection at (b, x, g). -/
theorem st_v51_apply (v48 : S16x512x1024.Idx → EReal) (v49 : S1x1x1024.Idx → EReal) (b : Fin 16) (x : Fin 512) (g : Fin 1024) :
    st_v51 (F := Ideal) v48 v49 (ix3 b x g) = v48 (ix3 b x g) + v49 (ix3 (0 : Fin 1) (0 : Fin 1) g) := by
  simp only [st_v51, bcast_w2]
  rfl

/-- The value projection at (b, y, n): the leaky ReLU of the affine map, operation for operation. -/
theorem st_v56_apply (T : S16x512x1024.Idx → EReal) (a8 : S1024x1024.Idx → EReal) (a9 : S1024.Idx → EReal)
    (b : Fin 16) (y : Fin 512) (n : Fin 1024) :
    st_v56 (F := Ideal) T a8 a9 (ix3 b y n)
      = Cert.Bridge.lk ((∑ h : Fin 1024, T (ix3 b y h) * a8 (ix2 n h)) + a9 (ix1 n)) := by
  simp only [st_v56, id_eq, bcast0, bcast_w1, bcast_w2, dotW_fun]
  rfl

/-- The scaled scores at (b, x, y). -/
theorem st_v59_apply (Q K : S16x512x1024.Idx → EReal) (b : Fin 16) (x y : Fin 512) :
    st_v59 (F := Ideal) Q K (ix3 b x y)
      = (∑ h : Fin 1024, Q (ix3 b x h) * K (ix3 b y h)) * Ideal.ofBits .f32 0x3D000000#32 := by
  simp only [st_v59, bcast0, dotQK_fun]
  rfl

set_option maxRecDepth 8192 in
/-- The softmax over the last axis at (b, x, y). -/
theorem st_v70_apply (s : S16x512x512.Idx → EReal) (b : Fin 16) (x y : Fin 512) :
    st_v70 (F := Ideal) s (ix3 b x y) = Cert.Bridge.smRow (fun y' : Fin 512 => s (ix3 b x y')) y := by
  simp only [st_v70, bcast0, bcast_keep512, bcast_unit_sc, reduce_last3_fun, reduceMax_last3_fun]
  show Ideal.div (Ideal.exp (s (ix3 b x y) - Cert.Bridge.rowMax (fun y' : Fin 512 => s (ix3 b x y'))))
      (Ideal.ofBits .f32 0x00000000#32
        + ∑ c : Fin 512, Ideal.exp (s (ix3 b x c) - Cert.Bridge.rowMax (fun y' : Fin 512 => s (ix3 b x y')))) = _
  rw [Ideal.ofBits_zero_f32, zero_add]
  rfl

/-- The residual at (b, o, n). -/
theorem st_v72_apply (T : S16x512x1024.Idx → EReal) (v : S16x512x1024.Idx → EReal) (a : S16x512x512.Idx → EReal)
    (b : Fin 16) (o : Fin 512) (n : Fin 1024) :
    st_v72 (F := Ideal) T v a (ix3 b o n) = T (ix3 b o n) + ∑ y : Fin 512, a (ix3 b o y) * v (ix3 b y n) := by
  unfold st_v72
  exact congrArg (T (ix3 b o n) + ·) (StackMember.dotGeneral_stack_apply _ none a v b o n)

/-! ## The attention half from the first layer norm's output on -/

/-- From the first layer norm's output T on: the reference's projections, scaled scores, softmax and residual are the
    specification's intermediate, at every batch, channel and node. -/
theorem attn_eq (T : S16x512x1024.Idx → EReal) (a4 : S1024x1024.Idx → EReal) (a5 : S1024.Idx → EReal)
    (a6 : S1024x1024.Idx → EReal) (a7 : S1024.Idx → EReal) (a8 : S1024x1024.Idx → EReal) (a9 : S1024.Idx → EReal)
    (b : Fin 16) (o : Fin 512) (n : Fin 1024) :
    st_v72 (F := Ideal) T (st_v56 T a8 a9) (st_v70 (st_v59 (st_v47 T a4 a5) (st_v51 (st_v48 T a6) (st_v49 a7)))) (ix3 b o n)
      = T (ix3 b o n)
        + ∑ y : Fin 512,
            Cert.Bridge.smRow
                (Cert.Bridge.logit
                  (Cert.Bridge.proj (fun o h => T (ix3 b o h)) (fun g h => a4 (ix2 g h)) (fun g => a5 (ix1 g)))
                  (Cert.Bridge.proj (fun o h => T (ix3 b o h)) (fun g h => a6 (ix2 g h)) (fun g => a7 (ix1 g))) o) y
              * Cert.Bridge.lk (Cert.Bridge.proj (fun o h => T (ix3 b o h)) (fun g h => a8 (ix2 g h)) (fun g => a9 (ix1 g)) y n) := by
  have hS : (fun y' : Fin 512 =>
        st_v59 (F := Ideal) (st_v47 T a4 a5) (st_v51 (st_v48 T a6) (st_v49 a7)) (ix3 b o y'))
      = Cert.Bridge.logit
          (Cert.Bridge.proj (fun o h => T (ix3 b o h)) (fun g h => a4 (ix2 g h)) (fun g => a5 (ix1 g)))
          (Cert.Bridge.proj (fun o h => T (ix3 b o h)) (fun g h => a6 (ix2 g h)) (fun g => a7 (ix1 g))) o := by
    funext y'
    rw [st_v59_apply]
    unfold Cert.Bridge.logit Cert.Bridge.proj
    simp only [st_v47_apply, st_v51_apply, st_v48_apply, st_v49_apply]
  rw [st_v72_apply]
  refine congrArg (T (ix3 b o n) + ·) (Finset.sum_congr rfl fun y _ => ?_)
  rw [st_v70_apply, st_v56_apply, hS]
  rfl

end Cert.Bridge.RefA

end
-- ==== Proof.HostOps.lean ====
/-
  The reference's non-pointwise host operations read at an index written by coordinates, at the extended reals.

  * A sum over the last axis of a rank-3 array, at (i, j), is the initial value plus the sum over k of the array
    at (i, j, k); a maximum over the last axis likewise is the fold of max from the initial value.
  * Each broadcast the reference spells (a unit axis added, a unit axis stretched) reads the operand at the
    coordinates it keeps.
  All statements are generic in the sizes, so they apply to every shape of the program.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.Bridge.Host

open Idealize.ShloMosaic Idealize.ShloMosaic.ValueIdx

/-! ## Reductions over the last axis of a rank-3 array -/

/-- The last axis removed from a rank-3 shape leaves the first two. -/
theorem reduces_last3 (m a b : ℕ) : (⟨3, ![m, a, b]⟩ : Shape).Reduces [2] ⟨2, ![m, a]⟩ :=
  ⟨rfl, Nat.two_pos, fun c => match c with | ⟨0, _⟩ => rfl | ⟨1, _⟩ => rfl⟩

/-- The index (i, j) with k inserted on the last axis is (i, j, k). -/
theorem lift_last3 {m a b : ℕ} (h : (⟨3, ![m, a, b]⟩ : Shape).Reduces [2] ⟨2, ![m, a]⟩) (i : Fin m) (j : Fin a) (k : Fin b) :
    h.lift (ix2 i j) k = ix3 i j k := by
  funext c
  refine Fin.ext ?_
  match c with
  | ⟨0, _⟩ => rfl
  | ⟨1, _⟩ => rfl
  | ⟨2, _⟩ => rfl

/-- A host sum over the last axis: the initial value plus the sum of the row. -/
theorem reduceAdd_last3 {m a b : ℕ} {φ : FTy} (x : FVec Ideal ⟨3, ![m, a, b]⟩ φ) (init : (⟨0, ![]⟩ : Shape).Idx → Ideal φ)
    (h' : (⟨3, ![m, a, b]⟩ : Shape).ReducesTo [2] ⟨2, ![m, a]⟩) (hu : 0 < (⟨0, ![]⟩ : Shape).numel) (i : Fin m) (j : Fin a) :
    Host.reduceAdd x init h' hu (ix2 i j) = init ix0 + ∑ k : Fin b, x (ix3 i j k) := by
  rw [hostReduceAdd_apply, Ideal.hostReduceAdd_single h' (reduces_last3 m a b), eq_ix0 (Shape.Idx.first hu)]
  refine congrArg (init ix0 + ·) ?_
  exact Finset.sum_congr rfl fun k _ => congrArg x (lift_last3 _ i j k)

/-- A host maximum over the last axis: the fold of max over the row from the initial value. -/
theorem reduceMax_last3 {m a b : ℕ} {φ : FTy} (x : FVec Ideal ⟨3, ![m, a, b]⟩ φ) (init : (⟨0, ![]⟩ : Shape).Idx → Ideal φ)
    (h' : (⟨3, ![m, a, b]⟩ : Shape).ReducesTo [2] ⟨2, ![m, a]⟩) (hu : 0 < (⟨0, ![]⟩ : Shape).numel) (i : Fin m) (j : Fin a) :
    Host.reduce (FloatOps.maximumf (F := Ideal) (φ := φ)) x init h' hu (ix2 i j)
      = (Finset.univ : Finset (Fin b)).fold max (init ix0) (fun k => x (ix3 i j k)) := by
  rw [Host.reduce_eq_fold_single _ x init h' (reduces_last3 m a b) hu, eq_ix0 (Shape.Idx.first hu)]
  have : (x ∘ (reduces_last3 m a b).lift (ix2 i j)) = fun k : Fin b => x (ix3 i j k) :=
    funext fun k => congrArg x (lift_last3 _ i j k)
  rw [this]
  rfl

/-! ## Broadcasts -/

variable {α : Type}

/-- [a, b] to [1, a, b] on axes 1, 2. -/
theorem bcast_ab_1ab {a b : ℕ} (h : (⟨2, ![a, b]⟩ : Shape).BroadcastsInDim ⟨3, ![1, a, b]⟩ ![1, 2])
    (x : (⟨2, ![a, b]⟩ : Shape).Idx → α) (z : Fin 1) (i : Fin a) (j : Fin b) :
    broadcastInDim ⟨3, ![1, a, b]⟩ (no_index ![1, 2]) h x (ix3 z i j) = x (ix2 i j) :=
  broadcastInDim_apply _ h x _ _ fun c => match c with
    | ⟨0, _⟩ => by show i.val = if a = 1 then 0 else i.val; split <;> omega
    | ⟨1, _⟩ => by show j.val = if b = 1 then 0 else j.val; split <;> omega

/-- [m, a] to [m, a, 1] on axes 0, 1. -/
theorem bcast_ma_ma1 {m a : ℕ} (h : (⟨2, ![m, a]⟩ : Shape).BroadcastsInDim ⟨3, ![m, a, 1]⟩ ![0, 1])
    (x : (⟨2, ![m, a]⟩ : Shape).Idx → α) (k : Fin m) (i : Fin a) (z : Fin 1) :
    broadcastInDim ⟨3, ![m, a, 1]⟩ (no_index ![0, 1]) h x (ix3 k i z) = x (ix2 k i) :=
  broadcastInDim_apply _ h x _ _ fun c => match c with
    | ⟨0, _⟩ => by show k.val = if m = 1 then 0 else k.val; split <;> omega
    | ⟨1, _⟩ => by show i.val = if a = 1 then 0 else i.val; split <;> omega

/-- [m, b] to [m, 1, b] on axes 0, 2. -/
theorem bcast_mb_m1b {m b : ℕ} (h : (⟨2, ![m, b]⟩ : Shape).BroadcastsInDim ⟨3, ![m, 1, b]⟩ ![0, 2])
    (x : (⟨2, ![m, b]⟩ : Shape).Idx → α) (k : Fin m) (z : Fin 1) (j : Fin b) :
    broadcastInDim ⟨3, ![m, 1, b]⟩ (no_index ![0, 2]) h x (ix3 k z j) = x (ix2 k j) :=
  broadcastInDim_apply _ h x _ _ fun c => match c with
    | ⟨0, _⟩ => by show k.val = if m = 1 then 0 else k.val; split <;> omega
    | ⟨1, _⟩ => by show j.val = if b = 1 then 0 else j.val; split <;> omega

/-- [b] to [1, 1, b] on axis 2. -/
theorem bcast_b_11b {b : ℕ} (h : (⟨1, ![b]⟩ : Shape).BroadcastsInDim ⟨3, ![1, 1, b]⟩ ![2])
    (x : (⟨1, ![b]⟩ : Shape).Idx → α) (z z' : Fin 1) (j : Fin b) :
    broadcastInDim ⟨3, ![1, 1, b]⟩ (no_index ![2]) h x (ix3 z z' j) = x (ix1 j) :=
  broadcastInDim_apply _ h x _ _ fun c => match c with
    | ⟨0, _⟩ => by show j.val = if b = 1 then 0 else j.val; split <;> omega

/-- [1, a, b] stretched to [m, a, b]. -/
theorem bcast_1ab_mab {m a b : ℕ} (h : (⟨3, ![1, a, b]⟩ : Shape).BroadcastsInDim ⟨3, ![m, a, b]⟩ ![0, 1, 2])
    (x : (⟨3, ![1, a, b]⟩ : Shape).Idx → α) (k : Fin m) (i : Fin a) (j : Fin b) :
    broadcastInDim ⟨3, ![m, a, b]⟩ (no_index ![0, 1, 2]) h x (ix3 k i j) = x (ix3 (0 : Fin 1) i j) :=
  broadcastInDim_apply _ h x _ _ fun c => match c with
    | ⟨0, _⟩ => rfl
    | ⟨1, _⟩ => by show i.val = if a = 1 then 0 else i.val; split <;> omega
    | ⟨2, _⟩ => by show j.val = if b = 1 then 0 else j.val; split <;> omega

/-- [m, a, 1] stretched to [m, a, b]. -/
theorem bcast_ma1_mab {m a b : ℕ} (h : (⟨3, ![m, a, 1]⟩ : Shape).BroadcastsInDim ⟨3, ![m, a, b]⟩ ![0, 1, 2])
    (x : (⟨3, ![m, a, 1]⟩ : Shape).Idx → α) (k : Fin m) (i : Fin a) (j : Fin b) :
    broadcastInDim ⟨3, ![m, a, b]⟩ (no_index ![0, 1, 2]) h x (ix3 k i j) = x (ix3 k i (0 : Fin 1)) :=
  broadcastInDim_apply _ h x _ _ fun c => match c with
    | ⟨0, _⟩ => by show k.val = if m = 1 then 0 else k.val; split <;> omega
    | ⟨1, _⟩ => by show i.val = if a = 1 then 0 else i.val; split <;> omega
    | ⟨2, _⟩ => rfl

/-- [m, 1, b] stretched to [m, a, b]. -/
theorem bcast_m1b_mab {m a b : ℕ} (h : (⟨3, ![m, 1, b]⟩ : Shape).BroadcastsInDim ⟨3, ![m, a, b]⟩ ![0, 1, 2])
    (x : (⟨3, ![m, 1, b]⟩ : Shape).Idx → α) (k : Fin m) (i : Fin a) (j : Fin b) :
    broadcastInDim ⟨3, ![m, a, b]⟩ (no_index ![0, 1, 2]) h x (ix3 k i j) = x (ix3 k (0 : Fin 1) j) :=
  broadcastInDim_apply _ h x _ _ fun c => match c with
    | ⟨0, _⟩ => by show k.val = if m = 1 then 0 else k.val; split <;> omega
    | ⟨1, _⟩ => rfl
    | ⟨2, _⟩ => by show j.val = if b = 1 then 0 else j.val; split <;> omega

/-- [1, 1, b] stretched to [m, a, b]. -/
theorem bcast_11b_mab {m a b : ℕ} (h : (⟨3, ![1, 1, b]⟩ : Shape).BroadcastsInDim ⟨3, ![m, a, b]⟩ ![0, 1, 2])
    (x : (⟨3, ![1, 1, b]⟩ : Shape).Idx → α) (k : Fin m) (i : Fin a) (j : Fin b) :
    broadcastInDim ⟨3, ![m, a, b]⟩ (no_index ![0, 1, 2]) h x (ix3 k i j) = x (ix3 (0 : Fin 1) (0 : Fin 1) j) :=
  broadcastInDim_apply _ h x _ _ fun c => match c with
    | ⟨0, _⟩ => rfl
    | ⟨1, _⟩ => rfl
    | ⟨2, _⟩ => by show j.val = if b = 1 then 0 else j.val; split <;> omega

/-- A scalar broadcast to any shape reads the scalar. -/
theorem bcast_scalar {T : Shape} (h : (⟨0, ![]⟩ : Shape).BroadcastsInDim T ![])
    (x : (⟨0, ![]⟩ : Shape).Idx → α) (j : T.Idx) : broadcastInDim T (no_index ![]) h x j = x ix0 :=
  broadcastInDim_scalar_apply h x j

/-! ## The transpose of the last two axes -/

/-- A stack of matrices, each transposed, reads at (k, j, i) the operand at (k, i, j). -/
theorem transpose_021 {m a b : ℕ} (x : (⟨3, ![m, a, b]⟩ : Shape).Idx → α)
    (h : (⟨3, ![m, a, b]⟩ : Shape).Transposes [0, 2, 1] ⟨3, ![m, b, a]⟩) (k : Fin m) (j : Fin b) (i : Fin a) :
    transpose ⟨3, ![m, b, a]⟩ (no_index [0, 2, 1]) x h (ix3 k j i) = x (ix3 k i j) :=
  transpose_ix3_021_apply x h k j i

end Cert.Bridge.Host

end
-- ==== Proof.HostDots.lean ====
/-
  The reference's five matrix products read at an index written by coordinates, at the extended reals: each is the
  sum over the one contracted axis of the products of the operands' entries.
-/
import proofs.«132337_j89043261980865_2_alg».proof.Proof.Gen.ReferenceIdeal
import Idealize.ShloMosaic.PureOps.Ideal.Laws
import Idealize.ShloMosaic.Lib.ValueIdx

noncomputable section

namespace Cert.Bridge.Host

open Cert.ReferenceIdeal Cert.ReferenceIdeal.Gen Idealize.ShloMosaic Idealize.ShloMosaic.ValueIdx

/-- out(b,n,o) = Σ_i l(b,n,i) · r(o,i): the node features against the first weight. -/
theorem dot_nf_lw (l : FVec Ideal S16x1024x512 .f32) (r : FVec Ideal S512x512 .f32) (b : Fin 16) (n : Fin 1024) (o : Fin 512) :
    Host.dotGeneral dot_S16x1024x512_S512x512_S16x1024x512_2_1_01_0_n_n none l r (ix3 b n o)
      = ∑ i : Fin 512, l (ix3 b n i) * r (ix2 o i) := by
  refine (Ideal.dotGeneral_apply dot_S16x1024x512_S512x512_S16x1024x512_2_1_01_0_n_n none .single l r (ix3 b n o)).trans ?_
  refine ((Equiv.sum_comp (contrEquiv1 dot_S16x1024x512_S512x512_S16x1024x512_2_1_01_0_n_n 512 rfl rfl).symm _).symm.trans ?_)
  refine Finset.sum_congr rfl fun i _ => ?_
  congr 1
  · refine congrArg l (funext fun a => Fin.ext ?_)
    match a with
    | ⟨0, _⟩ => rfl
    | ⟨1, _⟩ => rfl
    | ⟨2, _⟩ => exact (DotDims.lhsIdx_val_of_single _ rfl _ _).trans (contrEquiv1_symm_val _ 512 rfl rfl i)
  · refine congrArg r (funext fun a => Fin.ext ?_)
    match a with
    | ⟨0, _⟩ => rfl
    | ⟨1, _⟩ => exact (DotDims.rhsIdx_val_of_single _ rfl _ _).trans (contrEquiv1_symm_val _ 512 rfl rfl i)

/-- out(b,x,g) = Σ_h l(b,x,h) · r(g,h): the normalized features against a square weight. -/
theorem dot_tx_w (l : FVec Ideal S16x512x1024 .f32) (r : FVec Ideal S1024x1024 .f32) (b : Fin 16) (x : Fin 512) (g : Fin 1024) :
    Host.dotGeneral dot_S16x512x1024_S1024x1024_S16x512x1024_2_1_01_0_n_n none l r (ix3 b x g)
      = ∑ h : Fin 1024, l (ix3 b x h) * r (ix2 g h) := by
  refine (Ideal.dotGeneral_apply dot_S16x512x1024_S1024x1024_S16x512x1024_2_1_01_0_n_n none .single l r (ix3 b x g)).trans ?_
  refine ((Equiv.sum_comp (contrEquiv1 dot_S16x512x1024_S1024x1024_S16x512x1024_2_1_01_0_n_n 1024 rfl rfl).symm _).symm.trans ?_)
  refine Finset.sum_congr rfl fun i _ => ?_
  congr 1
  · refine congrArg l (funext fun a => Fin.ext ?_)
    match a with
    | ⟨0, _⟩ => rfl
    | ⟨1, _⟩ => rfl
    | ⟨2, _⟩ => exact (DotDims.lhsIdx_val_of_single _ rfl _ _).trans (contrEquiv1_symm_val _ 1024 rfl rfl i)
  · refine congrArg r (funext fun a => Fin.ext ?_)
    match a with
    | ⟨0, _⟩ => rfl
    | ⟨1, _⟩ => exact (DotDims.rhsIdx_val_of_single _ rfl _ _).trans (contrEquiv1_symm_val _ 1024 rfl rfl i)

/-- out(b,x,y) = Σ_h l(b,x,h) · r(b,y,h): queries against keys, per batch. -/
theorem dot_q_k (l r : FVec Ideal S16x512x1024 .f32) (b : Fin 16) (x y : Fin 512) :
    Host.dotGeneral dot_S16x512x1024_S16x512x1024_S16x512x512_2_2_1_1_0_0 none l r (ix3 b x y)
      = ∑ h : Fin 1024, l (ix3 b x h) * r (ix3 b y h) := by
  refine (Ideal.dotGeneral_apply dot_S16x512x1024_S16x512x1024_S16x512x512_2_2_1_1_0_0 none .single l r (ix3 b x y)).trans ?_
  refine ((Equiv.sum_comp (contrEquiv1 dot_S16x512x1024_S16x512x1024_S16x512x512_2_2_1_1_0_0 1024 rfl rfl).symm _).symm.trans ?_)
  refine Finset.sum_congr rfl fun i _ => ?_
  congr 1
  · refine congrArg l (funext fun a => Fin.ext ?_)
    match a with
    | ⟨0, _⟩ => rfl
    | ⟨1, _⟩ => rfl
    | ⟨2, _⟩ => exact (DotDims.lhsIdx_val_of_single _ rfl _ _).trans (contrEquiv1_symm_val _ 1024 rfl rfl i)
  · refine congrArg r (funext fun a => Fin.ext ?_)
    match a with
    | ⟨0, _⟩ => rfl
    | ⟨1, _⟩ => rfl
    | ⟨2, _⟩ => exact (DotDims.rhsIdx_val_of_single _ rfl _ _).trans (contrEquiv1_symm_val _ 1024 rfl rfl i)

/-- out(b,x,n) = Σ_y l(b,x,y) · r(b,y,n): attention weights against values, per batch. -/
theorem dot_att_v (l : FVec Ideal S16x512x512 .f32) (r : FVec Ideal S16x512x1024 .f32) (b : Fin 16) (x : Fin 512) (n : Fin 1024) :
    Host.dotGeneral dot_S16x512x512_S16x512x1024_S16x512x1024_2_1_1_2_0_0 none l r (ix3 b x n)
      = ∑ y : Fin 512, l (ix3 b x y) * r (ix3 b y n) := by
  refine (Ideal.dotGeneral_apply dot_S16x512x512_S16x512x1024_S16x512x1024_2_1_1_2_0_0 none .single l r (ix3 b x n)).trans ?_
  refine ((Equiv.sum_comp (contrEquiv1 dot_S16x512x512_S16x512x1024_S16x512x1024_2_1_1_2_0_0 512 rfl rfl).symm _).symm.trans ?_)
  refine Finset.sum_congr rfl fun i _ => ?_
  congr 1
  · refine congrArg l (funext fun a => Fin.ext ?_)
    match a with
    | ⟨0, _⟩ => rfl
    | ⟨1, _⟩ => rfl
    | ⟨2, _⟩ => exact (DotDims.lhsIdx_val_of_single _ rfl _ _).trans (contrEquiv1_symm_val _ 512 rfl rfl i)
  · refine congrArg r (funext fun a => Fin.ext ?_)
    match a with
    | ⟨0, _⟩ => rfl
    | ⟨1, _⟩ => exact (DotDims.rhsIdx_val_of_single _ rfl _ _).trans (contrEquiv1_symm_val _ 512 rfl rfl i)
    | ⟨2, _⟩ => rfl

/-- out(b,n,o) = Σ_m l(b,n,m) · r(b,m,o): the normalized adjacency against the transposed intermediate, per batch. -/
theorem dot_wa_t (l : FVec Ideal S16x1024x1024 .f32) (r : FVec Ideal S16x1024x512 .f32) (b : Fin 16) (n : Fin 1024) (o : Fin 512) :
    Host.dotGeneral dot_S16x1024x1024_S16x1024x512_S16x1024x512_2_1_1_2_0_0 none l r (ix3 b n o)
      = ∑ m : Fin 1024, l (ix3 b n m) * r (ix3 b m o) := by
  refine (Ideal.dotGeneral_apply dot_S16x1024x1024_S16x1024x512_S16x1024x512_2_1_1_2_0_0 none .single l r (ix3 b n o)).trans ?_
  refine ((Equiv.sum_comp (contrEquiv1 dot_S16x1024x1024_S16x1024x512_S16x1024x512_2_1_1_2_0_0 1024 rfl rfl).symm _).symm.trans ?_)
  refine Finset.sum_congr rfl fun i _ => ?_
  congr 1
  · refine congrArg l (funext fun a => Fin.ext ?_)
    match a with
    | ⟨0, _⟩ => rfl
    | ⟨1, _⟩ => rfl
    | ⟨2, _⟩ => exact (DotDims.lhsIdx_val_of_single _ rfl _ _).trans (contrEquiv1_symm_val _ 1024 rfl rfl i)
  · refine congrArg r (funext fun a => Fin.ext ?_)
    match a with
    | ⟨0, _⟩ => rfl
    | ⟨1, _⟩ => exact (DotDims.rhsIdx_val_of_single _ rfl _ _).trans (contrEquiv1_symm_val _ 1024 rfl rfl i)
    | ⟨2, _⟩ => rfl

end Cert.Bridge.Host

end
-- ==== Proof.RefBridge1.lean ====
/-
  The reference's projected features and first layer norm, stage by stage, are the specification's: each stage read at an
  index written by coordinates equals the matching function of the specification applied to the stage's inputs read as
  coordinate functions; composed, the reference's normalized features are the specification's.
-/
import proofs.«132337_j89043261980865_2_alg».proof.Proof.RefDefs
import proofs.«132337_j89043261980865_2_alg».proof.Proof.Spec
import proofs.«132337_j89043261980865_2_alg».proof.Proof.ScalarLaws
import proofs.«132337_j89043261980865_2_alg».proof.Proof.HostOps
import proofs.«132337_j89043261980865_2_alg».proof.Proof.HostDots

noncomputable section

namespace Cert.Bridge.Ref

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Bridge Cert.Bridge.Host

/-- An f32 array of the reference at the extended reals. -/
abbrev Arr (s : Shape) : Type := (⟨s, .f32⟩ : BufTy).Contents (Elt Ideal)

/-! ## Pointwise host operations at an index (all by definition) -/

theorem hostExp_apply {s : Shape} {φ : FTy} (x : FVec Ideal s φ) (i : s.Idx) : Host.exp x i = Ideal.exp (x i) := rfl
theorem hostRsqrt_apply {s : Shape} {φ : FTy} (x : FVec Ideal s φ) (i : s.Idx) : Host.rsqrt x i = Ideal.rsqrt (x i) := rfl

/-- The variance's guard at the normalizer `1024 - 0`: it holds, and the normalizer is `1024`. -/
theorem var_guard_1024 (A N : EReal) :
    Scalar.select (FloatOps.cmpf (F := Ideal) (φ := .f32) .ogt
        ((Ideal.ofBits .f32 0x44800000#32 : Ideal .f32) - FloatOps.sitofp (F := Ideal) .f32 (0#32 : BitVec 32))
        (Ideal.ofBits .f32 0x00000000#32))
      (Ideal.div A ((Ideal.ofBits .f32 0x44800000#32 : Ideal .f32) - FloatOps.sitofp (F := Ideal) .f32 (0#32 : BitVec 32))) N
      = Ideal.div A (Ideal.ofBits .f32 0x44800000#32) := by
  show Scalar.select (Ideal.cmp .ogt (Ideal.ofBits .f32 0x44800000#32 - ((((0#32 : BitVec 32).toInt : ℝ)) : EReal))
      (Ideal.ofBits .f32 0x00000000#32))
    (Ideal.div A (Ideal.ofBits .f32 0x44800000#32 - ((((0#32 : BitVec 32).toInt : ℝ)) : EReal))) N = _
  rw [normalizer_1024_pos, normalizer_1024, select_one]

/-! ## The projected features -/

/-- The first projection: the sum over the input channels plus the bias. -/
theorem st_v23_apply (a0 : Arr S16x1024x512) (a2 : Arr S512x512) (a3 : Arr S512) (b : Fin 16) (n : Fin 1024) (o : Fin 512) :
    st_v23 (F := Ideal) a0 a2 a3 (ix3 b n o) = (∑ i, a0 (ix3 b n i) * a2 (ix2 o i)) + a3 (ix1 o) := by
  unfold st_v23
  simp only [addf_apply, dot_nf_lw, bcast_11b_mab, bcast_b_11b]

/-- The leaky ReLU of the projection. -/
theorem st_v24_apply (v23 : Arr S16x1024x512) (b : Fin 16) (n : Fin 1024) (o : Fin 512) :
    st_v24 (F := Ideal) v23 (ix3 b n o) = lk (v23 (ix3 b n o)) := by
  unfold st_v24 lk
  simp only [select_apply, cmpf_apply, mulf_apply, bcast_scalar, constant_apply, id_eq, Ideal.cmpf_def]

/-- The transpose to channel-major. -/
theorem st_v25_apply (v24 : Arr S16x1024x512) (b : Fin 16) (o : Fin 512) (n : Fin 1024) :
    st_v25 (F := Ideal) v24 (ix3 b o n) = v24 (ix3 b n o) := by
  unfold st_v25
  exact transpose_ix3_021_apply v24 _ b o n

/-! ## The first layer norm -/

/-- The mean over the node axis. -/
theorem st_v29_apply (v25 : Arr S16x512x1024) (b : Fin 16) (o : Fin 512) (z : Fin 1) :
    st_v29 (F := Ideal) v25 (ix3 b o z) = rowMean (Ideal.ofBits .f32 0x44800000#32) (fun n => v25 (ix3 b o n)) := by
  unfold st_v29 rowMean
  simp only [hostDivf_apply, bcast_ma_ma1, reduceAdd_last3, bcast_scalar, constant_apply,
    Ideal.ofBits_zero_f32, zero_add]

/-- The variance over the node axis: the guard on the normalizer holds, and the normalizer is the row's length. -/
theorem st_v30_apply (v25 : Arr S16x512x1024) (b : Fin 16) (o : Fin 512) (z : Fin 1) :
    st_v30 (F := Ideal) v25 (ix3 b o z) = rowVar (Ideal.ofBits .f32 0x44800000#32) (fun n => v25 (ix3 b o n)) := by
  unfold st_v30 rowVar rowMean
  simp only [select_apply, hostDivf_apply, cmpf_apply, subf_apply, mulf_apply, sitofp_apply, constantI_apply,
    bcast_ma_ma1, bcast_ma1_mab, reduceAdd_last3, bcast_scalar, constant_apply, id_eq]
  refine (var_guard_1024 _ _).trans ?_
  simp only [Ideal.ofBits_zero_f32, zero_add]

/-- The layer norm's last step over the node axis. -/
theorem st_v43_apply (v25 : Arr S16x512x1024) (v29 v30 : Arr S16x512x1) (a10 a11 : Arr S1024) (b : Fin 16) (o : Fin 512) (n : Fin 1024) :
    st_v43 (F := Ideal) v25 v29 v30 a10 a11 (ix3 b o n)
      = ((v25 (ix3 b o n) - v29 (ix3 b o (0 : Fin 1)))
          * Ideal.rsqrt (v30 (ix3 b o (0 : Fin 1)) + Ideal.ofBits .f32 0x3727C5AC#32)) * a10 (ix1 n) + a11 (ix1 n) := by
  unfold st_v43
  simp only [addf_apply, mulf_apply, subf_apply, hostRsqrt_apply, bcast_ma1_mab, bcast_11b_mab, bcast_b_11b, bcast_scalar,
    constant_apply]

/-! ## The stages composed -/

/-- The projected, activated, transposed features are the specification's. -/
theorem feat_apply (b : Fin 16) (a0 : Arr S16x1024x512) (a2 : Arr S512x512) (a3 : Arr S512) (o : Fin 512) (n : Fin 1024) :
    st_v25 (F := Ideal) (st_v24 (st_v23 a0 a2 a3)) (ix3 b o n)
      = feat (fun n i => a0 (ix3 b n i)) (fun o i => a2 (ix2 o i)) (fun o => a3 (ix1 o)) o n := by
  rw [st_v25_apply, st_v24_apply, st_v23_apply]
  unfold feat
  exact congrArg lk (congrArg (· + a3 (ix1 o)) (Finset.sum_congr rfl fun i _ => mul_comm _ _))

/-- The first layer norm of an array whose rows are known. -/
theorem ln1_apply (b : Fin 16) (X : Arr S16x512x1024) (a10 a11 : Arr S1024) (xf : Fin 512 → Fin 1024 → EReal)
    (hX : ∀ o n, X (ix3 b o n) = xf o n) (o : Fin 512) (n : Fin 1024) :
    st_v43 (F := Ideal) X (st_v29 X) (st_v30 X) a10 a11 (ix3 b o n)
      = lnRow (Ideal.ofBits .f32 0x44800000#32) (xf o) (fun n => a10 (ix1 n)) (fun n => a11 (ix1 n)) n := by
  rw [st_v43_apply, st_v29_apply, st_v30_apply]
  unfold lnRow
  simp only [hX]

/-- The reference's first layer norm of its projected features is the specification's, per batch. -/
theorem ln1_eq (a0 : S16x1024x512.Idx → EReal) (a2 : S512x512.Idx → EReal) (a3 : S512.Idx → EReal) (a10 a11 : S1024.Idx → EReal)
    (b : Fin 16) (o : Fin 512) (n : Fin 1024) :
    st_v43 (F := Ideal) (st_v25 (st_v24 (st_v23 a0 a2 a3))) (st_v29 (st_v25 (st_v24 (st_v23 a0 a2 a3)))) (st_v30 (st_v25 (st_v24 (st_v23 a0 a2 a3)))) a10 a11 (ix3 b o n)
      = Cert.Bridge.tx (fun n i => a0 (ix3 b n i)) (fun o i => a2 (ix2 o i)) (fun o => a3 (ix1 o))
          (fun n => a10 (ix1 n)) (fun n => a11 (ix1 n)) o n := by
  unfold Cert.Bridge.tx
  exact ln1_apply b (st_v25 (st_v24 (st_v23 a0 a2 a3))) a10 a11
    (feat (fun n i => a0 (ix3 b n i)) (fun o i => a2 (ix2 o i)) (fun o => a3 (ix1 o))) (feat_apply b a0 a2 a3) o n

end Cert.Bridge.Ref

end
-- ==== Proof.KernOps.lean ====
/-
  The kernel's non-pointwise vector operations read at an index, at the extended reals: a lane sum and a lane
  maximum as a sum / a fold over the reduced coordinate, a matrix product into a zero accumulator as the sum of
  products over the contracted coordinate, and the layout operations (unit-axis casts, row and column broadcasts)
  as the operand at the corresponding index. One lemma per operation instance of the two kernel bodies.
-/
import proofs.«132337_j89043261980865_2_alg».proof.Proof.Gen.KernelIdeal
import Idealize.ShloMosaic.PureOps.Ideal.Laws
import Idealize.ShloMosaic.Lib.ValueIdx
import Idealize.ShloMosaic.Lib.Pipeline.Value
import Idealize.ShloMosaic.Lib.ValueLayout

set_option maxRecDepth 65536

noncomputable section

namespace Cert.Bridge.K

open Idealize.ShloMosaic Idealize.ShloMosaic.ValueIdx Cert.KernelIdeal Cert.KernelIdeal.Facts₀ Cert.KernelIdeal.Facts

theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl
theorem scalar_ofBits (b : BitVec 32) : Scalar.ofBits (F := Ideal) .f32 b = Ideal.ofBits .f32 b := rfl

/-- The sum over the 1024 lanes of row `o`. -/
theorem rowsum_512x1024 (v : FVec Ideal S512x1024 .f32) (h : S512x1024.Reduces [1] S512) (hφ : FTy.f32 = FTy.f32 ∨ FTy.f32 = FTy.bf16)
    (hacc : (0x00000000#32 : BitVec 32) = 0x00000000#32) (o : Fin 512) :
    multiReduction .add (no_index [1]) S512 v 0x00000000#32 h hφ hacc (ix1 o) = ∑ n : Fin 1024, v (ix2 o n) := by
  refine (Ideal.multiReduction_add_single v 0x00000000#32 h hφ hacc (ix1 o)).trans ?_
  refine Finset.sum_congr rfl fun k _ => congrArg v ?_
  funext a; match a with | ⟨0,_⟩ => rfl | ⟨1,_⟩ => rfl

/-- The sum over the 512 lanes of row `o`. -/
theorem rowsum_512x512 (v : FVec Ideal S512x512 .f32) (h : S512x512.Reduces [1] S512) (hφ : FTy.f32 = FTy.f32 ∨ FTy.f32 = FTy.bf16)
    (hacc : (0x00000000#32 : BitVec 32) = 0x00000000#32) (o : Fin 512) :
    multiReduction .add (no_index [1]) S512 v 0x00000000#32 h hφ hacc (ix1 o) = ∑ n : Fin 512, v (ix2 o n) := by
  refine (Ideal.multiReduction_add_single v 0x00000000#32 h hφ hacc (ix1 o)).trans ?_
  refine Finset.sum_congr rfl fun k _ => congrArg v ?_
  funext a; match a with | ⟨0,_⟩ => rfl | ⟨1,_⟩ => rfl

/-- The sum over the 1024 lanes of row `o`. -/
theorem rowsum_1024x1024 (v : FVec Ideal S1024x1024 .f32) (h : S1024x1024.Reduces [1] S1024) (hφ : FTy.f32 = FTy.f32 ∨ FTy.f32 = FTy.bf16)
    (hacc : (0x00000000#32 : BitVec 32) = 0x00000000#32) (o : Fin 1024) :
    multiReduction .add (no_index [1]) S1024 v 0x00000000#32 h hφ hacc (ix1 o) = ∑ n : Fin 1024, v (ix2 o n) := by
  refine (Ideal.multiReduction_add_single v 0x00000000#32 h hφ hacc (ix1 o)).trans ?_
  refine Finset.sum_congr rfl fun k _ => congrArg v ?_
  funext a; match a with | ⟨0,_⟩ => rfl | ⟨1,_⟩ => rfl

/-- The sum over the 512 lanes of row `o`. -/
theorem rowsum_1024x512 (v : FVec Ideal S1024x512 .f32) (h : S1024x512.Reduces [1] S1024) (hφ : FTy.f32 = FTy.f32 ∨ FTy.f32 = FTy.bf16)
    (hacc : (0x00000000#32 : BitVec 32) = 0x00000000#32) (o : Fin 1024) :
    multiReduction .add (no_index [1]) S1024 v 0x00000000#32 h hφ hacc (ix1 o) = ∑ n : Fin 512, v (ix2 o n) := by
  refine (Ideal.multiReduction_add_single v 0x00000000#32 h hφ hacc (ix1 o)).trans ?_
  refine Finset.sum_congr rfl fun k _ => congrArg v ?_
  funext a; match a with | ⟨0,_⟩ => rfl | ⟨1,_⟩ => rfl

/-- The maximum over the 512 lanes of row `o`, from the accumulator's pattern. -/
theorem rowmax_512x512 (v : FVec Ideal S512x512 .f32) (h : S512x512.Reduces [1] S512) (hφ : FTy.f32 = FTy.f32 ∨ FTy.f32 = FTy.bf16)
    (hacc : (0xFF800000#32 : BitVec 32) = 0xFF800000#32) (o : Fin 512) :
    multiReduction .maximumf (no_index [1]) S512 v 0xFF800000#32 h hφ hacc (ix1 o)
      = Finset.univ.fold max (Ideal.ofBits .f32 0xFF800000#32) (fun y : Fin 512 => v (ix2 o y)) := by
  refine (Ideal.multiReduction_maximumf_single v 0xFF800000#32 h hφ hacc (ix1 o)).trans ?_
  have e : (v ∘ h.lift (ix1 o)) = fun y : Fin 512 => v (ix2 o y) := by
    funext k; refine congrArg v ?_; funext a; match a with | ⟨0,_⟩ => rfl | ⟨1,_⟩ => rfl
  rw [e]; rfl

theorem cast_512_512x1 {α : Type} (v : S512.Idx → α) (h : S512.ShapeCasts S512x1) (o : Fin 512) (z : Fin 1) :
    shapeCast S512x1 v h (ix2 o z) = v (ix1 o) := by
  refine shapeCast_apply v h (ix2 o z) (ix1 o) ?_
  rw [Shape.rowMajor_val_one, Shape.rowMajor_val_two]
  show o.val = o.val * 1 + z.val
  omega

theorem cast_1024_1024x1 {α : Type} (v : S1024.Idx → α) (h : S1024.ShapeCasts S1024x1) (o : Fin 1024) (z : Fin 1) :
    shapeCast S1024x1 v h (ix2 o z) = v (ix1 o) := by
  refine shapeCast_apply v h (ix2 o z) (ix1 o) ?_
  rw [Shape.rowMajor_val_one, Shape.rowMajor_val_two]
  show o.val = o.val * 1 + z.val
  omega

theorem cast_1024_1x1024 {α : Type} (v : S1024.Idx → α) (h : S1024.ShapeCasts S1x1024) (u : Fin 1) (n : Fin 1024) :
    shapeCast S1x1024 v h (ix2 u n) = v (ix1 n) :=
  shapeCast_a_1a_apply v h u n

theorem cast_512_1x512 {α : Type} (v : S512.Idx → α) (h : S512.ShapeCasts S1x512) (u : Fin 1) (n : Fin 512) :
    shapeCast S1x512 v h (ix2 u n) = v (ix1 n) :=
  shapeCast_a_1a_apply v h u n

theorem cast_1x1024x512_1024x512 {α : Type} (v : S1x1024x512.Idx → α) (h : S1x1024x512.ShapeCasts S1024x512) (i : Fin 1024) (j : Fin 512) :
    shapeCast S1024x512 v h (ix2 i j) = v (ix3 (0 : Fin 1) i j) :=
  shapeCast_1ab_ab_apply v h i j

theorem cast_1x1024x1024_1024x1024 {α : Type} (v : S1x1024x1024.Idx → α) (h : S1x1024x1024.ShapeCasts S1024x1024) (i : Fin 1024) (j : Fin 1024) :
    shapeCast S1024x1024 v h (ix2 i j) = v (ix3 (0 : Fin 1) i j) :=
  shapeCast_1ab_ab_apply v h i j

theorem cast_1x512x1024_512x1024 {α : Type} (v : S1x512x1024.Idx → α) (h : S1x512x1024.ShapeCasts S512x1024) (i : Fin 512) (j : Fin 1024) :
    shapeCast S512x1024 v h (ix2 i j) = v (ix3 (0 : Fin 1) i j) :=
  shapeCast_1ab_ab_apply v h i j

theorem cast_512x1024_1x512x1024 {α : Type} (v : S512x1024.Idx → α) (h : S512x1024.ShapeCasts S1x512x1024) (u : Fin 1) (i : Fin 512) (j : Fin 1024) :
    shapeCast S1x512x1024 v h (ix3 u i j) = v (ix2 i j) :=
  shapeCast_ab_1ab_apply v h u i j

theorem cast_1024x512_1x1024x512 {α : Type} (v : S1024x512.Idx → α) (h : S1024x512.ShapeCasts S1x1024x512) (u : Fin 1) (i : Fin 1024) (j : Fin 512) :
    shapeCast S1x1024x512 v h (ix3 u i j) = v (ix2 i j) :=
  shapeCast_ab_1ab_apply v h u i j

theorem cast_512x512_self {α : Type} (v : S512x512.Idx → α) (h : S512x512.ShapeCasts S512x512) :
    shapeCast S512x512 v h = v :=
  shapeCast_self v h

theorem cast_1024x1024_self {α : Type} (v : S1024x1024.Idx → α) (h : S1024x1024.ShapeCasts S1024x1024) :
    shapeCast S1024x1024 v h = v :=
  shapeCast_self v h

/-- A column broadcast along the rows' lanes. -/
theorem bcast_512x1_512x1024 {α : Type} (v : S512x1.Idx → α) (h : S512x1.Broadcasts S512x1024) (o : Fin 512) (n : Fin 1024) :
    broadcastTo S512x1024 v h (ix2 o n) = v (ix2 o (0 : Fin 1)) := by
  refine broadcastTo_apply v h (ix2 o n) (ix2 o (0 : Fin 1)) fun a => ?_
  match a with | ⟨0,_⟩ => rfl | ⟨1,_⟩ => rfl

/-- A column broadcast along the rows' lanes. -/
theorem bcast_512x1_512x512 {α : Type} (v : S512x1.Idx → α) (h : S512x1.Broadcasts S512x512) (o : Fin 512) (n : Fin 512) :
    broadcastTo S512x512 v h (ix2 o n) = v (ix2 o (0 : Fin 1)) := by
  refine broadcastTo_apply v h (ix2 o n) (ix2 o (0 : Fin 1)) fun a => ?_
  match a with | ⟨0,_⟩ => rfl | ⟨1,_⟩ => rfl

/-- A column broadcast along the rows' lanes. -/
theorem bcast_1024x1_1024x1024 {α : Type} (v : S1024x1.Idx → α) (h : S1024x1.Broadcasts S1024x1024) (o : Fin 1024) (n : Fin 1024) :
    broadcastTo S1024x1024 v h (ix2 o n) = v (ix2 o (0 : Fin 1)) := by
  refine broadcastTo_apply v h (ix2 o n) (ix2 o (0 : Fin 1)) fun a => ?_
  match a with | ⟨0,_⟩ => rfl | ⟨1,_⟩ => rfl

/-- A column broadcast along the rows' lanes. -/
theorem bcast_1024x1_1024x512 {α : Type} (v : S1024x1.Idx → α) (h : S1024x1.Broadcasts S1024x512) (o : Fin 1024) (n : Fin 512) :
    broadcastTo S1024x512 v h (ix2 o n) = v (ix2 o (0 : Fin 1)) := by
  refine broadcastTo_apply v h (ix2 o n) (ix2 o (0 : Fin 1)) fun a => ?_
  match a with | ⟨0,_⟩ => rfl | ⟨1,_⟩ => rfl

/-- One row broadcast over the 512 rows. -/
theorem bcast_1x1024_512x1024 {α : Type} (v : S1x1024.Idx → α) (h : S1x1024.Broadcasts S512x1024) (o : Fin 512) (n : Fin 1024) :
    broadcastTo S512x1024 v h (ix2 o n) = v (ix2 (0 : Fin 1) n) :=
  broadcastTo_1b_ab_apply v h o n

/-- One row broadcast over the 1024 rows. -/
theorem bcast_1x1024_1024x1024 {α : Type} (v : S1x1024.Idx → α) (h : S1x1024.Broadcasts S1024x1024) (o : Fin 1024) (n : Fin 1024) :
    broadcastTo S1024x1024 v h (ix2 o n) = v (ix2 (0 : Fin 1) n) :=
  broadcastTo_1b_ab_apply v h o n

/-- One row broadcast over the 1024 rows. -/
theorem bcast_1x512_1024x512 {α : Type} (v : S1x512.Idx → α) (h : S1x512.Broadcasts S1024x512) (o : Fin 1024) (n : Fin 512) :
    broadcastTo S1024x512 v h (ix2 o n) = v (ix2 (0 : Fin 1) n) :=
  broadcastTo_1b_ab_apply v h o n

/-- A matrix product contracting the last axis of both operands, into the zero accumulator. -/
theorem mm_feat (l : FVec Ideal S512x512 .bf16) (r : FVec Ideal S1024x512 .bf16) (p : Fin 512) (q : Fin 1024) :
    matmul dot_S512x512_S1024x512_S512x1024_1_1_0_0_n_n none l r (constant S512x1024 .f32 0x00000000#32) (ix2 p q)
      = ∑ k : Fin 512, l (ix2 p k) * r (ix2 q k) := by
  refine (Ideal.matmul_constant_zero_apply dot_S512x512_S1024x512_S512x1024_1_1_0_0_n_n none l r (ix2 p q)).trans ?_
  refine ((Equiv.sum_comp (contrEquiv1 dot_S512x512_S1024x512_S512x1024_1_1_0_0_n_n 512 rfl rfl).symm _).symm.trans ?_)
  refine Finset.sum_congr rfl fun i _ => ?_
  congr 1
  · refine congrArg l (funext fun a => Fin.ext ?_)
    match a with
    | ⟨0,_⟩ => rfl
    | ⟨1,_⟩ => exact (DotDims.lhsIdx_val_of_single _ rfl _ _).trans (contrEquiv1_symm_val _ 512 rfl rfl i)
  · refine congrArg r (funext fun a => Fin.ext ?_)
    match a with
    | ⟨0,_⟩ => rfl
    | ⟨1,_⟩ => exact (DotDims.rhsIdx_val_of_single _ rfl _ _).trans (contrEquiv1_symm_val _ 512 rfl rfl i)

/-- A matrix product contracting the last axis of both operands, into the zero accumulator. -/
theorem mm_proj (l : FVec Ideal S512x1024 .bf16) (r : FVec Ideal S1024x1024 .bf16) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  refine (Ideal.matmul_constant_zero_apply dot_S512x1024_S1024x1024_S512x1024_1_1_0_0_n_n none l r (ix2 p q)).trans ?_
  refine ((Equiv.sum_comp (contrEquiv1 dot_S512x1024_S1024x1024_S512x1024_1_1_0_0_n_n 1024 rfl rfl).symm _).symm.trans ?_)
  refine Finset.sum_congr rfl fun i _ => ?_
  congr 1
  · refine congrArg l (funext fun a => Fin.ext ?_)
    match a with
    | ⟨0,_⟩ => rfl
    | ⟨1,_⟩ => exact (DotDims.lhsIdx_val_of_single _ rfl _ _).trans (contrEquiv1_symm_val _ 1024 rfl rfl i)
  · refine congrArg r (funext fun a => Fin.ext ?_)
    match a with
    | ⟨0,_⟩ => rfl
    | ⟨1,_⟩ => exact (DotDims.rhsIdx_val_of_single _ rfl _ _).trans (contrEquiv1_symm_val _ 1024 rfl rfl i)

/-- A matrix product contracting the last axis of both operands, into the zero accumulator. -/
theorem mm_logit (l : FVec Ideal S512x1024 .bf16) (r : FVec Ideal S512x1024 .bf16) (p : Fin 512) (q : Fin 512) :
    matmul dot_S512x1024_S512x1024_S512x512_1_1_0_0_n_n none l r (constant S512x512 .f32 0x00000000#32) (ix2 p q)
      = ∑ k : Fin 1024, l (ix2 p k) * r (ix2 q k) := by
  refine (Ideal.matmul_constant_zero_apply dot_S512x1024_S512x1024_S512x512_1_1_0_0_n_n none l r (ix2 p q)).trans ?_
  refine ((Equiv.sum_comp (contrEquiv1 dot_S512x1024_S512x1024_S512x512_1_1_0_0_n_n 1024 rfl rfl).symm _).symm.trans ?_)
  refine Finset.sum_congr rfl fun i _ => ?_
  congr 1
  · refine congrArg l (funext fun a => Fin.ext ?_)
    match a with
    | ⟨0,_⟩ => rfl
    | ⟨1,_⟩ => exact (DotDims.lhsIdx_val_of_single _ rfl _ _).trans (contrEquiv1_symm_val _ 1024 rfl rfl i)
  · refine congrArg r (funext fun a => Fin.ext ?_)
    match a with
    | ⟨0,_⟩ => rfl
    | ⟨1,_⟩ => exact (DotDims.rhsIdx_val_of_single _ rfl _ _).trans (contrEquiv1_symm_val _ 1024 rfl rfl i)

/-- A matrix product contracting the last axis of both operands, into the zero accumulator. -/
theorem mm_prop (l : FVec Ideal S1024x1024 .bf16) (r : FVec Ideal S512x1024 .bf16) (p : Fin 1024) (q : Fin 512) :
    matmul dot_S1024x1024_S512x1024_S1024x512_1_1_0_0_n_n none l r (constant S1024x512 .f32 0x00000000#32) (ix2 p q)
      = ∑ k : Fin 1024, l (ix2 p k) * r (ix2 q k) := by
  refine (Ideal.matmul_constant_zero_apply dot_S1024x1024_S512x1024_S1024x512_1_1_0_0_n_n none l r (ix2 p q)).trans ?_
  refine ((Equiv.sum_comp (contrEquiv1 dot_S1024x1024_S512x1024_S1024x512_1_1_0_0_n_n 1024 rfl rfl).symm _).symm.trans ?_)
  refine Finset.sum_congr rfl fun i _ => ?_
  congr 1
  · refine congrArg l (funext fun a => Fin.ext ?_)
    match a with
    | ⟨0,_⟩ => rfl
    | ⟨1,_⟩ => exact (DotDims.lhsIdx_val_of_single _ rfl _ _).trans (contrEquiv1_symm_val _ 1024 rfl rfl i)
  · refine congrArg r (funext fun a => Fin.ext ?_)
    match a with
    | ⟨0,_⟩ => rfl
    | ⟨1,_⟩ => exact (DotDims.rhsIdx_val_of_single _ rfl _ _).trans (contrEquiv1_symm_val _ 1024 rfl rfl i)

/-- A plain matrix product (rows by columns), into the zero accumulator. -/
theorem mm_av (l : FVec Ideal S512x512 .bf16) (r : FVec Ideal S512x1024 .bf16) (p : Fin 512) (q : Fin 1024) :
    matmul dot_S512x512_S512x1024_S512x1024_1_0_0_1_n_n none l r (constant S512x1024 .f32 0x00000000#32) (ix2 p q)
      = ∑ k : Fin 512, l (ix2 p k) * r (ix2 k q) := by
  refine (Ideal.matmul_constant_zero_apply dot_S512x512_S512x1024_S512x1024_1_0_0_1_n_n none l r (ix2 p q)).trans ?_
  refine ((Equiv.sum_comp (contrEquiv1 dot_S512x512_S512x1024_S512x1024_1_0_0_1_n_n 512 rfl rfl).symm _).symm.trans ?_)
  refine Finset.sum_congr rfl fun i _ => ?_
  congr 1
  · refine congrArg l (funext fun a => Fin.ext ?_)
    match a with
    | ⟨0,_⟩ => rfl
    | ⟨1,_⟩ => exact (DotDims.lhsIdx_val_of_single _ rfl _ _).trans (contrEquiv1_symm_val _ 512 rfl rfl i)
  · refine congrArg r (funext fun a => Fin.ext ?_)
    match a with
    | ⟨0,_⟩ => exact (DotDims.rhsIdx_val_of_single _ rfl _ _).trans (contrEquiv1_symm_val _ 512 rfl rfl i)
    | ⟨1,_⟩ => rfl

end Cert.Bridge.K

end
-- ==== Proof.KernPay0.lean ====
/-
  The first pass's body, read index by index, is the specification's `tx2`.

  Each payload of the body is a composition of vector operations of its operands; read at an index (row `o`,
  lane `n`) every pointwise operation acts on the operands' elements at that index, a lane reduction becomes a sum
  (or a fold of `max`) over the lane coordinate, a matrix product the sum of products over the contracted
  coordinate, and the layout operations move the index.  What is left is, literally, the specification's formula
  of the operands read as coordinate functions.  Rounding to the narrower float format is the identity on the
  extended reals, so the operands of the matrix products are the unrounded values.
-/
import proofs.«132337_j89043261980865_2_alg».proof.Proof.Gen.KernelIdeal.Skeleton
import proofs.«132337_j89043261980865_2_alg».proof.Proof.KernOps
import proofs.«132337_j89043261980865_2_alg».proof.Proof.Spec

set_option maxRecDepth 65536

noncomputable section

namespace Cert.Bridge.K0

open Idealize.ShloMosaic Idealize.ShloMosaic.ValueIdx Cert.KernelIdeal Cert.KernelIdeal.Facts₀ Cert.KernelIdeal.Facts Cert.Bridge

/-- The normalized projected features: layer norm over the lanes of leaky (lw · nfᵀ + lb). -/
theorem pay2_apply (v0 : Vec Ideal S1x1024x512 .f32) (v3 : Vec Ideal S512x512 .bf16) (v5 : Vec Ideal S512 .f32)
    (v15 : Vec Ideal S1024 .f32) (v16 : Vec Ideal S1024 .f32) (o : Fin 512) (n : Fin 1024) :
    Gen.k0_pay2 (F := Ideal) v0 v3 v5 v15 v16 (ix2 o n)
      = tx (fun n i => v0 (ix3 (0 : Fin 1) n i)) (fun o i => v3 (ix2 o i)) (fun o => v5 (ix1 o))
          (fun n => v15 (ix1 n)) (fun n => v16 (ix1 n)) o n := by
  unfold Gen.k0_pay2 tx lnRow rowVar rowMean feat lk
  simp only [addf_apply, mulf_apply, subf_apply, divf_apply, select_apply, cmpf_apply, broadcast_apply, truncf_apply, maximumf_apply, K.rsqrt_apply, K.exp_apply, K.scalar_ofBits,
    K.bcast_512x1_512x1024, K.cast_512_512x1, K.rowsum_512x1024, K.mm_feat, K.cast_1x1024x512_1024x512,
    K.cast_512x512_self, K.bcast_1x1024_512x1024, K.cast_1024_1x1024]
  rfl

/-- Rounding the normalized features to the narrower format changes nothing here. -/
theorem pay3_apply (v0 : Vec Ideal S1x1024x512 .f32) (v3 : Vec Ideal S512x512 .bf16) (v5 : Vec Ideal S512 .f32)
    (v15 : Vec Ideal S1024 .f32) (v16 : Vec Ideal S1024 .f32) (j : S512x1024.Idx) :
    Gen.k0_pay3 (F := Ideal) v0 v3 v5 v15 v16 j = Gen.k0_pay2 (F := Ideal) v0 v3 v5 v15 v16 j := rfl

/-- The value projection through leaky ReLU. -/
theorem pay4_apply (v41 : FVec Ideal S512x1024 .bf16) (v46 : Vec Ideal S1024x1024 .bf16) (v59 : Vec Ideal S1024 .f32)
    (o : Fin 512) (g : Fin 1024) :
    Gen.k0_pay4 (F := Ideal) v41 v46 v59 (ix2 o g)
      = lk (proj (fun o h => v41 (ix2 o h)) (fun g h => v46 (ix2 g h)) (fun g => v59 (ix1 g)) o g) := by
  unfold Gen.k0_pay4 proj lk
  simp only [addf_apply, mulf_apply, subf_apply, divf_apply, select_apply, cmpf_apply, broadcast_apply, truncf_apply, maximumf_apply, K.rsqrt_apply, K.exp_apply, K.scalar_ofBits,
    K.cast_1024x1024_self, K.mm_proj, K.cast_1024_1x1024, K.bcast_1x1024_512x1024]
  rfl

/-- The softmax's numerator: the exponential of the scaled logit minus its row's maximum. -/
theorem pay5_apply (v41 : FVec Ideal S512x1024 .bf16) (v42 : Vec Ideal S1024x1024 .bf16) (v44 : Vec Ideal S1024x1024 .bf16)
    (v49 : Vec Ideal S1024 .f32) (v54 : Vec Ideal S1024 .f32) (x y : Fin 512) :
    Gen.k0_pay5 (F := Ideal) v41 v42 v44 v49 v54 (ix2 x y)
      = Ideal.exp (logit (proj (fun o h => v41 (ix2 o h)) (fun g h => v42 (ix2 g h)) (fun g => v49 (ix1 g)))
            (proj (fun o h => v41 (ix2 o h)) (fun g h => v44 (ix2 g h)) (fun g => v54 (ix1 g))) x y
          - rowMax (logit (proj (fun o h => v41 (ix2 o h)) (fun g h => v42 (ix2 g h)) (fun g => v49 (ix1 g)))
            (proj (fun o h => v41 (ix2 o h)) (fun g h => v44 (ix2 g h)) (fun g => v54 (ix1 g))) x)) := by
  unfold Gen.k0_pay5 logit proj rowMax
  simp only [addf_apply, mulf_apply, subf_apply, divf_apply, select_apply, cmpf_apply, broadcast_apply, truncf_apply, maximumf_apply, K.rsqrt_apply, K.exp_apply, K.scalar_ofBits,
    K.cast_1024x1024_self, K.mm_proj, K.mm_logit, K.cast_1024_1x1024, K.bcast_1x1024_512x1024,
    K.rowmax_512x512, K.cast_512_512x1, K.bcast_512x1_512x512]

/-- The softmax's denominator: the row's sum of the numerators, repeated along the row. -/
theorem pay6_apply (v41 : FVec Ideal S512x1024 .bf16) (v42 : Vec Ideal S1024x1024 .bf16) (v44 : Vec Ideal S1024x1024 .bf16)
    (v49 : Vec Ideal S1024 .f32) (v54 : Vec Ideal S1024 .f32) (x y : Fin 512) :
    Gen.k0_pay6 (F := Ideal) v41 v42 v44 v49 v54 (ix2 x y)
      = ∑ y' : Fin 512, Gen.k0_pay5 (F := Ideal) v41 v42 v44 v49 v54 (ix2 x y') := by
  unfold Gen.k0_pay6
  simp only [K.bcast_512x1_512x512, K.cast_512_512x1, K.rowsum_512x512]

/-- The stored block: the normalized features plus the attention-weighted values. -/
theorem pay1_apply (v40 : FVec Ideal S512x1024 .f32) (v70 : FVec Ideal S512x1024 .bf16) (v80 : FVec Ideal S512x512 .f32)
    (v83 : FVec Ideal S512x512 .f32) (u : Fin 1) (o : Fin 512) (n : Fin 1024) :
    Gen.k0_pay1 (F := Ideal) v40 v70 v80 v83 (ix3 u o n)
      = v40 (ix2 o n) + ∑ y : Fin 512, Ideal.div (v80 (ix2 o y)) (v83 (ix2 o y)) * v70 (ix2 y n) := by
  unfold Gen.k0_pay1
  simp only [addf_apply, mulf_apply, subf_apply, divf_apply, select_apply, cmpf_apply, broadcast_apply, truncf_apply, maximumf_apply, K.rsqrt_apply, K.exp_apply, K.scalar_ofBits, K.cast_512x1024_1x512x1024, K.mm_av]

/-- The first pass's block at (o, n) is the specification's intermediate of the operands' coordinate functions. -/
theorem blk0_apply (x0 : Vec Ideal S1x1024x512 .f32) (x1 : Vec Ideal S512x512 .bf16) (x2 : Vec Ideal S512 .f32)
    (x3 : Vec Ideal S1024 .f32) (x4 : Vec Ideal S1024 .f32) (x5 : Vec Ideal S1024x1024 .bf16) (x6 : Vec Ideal S1024 .f32)
    (x7 : Vec Ideal S1024x1024 .bf16) (x8 : Vec Ideal S1024 .f32) (x9 : Vec Ideal S1024x1024 .bf16) (x10 : Vec Ideal S1024 .f32)
    (u : Fin 1) (o : Fin 512) (n : Fin 1024) :
    Gen.k0_pay1 (F := Ideal) (Gen.k0_pay2 x0 x1 x2 x3 x4) (Gen.k0_pay4 (Gen.k0_pay3 x0 x1 x2 x3 x4) x9 x10)
        (Gen.k0_pay5 (Gen.k0_pay3 x0 x1 x2 x3 x4) x5 x7 x6 x8) (Gen.k0_pay6 (Gen.k0_pay3 x0 x1 x2 x3 x4) x5 x7 x6 x8) (ix3 u o n)
      = tx2 (fun n i => x0 (ix3 (0 : Fin 1) n i)) (fun o i => x1 (ix2 o i)) (fun o => x2 (ix1 o))
          (fun n => x3 (ix1 n)) (fun n => x4 (ix1 n)) (fun g h => x5 (ix2 g h)) (fun g h => x7 (ix2 g h)) (fun g h => x9 (ix2 g h))
          (fun g => x6 (ix1 g)) (fun g => x8 (ix1 g)) (fun g => x10 (ix1 g)) o n := by
  rw [pay1_apply]
  unfold tx2 smRow
  simp only [pay6_apply, pay5_apply, pay4_apply, pay3_apply, pay2_apply]

end Cert.Bridge.K0

end
-- ==== Proof.KernPay1.lean ====
/-
  The second pass's body, read index by index, is the specification's `outB`.

  Row `n` of the weighted adjacency is scaled on the left by the guarded inverse square root of its own row sum
  and on the right, entry by entry, by that of the column's row sum; the propagated features are its product with
  the intermediate (contracting the node axis of both); the result is their layer norm over the channel axis.
-/
import proofs.«132337_j89043261980865_2_alg».proof.Proof.Gen.KernelIdeal.Skeleton
import proofs.«132337_j89043261980865_2_alg».proof.Proof.KernOps
import proofs.«132337_j89043261980865_2_alg».proof.Proof.Spec

set_option maxRecDepth 65536

noncomputable section

namespace Cert.Bridge.K1

open Idealize.ShloMosaic Idealize.ShloMosaic.ValueIdx Cert.KernelIdeal Cert.KernelIdeal.Facts₀ Cert.KernelIdeal.Facts Cert.Bridge

/-- The propagated features: the normalized weighted adjacency times the intermediate. -/
theorem pay2_apply (v0 : Vec Ideal S1x1024x1024 .f32) (v2 : Vec Ideal S1024x1024 .f32) (v22 : Vec Ideal S1x512x1024 .bf16)
    (n : Fin 1024) (o : Fin 512) :
    Gen.k1_pay2 (F := Ideal) v0 v2 v22 (ix2 n o)
      = xp (fun n m => v0 (ix3 (0 : Fin 1) n m)) (fun n m => v2 (ix2 n m)) (fun o m => v22 (ix3 (0 : Fin 1) o m)) n o := by
  unfold Gen.k1_pay2 xp wa wa0 dis
  simp only [addf_apply, mulf_apply, subf_apply, divf_apply, select_apply, cmpf_apply, broadcast_apply, truncf_apply, maximumf_apply, K.rsqrt_apply, K.exp_apply, K.scalar_ofBits,
    K.cast_1x1024x1024_1024x1024, K.cast_1024x1024_self, K.rowsum_1024x1024, K.cast_1024_1024x1, K.bcast_1024x1_1024x1024,
    K.cast_1024_1x1024, K.bcast_1x1024_1024x1024, K.cast_1x512x1024_512x1024, K.mm_prop]
  rfl

/-- The row mean of the propagated features, as a column. -/
theorem pay3_apply (v0 : Vec Ideal S1x1024x1024 .f32) (v2 : Vec Ideal S1024x1024 .f32) (v22 : Vec Ideal S1x512x1024 .bf16)
    (n : Fin 1024) (z : Fin 1) :
    Gen.k1_pay3 (F := Ideal) v0 v2 v22 (ix2 n z)
      = rowMean (Ideal.ofBits .f32 0x44000000#32) (fun o : Fin 512 => Gen.k1_pay2 (F := Ideal) v0 v2 v22 (ix2 n o)) := by
  unfold Gen.k1_pay3 rowMean
  simp only [addf_apply, mulf_apply, subf_apply, divf_apply, select_apply, cmpf_apply, broadcast_apply, truncf_apply, maximumf_apply, K.rsqrt_apply, K.exp_apply, K.scalar_ofBits, K.rowsum_1024x512, K.cast_1024_1024x1]

/-- The row variance of the propagated features, as a column. -/
theorem pay4_apply (v0 : Vec Ideal S1x1024x1024 .f32) (v2 : Vec Ideal S1024x1024 .f32) (v22 : Vec Ideal S1x512x1024 .bf16)
    (n : Fin 1024) (z : Fin 1) :
    Gen.k1_pay4 (F := Ideal) v0 v2 v22 (ix2 n z)
      = rowVar (Ideal.ofBits .f32 0x44000000#32) (fun o : Fin 512 => Gen.k1_pay2 (F := Ideal) v0 v2 v22 (ix2 n o)) := by
  unfold Gen.k1_pay4 rowVar
  simp only [addf_apply, mulf_apply, subf_apply, divf_apply, select_apply, cmpf_apply, broadcast_apply, truncf_apply, maximumf_apply, K.rsqrt_apply, K.exp_apply, K.scalar_ofBits, K.rowsum_1024x512, K.cast_1024_1024x1, K.bcast_1024x1_1024x512, pay3_apply]

/-- The row mean repeated along the row. -/
theorem pay5_apply (v0 : Vec Ideal S1x1024x1024 .f32) (v2 : Vec Ideal S1024x1024 .f32) (v22 : Vec Ideal S1x512x1024 .bf16)
    (n : Fin 1024) (o : Fin 512) :
    Gen.k1_pay5 (F := Ideal) v0 v2 v22 (ix2 n o)
      = rowMean (Ideal.ofBits .f32 0x44000000#32) (fun o : Fin 512 => Gen.k1_pay2 (F := Ideal) v0 v2 v22 (ix2 n o)) := by
  unfold Gen.k1_pay5
  simp only [K.bcast_1024x1_1024x512, pay3_apply]

/-- The stored block: the layer norm's last steps. -/
theorem pay1_apply (v24 : FVec Ideal S1024x512 .f32) (v25 : Vec Ideal S512 .f32) (v26 : Vec Ideal S512 .f32)
    (v37 : FVec Ideal S1024x1 .f32) (v38 : FVec Ideal S1024x512 .f32) (u : Fin 1) (n : Fin 1024) (o : Fin 512) :
    Gen.k1_pay1 (F := Ideal) v24 v25 v26 v37 v38 (ix3 u n o)
      = ((v24 (ix2 n o) - v38 (ix2 n o)) * Ideal.rsqrt (v37 (ix2 n (0 : Fin 1)) + Ideal.ofBits .f32 0x3727C5AC#32)) * v25 (ix1 o)
          + v26 (ix1 o) := by
  unfold Gen.k1_pay1
  simp only [addf_apply, mulf_apply, subf_apply, divf_apply, select_apply, cmpf_apply, broadcast_apply, truncf_apply, maximumf_apply, K.rsqrt_apply, K.exp_apply, K.scalar_ofBits, K.cast_1024x512_1x1024x512, K.bcast_1024x1_1024x512, K.cast_512_1x512, K.bcast_1x512_1024x512]

/-- The second pass's block at (n, o) is the specification's result of the operands' coordinate functions. -/
theorem blk1_apply (x0 : Vec Ideal S1x1024x1024 .f32) (x1 : Vec Ideal S1024x1024 .f32) (x2 : Vec Ideal S1x512x1024 .bf16)
    (x3 : Vec Ideal S512 .f32) (x4 : Vec Ideal S512 .f32) (u : Fin 1) (n : Fin 1024) (o : Fin 512) :
    Gen.k1_pay1 (F := Ideal) (Gen.k1_pay2 x0 x1 x2) x3 x4 (Gen.k1_pay4 x0 x1 x2) (Gen.k1_pay5 x0 x1 x2) (ix3 u n o)
      = outB (fun n m => x0 (ix3 (0 : Fin 1) n m)) (fun n m => x1 (ix2 n m)) (fun o m => x2 (ix3 (0 : Fin 1) o m))
          (fun o => x3 (ix1 o)) (fun o => x4 (ix1 o)) n o := by
  rw [pay1_apply]
  unfold outB lnRow
  simp only [pay4_apply, pay5_apply, pay2_apply]

end Cert.Bridge.K1

end
-- ==== Proof.KernSpec.lean ====
/- The kernel's result read at an index against the specification: at batch b, node n and channel o the kernel's
   result array is the specification's result of the batch's slab of the adjacency, the gated edge weights, the
   batch's intermediate (itself the specification's intermediate of the batch's slab of the node features, the
   weights and the biases) and the closing layer norm's scale and shift. The slabs read through at an index, the
   bf16 casts are the identity on the extended reals, and the host's sigmoid is the edge gate. -/
import proofs.«132337_j89043261980865_2_alg».proof.Proof.KernRun
import proofs.«132337_j89043261980865_2_alg».proof.Proof.Spec
import proofs.«132337_j89043261980865_2_alg».proof.Proof.KernPay0
import proofs.«132337_j89043261980865_2_alg».proof.Proof.KernPay1

set_option maxRecDepth 65536

noncomputable section

namespace Cert.Bridge.KS

open Idealize.ShloMosaic Idealize.ShloMosaic.ValueIdx Cert.KernelIdeal Cert.Bridge
open Cert.KernelIdeal.KernRun (kout outv body0 body1 sl castW sigm)

/-- The host's sigmoid of the edge weights at an index is the edge gate of the element: the broadcast scalars read
    the one pattern everywhere, the quotient, the sum, the exponential and the negation are the extended reals'. -/
theorem sigm_apply (ew : Vec Ideal S1024x1024 .f32) (n m : Fin 1024) :
    sigm (F := Ideal) ew (ix2 n m) = gate (ew (ix2 n m)) := rfl

/-- The intermediate array at batch `b`, channel `o`, node `n`: the specification's intermediate of the batch's
    node features, the weights (their bf16 casts are the identity on the extended reals) and the biases. -/
theorem tx2_apply (a0 : Vec Ideal S16x1024x512 .f32) (a2 : Vec Ideal S512x512 .f32) (a3 : Vec Ideal S512 .f32)
    (a4 : Vec Ideal S1024x1024 .f32) (a5 : Vec Ideal S1024 .f32) (a6 : Vec Ideal S1024x1024 .f32) (a7 : Vec Ideal S1024 .f32)
    (a8 : Vec Ideal S1024x1024 .f32) (a9 a10 a11 : Vec Ideal S1024 .f32) (b : Fin 16) (o : Fin 512) (n : Fin 1024) :
    Cert.KernelIdeal.KernRun.tx2 (F := Ideal) a0 (castW a2) a3 a10 a11 (castW a4) a5 (castW a6) a7 (castW a8) a9 (ix3 b o n)
      = (tx2 (fun n i => a0 (ix3 b n i)) (fun o i => a2 (ix2 o i)) (fun o => a3 (ix1 o)) (fun n => a10 (ix1 n)) (fun n => a11 (ix1 n)) (fun g h => a4 (ix2 g h)) (fun g h => a6 (ix2 g h)) (fun g h => a8 (ix2 g h)) (fun g => a5 (ix1 g)) (fun g => a7 (ix1 g)) (fun g => a9 (ix1 g))) o n := by
  show body0 (F := Ideal) (sl a0 b) (castW a2) a3 a10 a11 (castW a4) a5 (castW a6) a7 (castW a8) a9 (ix3 (0 : Fin 1) o n) = _
  unfold body0
  exact K0.blk0_apply (sl a0 b) (castW a2) a3 a10 a11 (castW a4) a5 (castW a6) a7 (castW a8) a9 (0 : Fin 1) o n

/-- THE KERNEL'S RESULT at batch `b`, node `n`, channel `o`: the specification's result of the batch's adjacency, the
    gated edge weights, the batch's intermediate and the closing layer norm's scale and shift. -/
theorem kout_apply (a0 : Vec Ideal S16x1024x512 .f32) (a1 : Vec Ideal S16x1024x1024 .f32) (a2 : Vec Ideal S512x512 .f32) (a3 : Vec Ideal S512 .f32) (a4 : Vec Ideal S1024x1024 .f32) (a5 : Vec Ideal S1024 .f32) (a6 : Vec Ideal S1024x1024 .f32) (a7 : Vec Ideal S1024 .f32) (a8 : Vec Ideal S1024x1024 .f32) (a9 : Vec Ideal S1024 .f32) (a10 : Vec Ideal S1024 .f32) (a11 : Vec Ideal S1024 .f32) (a12 : Vec Ideal S512 .f32) (a13 : Vec Ideal S512 .f32) (a14 : Vec Ideal S1024x1024 .f32) (b : Fin 16) (n : Fin 1024) (o : Fin 512) :
    kout (F := Ideal) a0 a1 a2 a3 a4 a5 a6 a7 a8 a9 a10 a11 a12 a13 a14 (ix3 b n o)
      = outB (fun n m => a1 (ix3 b n m)) (fun n m => gate (a14 (ix2 n m)))
          (tx2 (fun n i => a0 (ix3 b n i)) (fun o i => a2 (ix2 o i)) (fun o => a3 (ix1 o)) (fun n => a10 (ix1 n)) (fun n => a11 (ix1 n)) (fun g h => a4 (ix2 g h)) (fun g h => a6 (ix2 g h)) (fun g h => a8 (ix2 g h)) (fun g => a5 (ix1 g)) (fun g => a7 (ix1 g)) (fun g => a9 (ix1 g)))
          (fun o => a12 (ix1 o)) (fun o => a13 (ix1 o)) n o := by
  show body1 (F := Ideal) (sl a1 b) (sigm a14) (sl (Cert.KernelIdeal.KernRun.tx2 a0 (castW a2) a3 a10 a11 (castW a4) a5 (castW a6) a7 (castW a8) a9) b) a12 a13 (ix3 (0 : Fin 1) n o) = _
  unfold body1
  refine (K1.blk1_apply (sl a1 b) (sigm a14) (sl (Cert.KernelIdeal.KernRun.tx2 a0 (castW a2) a3 a10 a11 (castW a4) a5 (castW a6) a7 (castW a8) a9) b) a12 a13 (0 : Fin 1) n o).trans ?_
  have hsg : (fun n m : Fin 1024 => sigm (F := Ideal) a14 (ix2 n m)) = fun n m => gate (a14 (ix2 n m)) :=
    funext fun n => funext fun m => sigm_apply a14 n m
  have ht2 : (fun (o : Fin 512) (m : Fin 1024) => Cert.KernelIdeal.KernRun.tx2 (F := Ideal) a0 (castW a2) a3 a10 a11 (castW a4) a5 (castW a6) a7 (castW a8) a9 (ix3 b o m))
      = (tx2 (fun n i => a0 (ix3 b n i)) (fun o i => a2 (ix2 o i)) (fun o => a3 (ix1 o)) (fun n => a10 (ix1 n)) (fun n => a11 (ix1 n)) (fun g h => a4 (ix2 g h)) (fun g h => a6 (ix2 g h)) (fun g h => a8 (ix2 g h)) (fun g => a5 (ix1 g)) (fun g => a7 (ix1 g)) (fun g => a9 (ix1 g))) :=
    funext fun o => funext fun m => tx2_apply a0 a2 a3 a4 a5 a6 a7 a8 a9 a10 a11 b o m
  exact congrArg₂ (fun sg t2 => outB (fun n m => a1 (ix3 b n m)) sg t2 (fun o => a12 (ix1 o)) (fun o => a13 (ix1 o)) n o) hsg ht2

end Cert.Bridge.KS

end
-- ==== Proof.Bridge.lean ====
/-
  The two result terms are one function.

  The reference's result array, read at (b, n, o), is the layer norm over the channels of the propagated features
  (the graph half), whose intermediate is, at (b, o, m), the normalized projected features plus their channel
  attention (the attention half, itself the first layer norm followed by the projections, the softmax and the mix).
  The kernel's result array, read at (b, n, o), is the second pass's body on the batch-b slabs, whose intermediate
  operand is the first pass's body on the batch-b slab.  Both are `outB … (tx2 …)` of the same coordinate functions
  of the fifteen argument arrays, so the arrays are equal index by index.
-/
import proofs.«132337_j89043261980865_2_alg».proof.Proof.RefDefs
import proofs.«132337_j89043261980865_2_alg».proof.Proof.RefBridgeG
import proofs.«132337_j89043261980865_2_alg».proof.Proof.RefBridgeA
import proofs.«132337_j89043261980865_2_alg».proof.Proof.RefBridge1
import proofs.«132337_j89043261980865_2_alg».proof.Proof.KernSpec
import proofs.«132337_j89043261980865_2_alg».proof.Proof.Spec

noncomputable section

namespace Cert.Bridge

open Idealize.ShloMosaic Idealize.ShloMosaic.ValueIdx Cert.ReferenceIdeal Cert.ReferenceIdeal.RefRun

/-- The reference's first layer norm, as a closed function of the arguments, is the specification's `tx`. -/
theorem r_v43_apply (a0 : (⟨S16x1024x512, .f32⟩ : BufTy).Contents (Elt Ideal)) (a1 : (⟨S16x1024x1024, .f32⟩ : BufTy).Contents (Elt Ideal)) (a2 : (⟨S512x512, .f32⟩ : BufTy).Contents (Elt Ideal)) (a3 : (⟨S512, .f32⟩ : BufTy).Contents (Elt Ideal)) (a4 : (⟨S1024x1024, .f32⟩ : BufTy).Contents (Elt Ideal)) (a5 : (⟨S1024, .f32⟩ : BufTy).Contents (Elt Ideal)) (a6 : (⟨S1024x1024, .f32⟩ : BufTy).Contents (Elt Ideal)) (a7 : (⟨S1024, .f32⟩ : BufTy).Contents (Elt Ideal)) (a8 : (⟨S1024x1024, .f32⟩ : BufTy).Contents (Elt Ideal)) (a9 : (⟨S1024, .f32⟩ : BufTy).Contents (Elt Ideal)) (a10 : (⟨S1024, .f32⟩ : BufTy).Contents (Elt Ideal)) (a11 : (⟨S1024, .f32⟩ : BufTy).Contents (Elt Ideal)) (a12 : (⟨S512, .f32⟩ : BufTy).Contents (Elt Ideal)) (a13 : (⟨S512, .f32⟩ : BufTy).Contents (Elt Ideal)) (a14 : (⟨S1024x1024, .f32⟩ : BufTy).Contents (Elt Ideal)) (b : Fin 16) (o : Fin 512) (h : Fin 1024) :
    r_v43 (F := Ideal) a0 a1 a2 a3 a4 a5 a6 a7 a8 a9 a10 a11 a12 a13 a14 (ix3 b o h) = (tx (fun n i => a0 (ix3 b n i)) (fun o i => a2 (ix2 o i)) (fun o => a3 (ix1 o)) (fun n => a10 (ix1 n)) (fun n => a11 (ix1 n))) o h :=
  Ref.ln1_eq a0 a2 a3 a10 a11 b o h

/-- The reference's intermediate (normalized features plus attention) is the specification's `tx2`. -/
theorem r_v72_apply (a0 : (⟨S16x1024x512, .f32⟩ : BufTy).Contents (Elt Ideal)) (a1 : (⟨S16x1024x1024, .f32⟩ : BufTy).Contents (Elt Ideal)) (a2 : (⟨S512x512, .f32⟩ : BufTy).Contents (Elt Ideal)) (a3 : (⟨S512, .f32⟩ : BufTy).Contents (Elt Ideal)) (a4 : (⟨S1024x1024, .f32⟩ : BufTy).Contents (Elt Ideal)) (a5 : (⟨S1024, .f32⟩ : BufTy).Contents (Elt Ideal)) (a6 : (⟨S1024x1024, .f32⟩ : BufTy).Contents (Elt Ideal)) (a7 : (⟨S1024, .f32⟩ : BufTy).Contents (Elt Ideal)) (a8 : (⟨S1024x1024, .f32⟩ : BufTy).Contents (Elt Ideal)) (a9 : (⟨S1024, .f32⟩ : BufTy).Contents (Elt Ideal)) (a10 : (⟨S1024, .f32⟩ : BufTy).Contents (Elt Ideal)) (a11 : (⟨S1024, .f32⟩ : BufTy).Contents (Elt Ideal)) (a12 : (⟨S512, .f32⟩ : BufTy).Contents (Elt Ideal)) (a13 : (⟨S512, .f32⟩ : BufTy).Contents (Elt Ideal)) (a14 : (⟨S1024x1024, .f32⟩ : BufTy).Contents (Elt Ideal)) (b : Fin 16) (o : Fin 512) (n : Fin 1024) :
    r_v72 (F := Ideal) a0 a1 a2 a3 a4 a5 a6 a7 a8 a9 a10 a11 a12 a13 a14 (ix3 b o n) = (tx2 (fun n i => a0 (ix3 b n i)) (fun o i => a2 (ix2 o i)) (fun o => a3 (ix1 o)) (fun n => a10 (ix1 n)) (fun n => a11 (ix1 n))
            (fun g h => a4 (ix2 g h)) (fun g h => a6 (ix2 g h)) (fun g h => a8 (ix2 g h)) (fun g => a5 (ix1 g)) (fun g => a7 (ix1 g)) (fun g => a9 (ix1 g))) o n := by
  refine (RefA.attn_eq (r_v43 (F := Ideal) a0 a1 a2 a3 a4 a5 a6 a7 a8 a9 a10 a11 a12 a13 a14) a4 a5 a6 a7 a8 a9 b o n).trans ?_
  unfold tx2
  simp only [r_v43_apply]

/-- The reference's result at (b, n, o). -/
theorem result_apply (a0 : (⟨S16x1024x512, .f32⟩ : BufTy).Contents (Elt Ideal)) (a1 : (⟨S16x1024x1024, .f32⟩ : BufTy).Contents (Elt Ideal)) (a2 : (⟨S512x512, .f32⟩ : BufTy).Contents (Elt Ideal)) (a3 : (⟨S512, .f32⟩ : BufTy).Contents (Elt Ideal)) (a4 : (⟨S1024x1024, .f32⟩ : BufTy).Contents (Elt Ideal)) (a5 : (⟨S1024, .f32⟩ : BufTy).Contents (Elt Ideal)) (a6 : (⟨S1024x1024, .f32⟩ : BufTy).Contents (Elt Ideal)) (a7 : (⟨S1024, .f32⟩ : BufTy).Contents (Elt Ideal)) (a8 : (⟨S1024x1024, .f32⟩ : BufTy).Contents (Elt Ideal)) (a9 : (⟨S1024, .f32⟩ : BufTy).Contents (Elt Ideal)) (a10 : (⟨S1024, .f32⟩ : BufTy).Contents (Elt Ideal)) (a11 : (⟨S1024, .f32⟩ : BufTy).Contents (Elt Ideal)) (a12 : (⟨S512, .f32⟩ : BufTy).Contents (Elt Ideal)) (a13 : (⟨S512, .f32⟩ : BufTy).Contents (Elt Ideal)) (a14 : (⟨S1024x1024, .f32⟩ : BufTy).Contents (Elt Ideal)) (b : Fin 16) (n : Fin 1024) (o : Fin 512) :
    result (F := Ideal) a0 a1 a2 a3 a4 a5 a6 a7 a8 a9 a10 a11 a12 a13 a14 (ix3 b n o)
      = outB (fun n m => a1 (ix3 b n m)) (fun n m => gate (a14 (ix2 n m))) (tx2 (fun n i => a0 (ix3 b n i)) (fun o i => a2 (ix2 o i)) (fun o => a3 (ix1 o)) (fun n => a10 (ix1 n)) (fun n => a11 (ix1 n))
            (fun g h => a4 (ix2 g h)) (fun g h => a6 (ix2 g h)) (fun g h => a8 (ix2 g h)) (fun g => a5 (ix1 g)) (fun g => a7 (ix1 g)) (fun g => a9 (ix1 g)))
          (fun o => a12 (ix1 o)) (fun o => a13 (ix1 o)) n o := by
  refine (RefG.graph_eq a1 a14 (r_v72 (F := Ideal) a0 a1 a2 a3 a4 a5 a6 a7 a8 a9 a10 a11 a12 a13 a14) a12 a13 b n o).trans ?_
  refine congrArg (fun t2 => outB (fun n m => a1 (ix3 b n m)) (fun n m => gate (a14 (ix2 n m))) t2
    (fun o => a12 (ix1 o)) (fun o => a13 (ix1 o)) n o) ?_
  funext o' m
  exact r_v72_apply a0 a1 a2 a3 a4 a5 a6 a7 a8 a9 a10 a11 a12 a13 a14 b o' m

/-- The reference's result array is the kernel's result array. -/
theorem result_eq_kout (a0 : (⟨S16x1024x512, .f32⟩ : BufTy).Contents (Elt Ideal)) (a1 : (⟨S16x1024x1024, .f32⟩ : BufTy).Contents (Elt Ideal)) (a2 : (⟨S512x512, .f32⟩ : BufTy).Contents (Elt Ideal)) (a3 : (⟨S512, .f32⟩ : BufTy).Contents (Elt Ideal)) (a4 : (⟨S1024x1024, .f32⟩ : BufTy).Contents (Elt Ideal)) (a5 : (⟨S1024, .f32⟩ : BufTy).Contents (Elt Ideal)) (a6 : (⟨S1024x1024, .f32⟩ : BufTy).Contents (Elt Ideal)) (a7 : (⟨S1024, .f32⟩ : BufTy).Contents (Elt Ideal)) (a8 : (⟨S1024x1024, .f32⟩ : BufTy).Contents (Elt Ideal)) (a9 : (⟨S1024, .f32⟩ : BufTy).Contents (Elt Ideal)) (a10 : (⟨S1024, .f32⟩ : BufTy).Contents (Elt Ideal)) (a11 : (⟨S1024, .f32⟩ : BufTy).Contents (Elt Ideal)) (a12 : (⟨S512, .f32⟩ : BufTy).Contents (Elt Ideal)) (a13 : (⟨S512, .f32⟩ : BufTy).Contents (Elt Ideal)) (a14 : (⟨S1024x1024, .f32⟩ : BufTy).Contents (Elt Ideal)) :
    result (F := Ideal) a0 a1 a2 a3 a4 a5 a6 a7 a8 a9 a10 a11 a12 a13 a14 = Cert.KernelIdeal.KernRun.kout (F := Ideal) a0 a1 a2 a3 a4 a5 a6 a7 a8 a9 a10 a11 a12 a13 a14 := by
  funext i
  obtain ⟨b, n, o, rfl⟩ : ∃ (b : Fin 16) (n : Fin 1024) (o : Fin 512), i = ix3 b n o := ⟨i 0, i 1, i 2, eq_ix3 i⟩
  rw [result_apply]
  exact (KS.kout_apply a0 a1 a2 a3 a4 a5 a6 a7 a8 a9 a10 a11 a12 a13 a14 b n o).symm

end Cert.Bridge

end
-- ==== Proof.lean ====
/-
  The certificate's claims.

  The three frames: the word-level kernel and the idealized kernel each run (every weakly fair execution terminates,
  nothing faults) and leave their argument arrays unchanged — the frame certificates of the two programs —, and so
  does the idealized reference, whose run is read back operation by operation (its result named as a closed term of
  the fifteen arguments) and then forgotten down to the arguments.

  The idealization rewrote no operation, so `preserves` has nothing to state.

  The algebraic claim.  On the extended reals a change of float format is the identity, so both programs compute, for
  every batch b, node n and channel o, the same number: the layer norm over the channels of
    Σ_m wa b n m · tx2 b o m,
  where wa is the adjacency weighted by the logistic edge gate and scaled on both sides by the guarded inverse
  square root of its row sums, and tx2 is the layer-normalized projected features plus their channel self-attention.
  The kernel computes it batch by batch in two passes (the first leaves tx2 as an intermediate array, the second
  reads it); the reference computes all batches at once.  Each side's result array is read index by index as that
  one function (`Cert.Bridge.outB` of `Cert.Bridge.tx2`); the only places where the two spellings differ in more
  than layout are the guarded inverse square root (a comparison with 0 and rsqrt on one side, the real power -1/2
  with infinite values replaced by 0 on the other: equal on every extended real), the variance's normalizer
  (N on one side, N - 0 under a positivity test on the other), the order of the two factors in the first projection,
  and the explicit zero the reference's sums start from.
-/
import proofs.«132337_j89043261980865_2_alg».proof.Proof.Gen.Kernel
import proofs.«132337_j89043261980865_2_alg».proof.Proof.Gen.Kernel.Frame
import proofs.«132337_j89043261980865_2_alg».proof.Proof.Gen.KernelIdeal
import proofs.«132337_j89043261980865_2_alg».proof.Proof.Gen.KernelIdeal.Frame
import proofs.«132337_j89043261980865_2_alg».proof.Proof.Gen.ReferenceIdeal
import proofs.«132337_j89043261980865_2_alg».proof.Proof.Gen.Pre_finite_inputs
import proofs.«132337_j89043261980865_2_alg».proof.Proof.RefRun
import proofs.«132337_j89043261980865_2_alg».proof.Proof.RefFrame
import proofs.«132337_j89043261980865_2_alg».proof.Proof.KernRun
import proofs.«132337_j89043261980865_2_alg».proof.Proof.Bridge
import proofs.«132337_j89043261980865_2_alg».proof.Defs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.RefRun.run_frame (F := Ideal) m ρ

/-- Both programs run, and end with equal result arrays: each result is the one function of the argument arrays,
    and the memories agree on the arguments. -/
theorem algebraic : Cert.algebraic_KernelIdeal_ReferenceIdeal := by
  intro m ρ m' ρ' _ hagree
  refine ⟨_, Cert.KernelIdeal.KernRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]
  exact Cert.Bridge.result_eq_kout _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
